-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S1 .f32) (main_arg9 : FVec F S64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S800000 32) (main_arg2 : IVec S800000 32) (main_arg3 : FVec F S800000 .f32) (main_arg4 : FVec F S64x64 .f32) (main_arg5 : FVec F S64 .f32) (main_arg6 : FVec F S64x64 .f32) (main_arg7 : FVec F S64 .f32) (main_arg8 : FVec F S1 .f32) (main_arg9 : FVec F S64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S1x1 : Shape := ⟨2, ![1, 1]⟩
abbrev S2000x64 : Shape := ⟨2, ![2000, 64]⟩

abbrev nBuf : Space → Nat
  | .hbm => 33
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1, .f32⟩
  | .hbm, ⟨9, _⟩ => ⟨S64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x1, .f32⟩
  | .hbm, ⟨21, _⟩ => ⟨S800000x64, .f32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S1x64, .f32⟩
  | .hbm, ⟨28, _⟩ => ⟨S1x64, .f32⟩
  | .hbm, ⟨29, _⟩ => ⟨S1x1, .f32⟩
  | .hbm, ⟨30, _⟩ => ⟨S1x64, .f32⟩
  | .hbm, ⟨31, _⟩ => ⟨S1x64, .f32⟩
  | .hbm, ⟨32, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x1, .f32⟩
  | .local _ .vmem, ⟨9, _⟩ => ⟨S1x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | .local _ .vmem, ⟨13, _⟩ => ⟨S50000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 25], ![false, false]⟩

def k0_mult1 (i : grid0.Coords) : BitVec 32 :=
  let arg1 : BitVec 32 := BitVec.ofNat 32 (i 1).val
  let c2000_i32 : BitVec 32 := 2000#32
  let v0 : BitVec 32 := Scalar.muli arg1 c2000_i32
  v0
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c2000_i32 : BitVec 32 := 2000#32
  let v0 : BitVec 32 := Scalar.muli arg1 c2000_i32
  let v1 : BitVec 32 := v0
  let v48 : Index := Scalar.indexCast v1
  let c0_24 : Index := 0#32
  ![v48.toNat, 0]
def k0_cond4 (i : grid0.Coords) : BitVec 1 :=
  let arg0 : BitVec 32 := BitVec.ofNat 32 (i 0).val
  let c1_i32_6 : BitVec 32 := 1#32
  let v15 : BitVec 1 := Scalar.cmpi .eq arg0 c1_i32_6
  let v16 : BitVec 32 := Scalar.extui v15
  let c0_i32_7 : BitVec 32 := 0#32
  let v17 : BitVec 1 := Scalar.cmpi .ne v16 c0_i32_7
  v17

def k0_off2 (i : grid0.Coords) : Fin 2 → Nat :=
  let arg1 : BitVec 32 := BitVec.ofNat 32 (i 1).val
  let c2000_i32 : BitVec 32 := 2000#32
  let v0 : BitVec 32 := Scalar.muli arg1 c2000_i32
  let v1 : BitVec 32 := v0
  let v18 : Index := Scalar.indexCast v1
  let c0 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S1_S1x1 : S1.ShapeCasts S1x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x64 : S1x1.Broadcasts S2000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  transposes_S64x64_p1_0_S64x64 : S64x64.Transposes [1, 0] S64x64
  broadcasts_S1x64_S2000x64 : S1x64.Broadcasts S2000x64
  reduces_S2000x64_S64 : S2000x64.Reduces [0] S64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  k0_mult1_dvd : ∀ i : grid0.Coords, 8 ∣ (k0_mult1 i).toNat
  k0_off1_inb : ∀ i : grid0.Coords, ∀ (k0_h2 : k0_cond2 i = 1#1), ∀ a, (k0_off1 i) a + S2000x64.size a ≤ S50000x64.size a
  k0_off2_inb : ∀ i : grid0.Coords, ∀ (k0_h4 : k0_cond4 i = 1#1), ∀ a, (k0_off2 i) a + S2000x64.size a ≤ S50000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S50000x64.size a
  hwx0_9 : ∀ i : grid0.Coords, EltTy.bits .f32 = 32 ∨ (Rect.block (s := S50000x64) S2000x64.size (cc0_transform_9 i) (hinb0_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v12) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S2000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond4 i == 1#1) | ⟨_ + 10, h⟩ => absurd h (Nat.not_lt.2 (Nat.le_add_left _ _))

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1, .f32⟩
  | .hbm, ⟨9, _⟩ => ⟨S64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x1, .f32⟩
  | .hbm, ⟨21, _⟩ => ⟨S800000x64, .f32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S64x64, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S_, .f32⟩
  | .hbm, ⟨39, _⟩ => ⟨S50000x64, .f32⟩
  | .hbm, ⟨40, _⟩ => ⟨S50000x64, .f32⟩
  | .hbm, ⟨41, _⟩ => ⟨S64x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S1_S_ : S1.ShapeCasts S_
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.WBodyShared.lean ====
/-
  The grid of the fused kernel is 2 x 25 points taken in row-major order: points 0..24 are the first pass
  (block i of the node rows is pushed through the two linear layers, kept in the resident buffer, and added
  into the running column sums and sums of squares), points 25..49 the second pass (the batch statistics are
  formed once at point 25, then block i is normalised and written out).  This module fixes the vocabulary:
  the four branch conditions of the body as conditions on the point's number, the staging buffer each
  window is on at a point, and the five resident buffers (the 50000 x 64 matrix of second-layer values, the
  running sums, the running sums of squares, the mean, the variance).
-/
import proofs.«176976_j49795850829912_2_alg».proof.Proof.Gen.Kernel.Launch
import proofs.«176976_j49795850829912_2_alg».proof.Proof.Gen.Kernel.Skeleton
import proofs.«176976_j49795850829912_2_alg».proof.Proof.Gen.Kernel.Points
import proofs.«176976_j49795850829912_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as conditions on the point's number -/

/-- "first pass and first block": the running sums are reset. -/
abbrev atReset (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem atReset_iff : ∀ t : Fin cfg0.N, atReset (grid0.coords t) ↔ t.val = 0 :=
  (by decide +kernel : ∀ t : Fin grid0.N, atReset (grid0.coords t) ↔ t.val = 0)

/-- "first pass": a block goes through the layers and is accumulated. -/
abbrev inPass0 (i : grid0.Coords) : Prop := k0_cond2 i = 1#1
theorem inPass0_iff : ∀ t : Fin cfg0.N, inPass0 (grid0.coords t) ↔ t.val < 25 :=
  (by decide +kernel : ∀ t : Fin grid0.N, inPass0 (grid0.coords t) ↔ t.val < 25)

/-- "second pass and first block": mean and variance are formed from the sums. -/
abbrev atStats (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem atStats_iff : ∀ t : Fin cfg0.N, atStats (grid0.coords t) ↔ t.val = 25 :=
  (by decide +kernel : ∀ t : Fin grid0.N, atStats (grid0.coords t) ↔ t.val = 25)

/-- "second pass": a block is normalised and written out. -/
abbrev inPass1 (i : grid0.Coords) : Prop := k0_cond4 i = 1#1
theorem inPass1_iff : ∀ t : Fin cfg0.N, inPass1 (grid0.coords t) ↔ 25 ≤ t.val :=
  (by decide +kernel : ∀ t : Fin grid0.N, inPass1 (grid0.coords t) ↔ 25 ≤ t.val)

/-! ## The buffers the body is called with -/

abbrev ms0 (t : Fin cfg0.N) : Memref sig .tc .vmem S2000x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2000x64 .f32 := win0_9.stage (cfg0.slots t 9)
abbrev hs9 (t : Fin cfg0.N) : (ms9 t).IsWhole := hstage0_9 ((cfg0.slots t 9).cast nbuf0_9)

/-- The five resident buffers: the matrix of second-layer values, the running sums, the running sums of
    squares, the mean, the variance. -/
abbrev bufH : Memref sig .tc .vmem S50000x64 .f32 := Memref.whole cc0_scratch0
abbrev bufS : Memref sig .tc .vmem S1x64 .f32 := Memref.whole cc0_scratch1
abbrev bufQ : Memref sig .tc .vmem S1x64 .f32 := Memref.whole cc0_scratch2
abbrev bufM : Memref sig .tc .vmem S1x64 .f32 := Memref.whole cc0_scratch3
abbrev bufV : Memref sig .tc .vmem S1x64 .f32 := Memref.whole cc0_scratch4

/-- Between points the region owns exactly the five resident buffers, each at some contents, and the generator
    register. -/
theorem regionOwns_eq (c : Dev nD) :
    (Pipeline.ΦA spec0 c : sProp 𝕄)
      = iprop(iprop((∃ d, owns (c : Thread nD τ) bufH fullShare d) ∗ (∃ d, owns (c : Thread nD τ) bufS fullShare d) ∗ (∃ d, owns (c : Thread nD τ) bufQ fullShare d) ∗ (∃ d, owns (c : Thread nD τ) bufM fullShare d) ∗ (∃ d, owns (c : Thread nD τ) bufV fullShare d)) ∗ (∃ r, prngReg c r)) := by
  unfold Pipeline.ΦA; rw [scopedRest0_eq]; simp only [bufH, bufS, bufQ, bufM, bufV, owns_whole]; try rfl

end Cert.Kernel.Body

end
-- ==== Proof.WBodyRunA.lean ====
/-
  The body at the first point: the running sums are reset, then block 0 goes through the layers, is kept, and is added in.
  Run on whole buffers whose contents are all named — the nine inputs' blocks, the output block's buffer, the five
  resident buffers — the body ends with every buffer it did not store into as it was, and every buffer it stored
  into at its previous contents overwritten, newest first, by the pieces listed; the lists are found by running the
  body, not written down.
-/
import proofs.«176976_j49795850829912_2_alg».proof.Proof.WBodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    Σ' (L12 : List (View.Piece (Elt F) S50000x64 .f32)) (L13 : List (View.Piece (Elt F) S1x64 .f32)), { L14 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ (arg12.view.loc (c : Thread nD τ) ↦[arg12.view.set]{fullShare} arg12.view.writes (Elt F) (harg12.unread xH) L12) ∗ (arg13.view.loc (c : Thread nD τ) ↦[arg13.view.set]{fullShare} arg13.view.writes (Elt F) (harg13.unread xS) L13) ∗ (arg14.view.loc (c : Thread nD τ) ↦[arg14.view.set]{fullShare} arg14.view.writes (Elt F) (harg14.unread xQ) L14) ∗ owns (c : Thread nD τ) arg15 fullShare xM ∗ owns (c : Thread nD τ) arg16 fullShare xV) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [H11]; · iexact H11
    isplitl [H12]; · iexact H12
    isplitl [H13]
    · iexists _; isplitr; · ipureintro; exact harg15.read_unread _
      iexact H13
    iexists _; isplitr; · ipureintro; exact harg16.read_unread _
    iexact H14

end Cert.Kernel.Body

end
-- ==== Proof.WBodyRunB.lean ====
/-
  The body at a later point of the first pass: block i goes through the layers, is kept, and is added into the running sums.
  Run on whole buffers whose contents are all named — the nine inputs' blocks, the output block's buffer, the five
  resident buffers — the body ends with every buffer it did not store into as it was, and every buffer it stored
  into at its previous contents overwritten, newest first, by the pieces listed; the lists are found by running the
  body, not written down.
-/
import proofs.«176976_j49795850829912_2_alg».proof.Proof.WBodyRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    Σ' (L12 : List (View.Piece (Elt F) S50000x64 .f32)) (L13 : List (View.Piece (Elt F) S1x64 .f32)), { L14 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ (arg12.view.loc (c : Thread nD τ) ↦[arg12.view.set]{fullShare} arg12.view.writes (Elt F) (harg12.unread xH) L12) ∗ (arg13.view.loc (c : Thread nD τ) ↦[arg13.view.set]{fullShare} arg13.view.writes (Elt F) (harg13.unread xS) L13) ∗ (arg14.view.loc (c : Thread nD τ) ↦[arg14.view.set]{fullShare} arg14.view.writes (Elt F) (harg14.unread xQ) L14) ∗ owns (c : Thread nD τ) arg15 fullShare xM ∗ owns (c : Thread nD τ) arg16 fullShare xV) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [H11]; · iexact H11
    isplitl [H12]; · iexact H12
    isplitl [H13]
    · iexists _; isplitr; · ipureintro; exact harg15.read_unread _
      iexact H13
    iexists _; isplitr; · ipureintro; exact harg16.read_unread _
    iexact H14

end Cert.Kernel.Body

end
-- ==== Proof.WBodyRunC.lean ====
/-
  The body at the first point of the second pass: mean and variance are formed from the sums, then block 0 is normalised and written.
  Run on whole buffers whose contents are all named — the nine inputs' blocks, the output block's buffer, the five
  resident buffers — the body ends with every buffer it did not store into as it was, and every buffer it stored
  into at its previous contents overwritten, newest first, by the pieces listed; the lists are found by running the
  body, not written down.
-/
import proofs.«176976_j49795850829912_2_alg».proof.Proof.WBodyRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    Σ' (L11 : List (View.Piece (Elt F) S2000x64 .f32)) (L15 : List (View.Piece (Elt F) S1x64 .f32)), { L16 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread xO) L11) ∗ owns (c : Thread nD τ) arg12 fullShare xH ∗ owns (c : Thread nD τ) arg13 fullShare xS ∗ owns (c : Thread nD τ) arg14 fullShare xQ ∗ (arg15.view.loc (c : Thread nD τ) ↦[arg15.view.set]{fullShare} arg15.view.writes (Elt F) (harg15.unread xM) L15) ∗ (arg16.view.loc (c : Thread nD τ) ↦[arg16.view.set]{fullShare} arg16.view.writes (Elt F) (harg16.unread xV) L16)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexact H13
    iexact H14

end Cert.Kernel.Body

end
-- ==== Proof.WBodyRunD.lean ====
/-
  The body at a later point of the second pass: block i is normalised and written.
  Run on whole buffers whose contents are all named — the nine inputs' blocks, the output block's buffer, the five
  resident buffers — the body ends with every buffer it did not store into as it was, and every buffer it stored
  into at its previous contents overwritten, newest first, by the pieces listed; the lists are found by running the
  body, not written down.
-/
import proofs.«176976_j49795850829912_2_alg».proof.Proof.WBodyRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runD (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : ¬atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    { L11 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread xO) L11) ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; isplitr; · ipureintro; exact harg16.read_unread _
    iexact H14

end Cert.Kernel.Body

end
-- ==== Proof.LibWholeStore.lean ====
/-
  A kernel that keeps a running value in a scratch buffer ends each grid point with a store of the whole buffer.
  Whatever the buffer held before and whatever was stored earlier in the point, the buffer then holds the payload of
  that last store: the store covers every index, and the latest covering store wins.
-/
import Idealize.ShloMosaic.Lib.Pipeline.Value
import Idealize.ShloMosaic.Lib.Pipeline.FrameBody

/-!
# What a buffer holds after a whole-buffer store

`read_writes_cons_whole`: for a list of stores whose LATEST is a store through the whole-shape rectangle at zero
offsets, the buffer read through its view holds that store's payload. Stated over an arbitrary shape, with the
zero offsets a hypothesis, so that an instance at a large literal shape never asks Lean to enumerate the rectangle.
`zero2`: the literal offsets `![0, 0]` are the zero offsets.
-/

noncomputable section

namespace Cert.Lib.WholeStore

open Idealize.ShloMosaic

/-- After a list of stores whose latest covers the whole buffer, the buffer holds that store's payload. -/
theorem read_writes_cons_whole {Val : EltTy → Type} [∀ e, Nonempty (Val e)] {sig : RefSig} {κ : Kind} {sp : Space}
    {S : Shape} {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, View.mem_set_unit_zero rfl inb y⟩),
    View.canon_cons_unit_zero rfl]

/-- The rank-2 literal offsets `![0, 0]` are the zero offsets. -/
theorem zero2 : (![0, 0] : Fin 2 → Nat) = fun _ => 0 := by
  funext a; match a with | ⟨0, _⟩ => rfl | ⟨1, _⟩ => rfl

end Cert.Lib.WholeStore

end
-- ==== Proof.LibWholeReadback.lean ====
/-
  A kernel that keeps a running value in a scratch buffer stores the whole buffer, loads it back, updates it and stores
  it again. Whatever the earlier stores were, a load of the whole buffer reads the payload of the LATEST store of the
  whole buffer: that store covers every index, and the latest covering store wins.
-/
import Idealize.ShloMosaic.Lib.Pipeline.Value

/-!
# Reading back a whole-buffer store

`readCov_cons_whole`: for a list of stores whose head is a store through the whole-shape rectangle at zero offsets, a
load through that rectangle reads the head's payload. The library's `View.readCov_unit_zero` is the case of a
one-store list; this is the case a buffer rewritten several times meets.
-/

noncomputable section

namespace Cert.Lib.WholeReadback

open Idealize.ShloMosaic

/-- A load of a whole buffer reads back the payload of the latest store of the whole buffer, whatever was stored
    before it. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.Lib.WholeReadback

end
-- ==== Proof.WBodyPieces.lean ====
/-
  What each store of the body leaves, as plain functions of the values the buffers held.
  A store of a whole buffer leaves its payload; a whole-buffer load after such a store reads that payload back;
  a load of a whole buffer that was not stored into reads what it held.  The one partial store — a block of
  2000 rows into the 50000-row matrix at row 2000 * (block number) — leaves the block inside those rows and the
  old contents elsewhere.
-/
import proofs.«176976_j49795850829912_2_alg».proof.Proof.WBodyRunD
import proofs.«176976_j49795850829912_2_alg».proof.Proof.LibWholeStore
import proofs.«176976_j49795850829912_2_alg».proof.Proof.LibWholeReadback
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.WholeStore Cert.Lib.WholeReadback

/-! ## The first point -/
set_option maxHeartbeats 4000000 in
/-- Inside the slab of rows the point handles, the big matrix now holds the block of second-layer values. -/
theorem pieceA_H_in (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) (y : S2000x64.Idx) (z : S50000x64.Idx)
    (h0 : (z 0).val = 2000 * (i 1).val + (y 0).val) (h1 : (z 1).val = (y 1).val) :
    arg12.view.read (Elt F) (arg12.view.writes (Elt F) (harg12.unread xH) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) z = k0_pay9 x1 x0 x6 x2 x4 x3 x5 y := by
  unfold runA
  dsimp only
  refine (View.read_writes_cons_rows_of_mem _ _ (k0_off1_inb i hc1) _ [] z y (k0_off1_eq i) h0 h1).trans ?_
  sl_unfold_words
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  simp only [k0_pay10, shapeCast_self]

set_option maxHeartbeats 4000000 in
/-- Outside it, the big matrix holds what it held. -/
theorem pieceA_H_out (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) (z : S50000x64.Idx)
    (h : (z 0).val < 2000 * (i 1).val ∨ 2000 * (i 1).val + 2000 ≤ (z 0).val) :
    arg12.view.read (Elt F) (arg12.view.writes (Elt F) (harg12.unread xH) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) z = xH z := by
  unfold runA
  dsimp only
  refine (View.read_writes_cons_rows_of_not_mem _ _ (k0_off1_inb i hc1) _ [] z (k0_off1_eq i) (W := 2000) rfl h).trans ?_
  rw [View.writes_nil, Memref.IsWhole.read_unread]

set_option maxHeartbeats 4000000 in
theorem pieceA_S (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg13.view.read (Elt F) (arg13.view.writes (Elt F) (harg13.unread xS) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.1) = k0_pay3 (k0_pay1 (F := F)) (k0_pay11 x1 x0 x6 x2 x4 x3 x5) := by
  unfold runA
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

set_option maxHeartbeats 4000000 in
theorem pieceA_Q (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg14.view.read (Elt F) (arg14.view.writes (Elt F) (harg14.unread xQ) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.2.1) = k0_pay4 (k0_pay9 x1 x0 x6 x2 x4 x3 x5) (k0_pay2 (F := F)) := by
  unfold runA
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

/-! ## The later points of the first pass -/
set_option maxHeartbeats 4000000 in
/-- Inside the slab of rows the point handles, the big matrix now holds the block of second-layer values. -/
theorem pieceB_H_in (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) (y : S2000x64.Idx) (z : S50000x64.Idx)
    (h0 : (z 0).val = 2000 * (i 1).val + (y 0).val) (h1 : (z 1).val = (y 1).val) :
    arg12.view.read (Elt F) (arg12.view.writes (Elt F) (harg12.unread xH) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) z = k0_pay9 x1 x0 x6 x2 x4 x3 x5 y := by
  unfold runB
  dsimp only
  refine (View.read_writes_cons_rows_of_mem _ _ (k0_off1_inb i hc1) _ [] z y (k0_off1_eq i) h0 h1).trans ?_
  sl_unfold_words
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  simp only [k0_pay10, shapeCast_self]

set_option maxHeartbeats 4000000 in
/-- Outside it, the big matrix holds what it held. -/
theorem pieceB_H_out (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) (z : S50000x64.Idx)
    (h : (z 0).val < 2000 * (i 1).val ∨ 2000 * (i 1).val + 2000 ≤ (z 0).val) :
    arg12.view.read (Elt F) (arg12.view.writes (Elt F) (harg12.unread xH) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) z = xH z := by
  unfold runB
  dsimp only
  refine (View.read_writes_cons_rows_of_not_mem _ _ (k0_off1_inb i hc1) _ [] z (k0_off1_eq i) (W := 2000) rfl h).trans ?_
  rw [View.writes_nil, Memref.IsWhole.read_unread]

set_option maxHeartbeats 4000000 in
theorem pieceB_S (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg13.view.read (Elt F) (arg13.view.writes (Elt F) (harg13.unread xS) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.1) = k0_pay3 xS (k0_pay11 x1 x0 x6 x2 x4 x3 x5) := by
  unfold runB
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

set_option maxHeartbeats 4000000 in
theorem pieceB_Q (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg14.view.read (Elt F) (arg14.view.writes (Elt F) (harg14.unread xQ) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.2.1) = k0_pay4 (k0_pay9 x1 x0 x6 x2 x4 x3 x5) xQ := by
  unfold runB
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

/-! ## The first point of the second pass -/
set_option maxHeartbeats 4000000 in
theorem pieceC_O (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg11.view.read (Elt F) (arg11.view.writes (Elt F) (harg11.unread xO) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) = k0_pay8 (View.ld xH (Rect.unit (k0_off2 i) S2000x64.size (k0_off2_inb i hc3))) (k0_pay7 xS xQ) (k0_pay6 xS) x7 x8 := by
  unfold runC
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

set_option maxHeartbeats 4000000 in
theorem pieceC_M (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg15.view.read (Elt F) (arg15.view.writes (Elt F) (harg15.unread xM) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.1) = k0_pay6 xS := by
  unfold runC
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

set_option maxHeartbeats 4000000 in
theorem pieceC_V (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg16.view.read (Elt F) (arg16.view.writes (Elt F) (harg16.unread xV) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.2.1) = k0_pay7 xS xQ := by
  unfold runC
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

/-! ## The later points of the second pass -/
set_option maxHeartbeats 4000000 in
theorem pieceD_O (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : ¬atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg11.view.read (Elt F) (arg11.view.writes (Elt F) (harg11.unread xO) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) = k0_pay8 (View.ld xH (Rect.unit (k0_off2 i) S2000x64.size (k0_off2_inb i hc3))) xV xM x7 x8 := by
  unfold runD
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

end Cert.Kernel.Body

end
-- ==== Proof.WBodyData.lean ====
/-
  What every buffer holds, point by point, as closed functions of the arrays the region is entered with.

  For a first-pass point t, linBlk t is the block of second-layer values of the 2000 node rows it handles and
  colSumBlk t that block's column sums.  sumAt n and sqAt n are the running column sums and sums of squares after
  point n (they stop changing after point 24); meanV and varV are the batch statistics formed from them; outBlk t is
  the normalised block written at a second-pass point t, which handles the same rows as first-pass point t mod 25.

  Between points the region holds its five resident buffers at contents tied to these by Inv n (before point n):
  the sums are sumAt (n-1) and sqAt (n-1); every block of rows already handled holds its linBlk in the big matrix;
  from point 26 on the mean and variance buffers hold meanV and varV.  Nothing is known before the first point.
-/
import proofs.«176976_j49795850829912_2_alg».proof.Proof.WBodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem cfgN : cfg0.N = 50 := N_0

/-- The first-pass point that handles the rows of block n mod 25. -/
def pt (n : ℕ) : Fin cfg0.N := ⟨n % 25, by have : cfg0.N = 50 := N_0; omega⟩

/-- Second-layer values of the rows handled at point t, from the input blocks there. -/
def linBlk (c : Dev nD) (t : Fin cfg0.N) : Vec F S2000x64 .f32 :=
  k0_pay9 (iblk m c 1 t) (iblk m c 0 t) (iblk m c 6 t) (iblk m c 2 t) (iblk m c 4 t) (iblk m c 3 t) (iblk m c 5 t)

/-- Their column sums. -/
def colSumBlk (c : Dev nD) (t : Fin cfg0.N) : Vec F S1x64 .f32 :=
  k0_pay11 (iblk m c 1 t) (iblk m c 0 t) (iblk m c 6 t) (iblk m c 2 t) (iblk m c 4 t) (iblk m c 3 t) (iblk m c 5 t)

/-- The running column sums after point n: reset and first block at point 0, one more block per point up to 24. -/
def sumAt (c : Dev nD) : ℕ → Vec F S1x64 .f32
  | 0 => k0_pay3 (k0_pay1 (F := F)) (colSumBlk m c (pt 0))
  | n + 1 => if n + 1 < 25 then k0_pay3 (sumAt c n) (colSumBlk m c (pt (n + 1))) else sumAt c n

/-- The running column sums of squares after point n. -/
def sqAt (c : Dev nD) : ℕ → Vec F S1x64 .f32
  | 0 => k0_pay4 (linBlk m c (pt 0)) (k0_pay2 (F := F))
  | n + 1 => if n + 1 < 25 then k0_pay4 (linBlk m c (pt (n + 1))) (sqAt c n) else sqAt c n

/-- The batch mean and variance, formed from the sums over all 25 blocks. -/
def meanV (c : Dev nD) : Vec F S1x64 .f32 := k0_pay6 (sumAt m c 24)
def varV (c : Dev nD) : Vec F S1x64 .f32 := k0_pay7 (sumAt m c 24) (sqAt m c 24)

/-- The normalised, scaled, shifted, rectified block written at point t. -/
def outBlk (c : Dev nD) (t : Fin cfg0.N) : Vec F S2000x64 .f32 :=
  k0_pay8 (linBlk m c (pt t.val)) (varV m c) (meanV m c) (iblk m c 7 t) (iblk m c 8 t)

/-- What is known of the five resident buffers before point n. -/
def Inv (c : Dev nD) (n : ℕ) (H : Vec F S50000x64 .f32) (S Q M Vr : Vec F S1x64 .f32) : Prop :=
  (1 ≤ n → S = sumAt m c (n - 1) ∧ Q = sqAt m c (n - 1))
  ∧ (∀ b : ℕ, b < n → b < 25 → ∀ (y : S2000x64.Idx) (z : S50000x64.Idx),
        (z 0).val = 2000 * b + (y 0).val → (z 1).val = (y 1).val → H z = linBlk m c (pt b) y)
  ∧ (26 ≤ n → M = meanV m c ∧ Vr = varV m c)

theorem Inv_zero (c : Dev nD) (H : Vec F S50000x64 .f32) (S Q M Vr : Vec F S1x64 .f32) : Inv m c 0 H S Q M Vr :=
  ⟨fun h => absurd h (by omega), fun b hb => absurd hb (by omega), fun h => absurd h (by omega)⟩

/-- The region's invariant before point n. -/
def PhiN (c : Dev nD) (n : ℕ) : sProp 𝕄 :=
  iprop((∃ H S Q M Vr, ⌜Inv m c n H S Q M Vr⌝ ∗ owns (c : Thread nD τ) bufH fullShare H ∗ owns (c : Thread nD τ) bufS fullShare S
      ∗ owns (c : Thread nD τ) bufQ fullShare Q ∗ owns (c : Thread nD τ) bufM fullShare M ∗ owns (c : Thread nD τ) bufV fullShare Vr)
    ∗ (∃ r, prngReg c r))

/-- The proof data: the arrays as the region finds them; each input's buffer left at its block; the output's
    buffer at outBlk; the invariant PhiN; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ t := PhiN m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiN m c t.val := by
  dsimp only [dats]; simp only [Fin.coe_castSucc]
theorem Phi_succ (c : Dev nD) (t : Fin cfg0.N) : (dats m 0 c).Φ t.succ = PhiN m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk m c t := by dsimp only [dats]

/-- Each input's current buffer holds its block at every point, fetched there or not. -/
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t)

/-- Point t's second grid coordinate is the number of the block of rows it handles. -/
theorem coord1 : ∀ t : Fin cfg0.N, ((grid0.coords t) 1).val = t.val % 25 :=
  (by decide +kernel : ∀ t : Fin grid0.N, ((grid0.coords t) 1).val = t.val % 25)

/-- The output window is idle and not written back in the first pass, live in the second. -/
theorem out_idle : ∀ t : Fin cfg0.N, t.val < 25 → cfg0.idle 9 (grid0.coords t) = true :=
  (by decide +kernel : ∀ t : Fin grid0.N, t.val < 25 → cfg0.idle 9 (grid0.coords t) = true)
theorem out_noflush : ∀ t : Fin cfg0.N, t.val < 25 → (cfg0.win 9).flush t = false :=
  (by decide +kernel : ∀ t : Fin grid0.N, t.val < 25 → win0_9.flush t = false)
theorem out_live : ∀ t : Fin cfg0.N, 25 ≤ t.val → cfg0.idle 9 (grid0.coords t) = false :=
  (by decide +kernel : ∀ t : Fin grid0.N, 25 ≤ t.val → cfg0.idle 9 (grid0.coords t) = false)
theorem in_live : ∀ (w : Fin 10), w.val < 9 → ∀ t : Fin cfg0.N, cfg0.idle w (grid0.coords t) = false := by decide +kernel

end Cert.Kernel.Body

end
-- ==== Proof.WBodyInv.lean ====
/-
  How the invariant on the resident buffers moves from one point to the next.
  A first-pass point n < 25 replaces the sums by the next running sums and overwrites rows 2000 n .. 2000 n + 1999 of
  the big matrix with block n, leaving every other row alone.  Point 25 stores the mean and the variance.  Points after
  it change nothing.  A block loaded from the big matrix at rows 2000 b .. is, row by row, what was stored there.
-/
import proofs.«176976_j49795850829912_2_alg».proof.Proof.WBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem pt_of_lt {n : ℕ} (h : n < 25) : (pt n).val = n := Nat.mod_eq_of_lt h

theorem pt_eq (t : Fin cfg0.N) (h : t.val < 25) : pt t.val = t := Fin.ext (Nat.mod_eq_of_lt h)

theorem pt_mod (n : ℕ) : pt (n % 25) = pt n := Fin.ext (Nat.mod_mod _ _)

theorem sumAt_succ_lt (c : Dev nD) (n : ℕ) (h : n + 1 < 25) :
    sumAt m c (n + 1) = k0_pay3 (sumAt m c n) (colSumBlk m c (pt (n + 1))) := by
  rw [sumAt, if_pos h]
theorem sumAt_succ_ge (c : Dev nD) (n : ℕ) (h : ¬ n + 1 < 25) : sumAt m c (n + 1) = sumAt m c n := by
  rw [sumAt, if_neg h]
theorem sqAt_succ_lt (c : Dev nD) (n : ℕ) (h : n + 1 < 25) :
    sqAt m c (n + 1) = k0_pay4 (linBlk m c (pt (n + 1))) (sqAt m c n) := by
  rw [sqAt, if_pos h]
theorem sqAt_succ_ge (c : Dev nD) (n : ℕ) (h : ¬ n + 1 < 25) : sqAt m c (n + 1) = sqAt m c n := by
  rw [sqAt, if_neg h]

/-- From point 24 on the running sums no longer change. -/
theorem sumAt_ge (c : Dev nD) : ∀ n, 24 ≤ n → sumAt m c n = sumAt m c 24
  | 0, h => absurd h (by omega)
  | n + 1, h => by
    by_cases h24 : n + 1 = 24
    · rw [h24]
    · rw [sumAt_succ_ge m c n (by omega)]; exact sumAt_ge c n (by omega)
theorem sqAt_ge (c : Dev nD) : ∀ n, 24 ≤ n → sqAt m c n = sqAt m c 24
  | 0, h => absurd h (by omega)
  | n + 1, h => by
    by_cases h24 : n + 1 = 24
    · rw [h24]
    · rw [sqAt_succ_ge m c n (by omega)]; exact sqAt_ge c n (by omega)

/-- A first-pass point: new sums, block n written into its rows, the other rows kept. -/
theorem Inv_pass0 (c : Dev nD) (n : ℕ) (hn : n < 25) (H H' : Vec F S50000x64 .f32) (S Q S' Q' M Vr : Vec F S1x64 .f32)
    (h : Inv m c n H S Q M Vr) (hS : S' = sumAt m c n) (hQ : Q' = sqAt m c n)
    (hin : ∀ (y : S2000x64.Idx) (z : S50000x64.Idx), (z 0).val = 2000 * n + (y 0).val → (z 1).val = (y 1).val →
      H' z = linBlk m c (pt n) y)
    (hout : ∀ z : S50000x64.Idx, ((z 0).val < 2000 * n ∨ 2000 * n + 2000 ≤ (z 0).val) → H' z = H z) :
    Inv m c (n + 1) H' S' Q' M Vr := by
  refine ⟨fun _ => ⟨by rw [hS, Nat.add_sub_cancel], by rw [hQ, Nat.add_sub_cancel]⟩, fun b hb hb25 y z h0 h1 => ?_,
    fun h26 => absurd h26 (by omega)⟩
  by_cases hbn : b = n
  · subst hbn; exact hin y z h0 h1
  · have hlt : b < n := by omega
    have hy : (y 0).val < 2000 := (y 0).isLt
    rw [hout z (Or.inl (by rw [h0]; omega))]
    exact h.2.1 b hlt hb25 y z h0 h1

/-- A point from 25 on: the sums and the big matrix are as they were; the statistics are known from point 26. -/
theorem Inv_pass1 (c : Dev nD) (n : ℕ) (hn : 25 ≤ n) (H : Vec F S50000x64 .f32) (S Q M Vr M' Vr' : Vec F S1x64 .f32)
    (h : Inv m c n H S Q M Vr) (hM : M' = meanV m c) (hV : Vr' = varV m c) :
    Inv m c (n + 1) H S Q M' Vr' := by
  obtain ⟨hS, hQ⟩ := h.1 (by omega)
  refine ⟨fun _ => ⟨?_, ?_⟩, fun b hb hb25 y z h0 h1 => h.2.1 b (by omega) hb25 y z h0 h1, fun _ => ⟨hM, hV⟩⟩
  · rw [hS, Nat.add_sub_cancel, sumAt_ge m c n (by omega), sumAt_ge m c (n - 1) (by omega)]
  · rw [hQ, Nat.add_sub_cancel, sqAt_ge m c n (by omega), sqAt_ge m c (n - 1) (by omega)]

/-- Before point 25 and later, the sums are the final ones. -/
theorem Inv_sums (c : Dev nD) (n : ℕ) (hn : 25 ≤ n) (H : Vec F S50000x64 .f32) (S Q M Vr : Vec F S1x64 .f32)
    (h : Inv m c n H S Q M Vr) : S = sumAt m c 24 ∧ Q = sqAt m c 24 := by
  obtain ⟨hS, hQ⟩ := h.1 (by omega)
  exact ⟨by rw [hS, sumAt_ge m c (n - 1) (by omega)], by rw [hQ, sqAt_ge m c (n - 1) (by omega)]⟩

/-- A block loaded from the big matrix at the rows of block (i 1) is what the invariant says was stored there. -/
theorem slab_eq (c : Dev nD) (t : Fin cfg0.N) (ht : 25 ≤ t.val) (h3 : inPass1 (grid0.coords t))
    (H : Vec F S50000x64 .f32) (S Q M Vr : Vec F S1x64 .f32) (h : Inv m c t.val H S Q M Vr) :
    View.ld H (Rect.unit (k0_off2 (grid0.coords t)) S2000x64.size (k0_off2_inb (grid0.coords t) h3)) = linBlk m c (pt t.val) := by
  funext y
  have hN : t.val < 50 := lt_of_lt_of_eq t.isLt cfgN
  rw [← pt_mod]
  refine h.2.1 (t.val % 25) (by omega) (Nat.mod_lt _ (by omega)) y
    ((Rect.unit (s := S50000x64) (k0_off2 (grid0.coords t)) S2000x64.size (k0_off2_inb (grid0.coords t) h3)).emb y) ?_ ?_
  · have e0 : k0_off2 (grid0.coords t) 0 = 2000 * (t.val % 25) := by rw [k0_off2_eq, coord1]; rfl
    show (k0_off2 (grid0.coords t)) 0 + 1 * (y 0).val = _
    omega
  · have e1 : k0_off2 (grid0.coords t) 1 = 0 := by rw [k0_off2_eq]; rfl
    show (k0_off2 (grid0.coords t)) 1 + 1 * (y 1).val = _
    omega

end Cert.Kernel.Body

end
-- ==== Proof.WBodyStepA.lean ====
/-
  The body at one point of the grid, from the region's invariant before the point to the invariant after it, with
  every window's buffer left as the proof data says.
-/
import proofs.«176976_j49795850829912_2_alg».proof.Proof.WBodyPieces
import proofs.«176976_j49795850829912_2_alg».proof.Proof.WBodyInv

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Cert.Lib.WholeStore in
set_option maxHeartbeats 8000000 in
theorem stepA (c : Dev nD) (t : Fin cfg0.N) (ht : t.val = 0) :
    bodyPre m c t ⊢ wp frame (wpE (defs₀ (F := F)) Variants.none c none) Set.univ (bodyAt0 t) (fun _ => bodyPost m c t) := by
  have hN : t.val < 50 := lt_of_lt_of_eq t.isLt cfgN
  unfold bodyPre bodyPost bodyAt0
  simp only [before_0, before_1, before_2, before_3, before_4, before_5, before_6, before_7, before_8]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [in_live 0 (by decide) t], after_0]
  rw [show (dats m 0 c).leavesExact 1 t = owns (c : Thread nD τ) (ms1 t) fullShare ((dats m 0 c).after 1 t) from by
    unfold Dat.leavesExact; rw [in_live 1 (by decide) t], after_1]
  rw [show (dats m 0 c).leavesExact 2 t = owns (c : Thread nD τ) (ms2 t) fullShare ((dats m 0 c).after 2 t) from by
    unfold Dat.leavesExact; rw [in_live 2 (by decide) t], after_2]
  rw [show (dats m 0 c).leavesExact 3 t = owns (c : Thread nD τ) (ms3 t) fullShare ((dats m 0 c).after 3 t) from by
    unfold Dat.leavesExact; rw [in_live 3 (by decide) t], after_3]
  rw [show (dats m 0 c).leavesExact 4 t = owns (c : Thread nD τ) (ms4 t) fullShare ((dats m 0 c).after 4 t) from by
    unfold Dat.leavesExact; rw [in_live 4 (by decide) t], after_4]
  rw [show (dats m 0 c).leavesExact 5 t = owns (c : Thread nD τ) (ms5 t) fullShare ((dats m 0 c).after 5 t) from by
    unfold Dat.leavesExact; rw [in_live 5 (by decide) t], after_5]
  rw [show (dats m 0 c).leavesExact 6 t = owns (c : Thread nD τ) (ms6 t) fullShare ((dats m 0 c).after 6 t) from by
    unfold Dat.leavesExact; rw [in_live 6 (by decide) t], after_6]
  rw [show (dats m 0 c).leavesExact 7 t = owns (c : Thread nD τ) (ms7 t) fullShare ((dats m 0 c).after 7 t) from by
    unfold Dat.leavesExact; rw [in_live 7 (by decide) t], after_7]
  rw [show (dats m 0 c).leavesExact 8 t = owns (c : Thread nD τ) (ms8 t) fullShare ((dats m 0 c).after 8 t) from by
    unfold Dat.leavesExact; rw [in_live 8 (by decide) t], after_8]
  rw [Dat.leavesExact_idle (dats m 0 c) 9 t (out_idle t (by omega)) (out_noflush t (by omega))]
  unfold PhiN
  iintro ⟨⟨⟨%H, %S, %Q, %M, %Vr, %hInv, HH, HS, HQ, HM, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc0 : atReset (grid0.coords t) := (atReset_iff t).mpr ht
  have hc1 : inPass0 (grid0.coords t) := (inPass0_iff t).mpr (by omega)
  have hc2 : ¬atStats (grid0.coords t) := fun h => by have := (atStats_iff t).mp h; omega
  have hc3 : ¬inPass1 (grid0.coords t) := fun h => by have := (inPass1_iff t).mp h; omega
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  isplitl [HQ]; · iexact HQ
  isplitl [HM]; · iexact HM
  isplitl [HV]; · iexact HV
  iintro ⟨H0, H1, H2, H3, H4, H5, H6, H7, H8, H9, HH, HS, HQ, HM, HV⟩
  isplitl [HH HS HQ HM HV Hg]
  · isplitl [HH HS HQ HM HV]
    · iexists _, _, _, M, Vr
      isplitr; swap
      · isplitl [HH]
        · unfold owns; iexists _; isplitr; swap; · iexact HH
          ipureintro; rfl
        isplitl [HS]
        · unfold owns; iexists _; isplitr; swap; · iexact HS
          ipureintro; rfl
        isplitl [HQ]
        · unfold owns; iexists _; isplitr; swap; · iexact HQ
          ipureintro; rfl
        isplitl [HM]; · iexact HM
        iexact HV
      · ipureintro
        have ht25 : t.val < 25 := by omega
        have hp : pt 0 = t := by have e := pt_eq t ht25; rw [ht] at e; exact e
        have eS : sumAt m c t.val = k0_pay3 (k0_pay1 (F := F)) (colSumBlk m c t) := by
          rw [ht]; show k0_pay3 k0_pay1 (colSumBlk m c (pt 0)) = _; rw [hp]
        have eQ : sqAt m c t.val = k0_pay4 (linBlk m c t) (k0_pay2 (F := F)) := by
          rw [ht]; show k0_pay4 (linBlk m c (pt 0)) k0_pay2 = _; rw [hp]
        refine Inv_pass0 m c t.val ht25 H _ S Q _ _ M Vr hInv ?_ ?_ ?_ ?_
        · rw [eS]; exact pieceA_S c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr
        · rw [eQ]; exact pieceA_Q c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr
        · intro y z h0 h1
          rw [pt_eq t ht25]
          exact pieceA_H_in c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr y z (by rw [coord1, Nat.mod_eq_of_lt ht25]; exact h0) h1
        · intro z h
          exact pieceA_H_out c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr z (by rw [coord1, Nat.mod_eq_of_lt ht25]; exact h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.WBodyStepB.lean ====
/-
  The body at one point of the grid, from the region's invariant before the point to the invariant after it, with
  every window's buffer left as the proof data says.
-/
import proofs.«176976_j49795850829912_2_alg».proof.Proof.WBodyPieces
import proofs.«176976_j49795850829912_2_alg».proof.Proof.WBodyInv

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Cert.Lib.WholeStore in
set_option maxHeartbeats 8000000 in
theorem stepB (c : Dev nD) (t : Fin cfg0.N) (ht0 : t.val ≠ 0) (ht : t.val < 25) :
    bodyPre m c t ⊢ wp frame (wpE (defs₀ (F := F)) Variants.none c none) Set.univ (bodyAt0 t) (fun _ => bodyPost m c t) := by
  have hN : t.val < 50 := lt_of_lt_of_eq t.isLt cfgN
  unfold bodyPre bodyPost bodyAt0
  simp only [before_0, before_1, before_2, before_3, before_4, before_5, before_6, before_7, before_8]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [in_live 0 (by decide) t], after_0]
  rw [show (dats m 0 c).leavesExact 1 t = owns (c : Thread nD τ) (ms1 t) fullShare ((dats m 0 c).after 1 t) from by
    unfold Dat.leavesExact; rw [in_live 1 (by decide) t], after_1]
  rw [show (dats m 0 c).leavesExact 2 t = owns (c : Thread nD τ) (ms2 t) fullShare ((dats m 0 c).after 2 t) from by
    unfold Dat.leavesExact; rw [in_live 2 (by decide) t], after_2]
  rw [show (dats m 0 c).leavesExact 3 t = owns (c : Thread nD τ) (ms3 t) fullShare ((dats m 0 c).after 3 t) from by
    unfold Dat.leavesExact; rw [in_live 3 (by decide) t], after_3]
  rw [show (dats m 0 c).leavesExact 4 t = owns (c : Thread nD τ) (ms4 t) fullShare ((dats m 0 c).after 4 t) from by
    unfold Dat.leavesExact; rw [in_live 4 (by decide) t], after_4]
  rw [show (dats m 0 c).leavesExact 5 t = owns (c : Thread nD τ) (ms5 t) fullShare ((dats m 0 c).after 5 t) from by
    unfold Dat.leavesExact; rw [in_live 5 (by decide) t], after_5]
  rw [show (dats m 0 c).leavesExact 6 t = owns (c : Thread nD τ) (ms6 t) fullShare ((dats m 0 c).after 6 t) from by
    unfold Dat.leavesExact; rw [in_live 6 (by decide) t], after_6]
  rw [show (dats m 0 c).leavesExact 7 t = owns (c : Thread nD τ) (ms7 t) fullShare ((dats m 0 c).after 7 t) from by
    unfold Dat.leavesExact; rw [in_live 7 (by decide) t], after_7]
  rw [show (dats m 0 c).leavesExact 8 t = owns (c : Thread nD τ) (ms8 t) fullShare ((dats m 0 c).after 8 t) from by
    unfold Dat.leavesExact; rw [in_live 8 (by decide) t], after_8]
  rw [Dat.leavesExact_idle (dats m 0 c) 9 t (out_idle t (by omega)) (out_noflush t (by omega))]
  unfold PhiN
  iintro ⟨⟨⟨%H, %S, %Q, %M, %Vr, %hInv, HH, HS, HQ, HM, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc0 : ¬atReset (grid0.coords t) := fun h => by have := (atReset_iff t).mp h; omega
  have hc1 : inPass0 (grid0.coords t) := (inPass0_iff t).mpr ht
  have hc2 : ¬atStats (grid0.coords t) := fun h => by have := (atStats_iff t).mp h; omega
  have hc3 : ¬inPass1 (grid0.coords t) := fun h => by have := (inPass1_iff t).mp h; omega
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  isplitl [HQ]; · iexact HQ
  isplitl [HM]; · iexact HM
  isplitl [HV]; · iexact HV
  iintro ⟨H0, H1, H2, H3, H4, H5, H6, H7, H8, H9, HH, HS, HQ, HM, HV⟩
  isplitl [HH HS HQ HM HV Hg]
  · isplitl [HH HS HQ HM HV]
    · iexists _, _, _, M, Vr
      isplitr; swap
      · isplitl [HH]
        · unfold owns; iexists _; isplitr; swap; · iexact HH
          ipureintro; rfl
        isplitl [HS]
        · unfold owns; iexists _; isplitr; swap; · iexact HS
          ipureintro; rfl
        isplitl [HQ]
        · unfold owns; iexists _; isplitr; swap; · iexact HQ
          ipureintro; rfl
        isplitl [HM]; · iexact HM
        iexact HV
      · ipureintro
        have ht25 : t.val < 25 := ht
        have eS : sumAt m c t.val = k0_pay3 (sumAt m c (t.val - 1)) (colSumBlk m c t) := by
          have e := sumAt_succ_lt m c (t.val - 1) (by omega)
          rw [Nat.sub_add_cancel (by omega)] at e; rw [e, pt_eq t ht25]
        have eQ : sqAt m c t.val = k0_pay4 (linBlk m c t) (sqAt m c (t.val - 1)) := by
          have e := sqAt_succ_lt m c (t.val - 1) (by omega)
          rw [Nat.sub_add_cancel (by omega)] at e; rw [e, pt_eq t ht25]
        obtain ⟨hS, hQ⟩ := hInv.1 (by omega)
        refine Inv_pass0 m c t.val ht25 H _ S Q _ _ M Vr hInv ?_ ?_ ?_ ?_
        · rw [eS, ← hS]; exact pieceB_S c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr
        · rw [eQ, ← hQ]; exact pieceB_Q c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr
        · intro y z h0 h1
          rw [pt_eq t ht25]
          exact pieceB_H_in c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr y z (by rw [coord1, Nat.mod_eq_of_lt ht25]; exact h0) h1
        · intro z h
          exact pieceB_H_out c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr z (by rw [coord1, Nat.mod_eq_of_lt ht25]; exact h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.WBodyStepC.lean ====
/-
  The body at one point of the grid, from the region's invariant before the point to the invariant after it, with
  every window's buffer left as the proof data says.
-/
import proofs.«176976_j49795850829912_2_alg».proof.Proof.WBodyPieces
import proofs.«176976_j49795850829912_2_alg».proof.Proof.WBodyInv

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Cert.Lib.WholeStore in
set_option maxHeartbeats 8000000 in
theorem stepC (c : Dev nD) (t : Fin cfg0.N) (ht : t.val = 25) :
    bodyPre m c t ⊢ wp frame (wpE (defs₀ (F := F)) Variants.none c none) Set.univ (bodyAt0 t) (fun _ => bodyPost m c t) := by
  have hN : t.val < 50 := lt_of_lt_of_eq t.isLt cfgN
  unfold bodyPre bodyPost bodyAt0
  simp only [before_0, before_1, before_2, before_3, before_4, before_5, before_6, before_7, before_8]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [in_live 0 (by decide) t], after_0]
  rw [show (dats m 0 c).leavesExact 1 t = owns (c : Thread nD τ) (ms1 t) fullShare ((dats m 0 c).after 1 t) from by
    unfold Dat.leavesExact; rw [in_live 1 (by decide) t], after_1]
  rw [show (dats m 0 c).leavesExact 2 t = owns (c : Thread nD τ) (ms2 t) fullShare ((dats m 0 c).after 2 t) from by
    unfold Dat.leavesExact; rw [in_live 2 (by decide) t], after_2]
  rw [show (dats m 0 c).leavesExact 3 t = owns (c : Thread nD τ) (ms3 t) fullShare ((dats m 0 c).after 3 t) from by
    unfold Dat.leavesExact; rw [in_live 3 (by decide) t], after_3]
  rw [show (dats m 0 c).leavesExact 4 t = owns (c : Thread nD τ) (ms4 t) fullShare ((dats m 0 c).after 4 t) from by
    unfold Dat.leavesExact; rw [in_live 4 (by decide) t], after_4]
  rw [show (dats m 0 c).leavesExact 5 t = owns (c : Thread nD τ) (ms5 t) fullShare ((dats m 0 c).after 5 t) from by
    unfold Dat.leavesExact; rw [in_live 5 (by decide) t], after_5]
  rw [show (dats m 0 c).leavesExact 6 t = owns (c : Thread nD τ) (ms6 t) fullShare ((dats m 0 c).after 6 t) from by
    unfold Dat.leavesExact; rw [in_live 6 (by decide) t], after_6]
  rw [show (dats m 0 c).leavesExact 7 t = owns (c : Thread nD τ) (ms7 t) fullShare ((dats m 0 c).after 7 t) from by
    unfold Dat.leavesExact; rw [in_live 7 (by decide) t], after_7]
  rw [show (dats m 0 c).leavesExact 8 t = owns (c : Thread nD τ) (ms8 t) fullShare ((dats m 0 c).after 8 t) from by
    unfold Dat.leavesExact; rw [in_live 8 (by decide) t], after_8]
  rw [show (dats m 0 c).leavesExact 9 t = owns (c : Thread nD τ) (ms9 t) fullShare ((dats m 0 c).after 9 t) from by
    unfold Dat.leavesExact; rw [out_live t (by omega)], after_9]
  unfold PhiN
  iintro ⟨⟨⟨%H, %S, %Q, %M, %Vr, %hInv, HH, HS, HQ, HM, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc0 : ¬atReset (grid0.coords t) := fun h => by have := (atReset_iff t).mp h; omega
  have hc1 : ¬inPass0 (grid0.coords t) := fun h => by have := (inPass0_iff t).mp h; omega
  have hc2 : atStats (grid0.coords t) := (atStats_iff t).mpr ht
  have hc3 : inPass1 (grid0.coords t) := (inPass1_iff t).mpr (by omega)
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  isplitl [HQ]; · iexact HQ
  isplitl [HM]; · iexact HM
  isplitl [HV]; · iexact HV
  iintro ⟨H0, H1, H2, H3, H4, H5, H6, H7, H8, H9, HH, HS, HQ, HM, HV⟩
  isplitl [HH HS HQ HM HV Hg]
  · isplitl [HH HS HQ HM HV]
    · iexists H, S, Q, _, _
      isplitr; swap
      · isplitl [HH]; · iexact HH
        isplitl [HS]; · iexact HS
        isplitl [HQ]; · iexact HQ
        isplitl [HM]
        · unfold owns; iexists _; isplitr; swap; · iexact HM
          ipureintro; rfl
        unfold owns; iexists _; isplitr; swap; · iexact HV
        ipureintro; rfl
      · ipureintro
        obtain ⟨hS, hQ⟩ := Inv_sums m c t.val (by omega) H S Q M Vr hInv
        refine Inv_pass1 m c t.val (by omega) H S Q M Vr _ _ hInv ?_ ?_
        · refine (pieceC_M c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).trans ?_
          rw [hS]; rfl
        · refine (pieceC_V c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).trans ?_
          rw [hS, hQ]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap; · iexact H9
  ipureintro
  obtain ⟨hS, hQ⟩ := Inv_sums m c t.val (by omega) H S Q M Vr hInv
  refine (pieceC_O c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).trans ?_
  rw [slab_eq m c t (by omega) hc3 H S Q M Vr hInv, hS, hQ]
  rfl

end Cert.Kernel.Body

end
-- ==== Proof.WBodyStepD.lean ====
/-
  The body at one point of the grid, from the region's invariant before the point to the invariant after it, with
  every window's buffer left as the proof data says.
-/
import proofs.«176976_j49795850829912_2_alg».proof.Proof.WBodyPieces
import proofs.«176976_j49795850829912_2_alg».proof.Proof.WBodyInv

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Cert.Lib.WholeStore in
set_option maxHeartbeats 8000000 in
theorem stepD (c : Dev nD) (t : Fin cfg0.N) (ht : 25 < t.val) :
    bodyPre m c t ⊢ wp frame (wpE (defs₀ (F := F)) Variants.none c none) Set.univ (bodyAt0 t) (fun _ => bodyPost m c t) := by
  have hN : t.val < 50 := lt_of_lt_of_eq t.isLt cfgN
  unfold bodyPre bodyPost bodyAt0
  simp only [before_0, before_1, before_2, before_3, before_4, before_5, before_6, before_7, before_8]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [in_live 0 (by decide) t], after_0]
  rw [show (dats m 0 c).leavesExact 1 t = owns (c : Thread nD τ) (ms1 t) fullShare ((dats m 0 c).after 1 t) from by
    unfold Dat.leavesExact; rw [in_live 1 (by decide) t], after_1]
  rw [show (dats m 0 c).leavesExact 2 t = owns (c : Thread nD τ) (ms2 t) fullShare ((dats m 0 c).after 2 t) from by
    unfold Dat.leavesExact; rw [in_live 2 (by decide) t], after_2]
  rw [show (dats m 0 c).leavesExact 3 t = owns (c : Thread nD τ) (ms3 t) fullShare ((dats m 0 c).after 3 t) from by
    unfold Dat.leavesExact; rw [in_live 3 (by decide) t], after_3]
  rw [show (dats m 0 c).leavesExact 4 t = owns (c : Thread nD τ) (ms4 t) fullShare ((dats m 0 c).after 4 t) from by
    unfold Dat.leavesExact; rw [in_live 4 (by decide) t], after_4]
  rw [show (dats m 0 c).leavesExact 5 t = owns (c : Thread nD τ) (ms5 t) fullShare ((dats m 0 c).after 5 t) from by
    unfold Dat.leavesExact; rw [in_live 5 (by decide) t], after_5]
  rw [show (dats m 0 c).leavesExact 6 t = owns (c : Thread nD τ) (ms6 t) fullShare ((dats m 0 c).after 6 t) from by
    unfold Dat.leavesExact; rw [in_live 6 (by decide) t], after_6]
  rw [show (dats m 0 c).leavesExact 7 t = owns (c : Thread nD τ) (ms7 t) fullShare ((dats m 0 c).after 7 t) from by
    unfold Dat.leavesExact; rw [in_live 7 (by decide) t], after_7]
  rw [show (dats m 0 c).leavesExact 8 t = owns (c : Thread nD τ) (ms8 t) fullShare ((dats m 0 c).after 8 t) from by
    unfold Dat.leavesExact; rw [in_live 8 (by decide) t], after_8]
  rw [show (dats m 0 c).leavesExact 9 t = owns (c : Thread nD τ) (ms9 t) fullShare ((dats m 0 c).after 9 t) from by
    unfold Dat.leavesExact; rw [out_live t (by omega)], after_9]
  unfold PhiN
  iintro ⟨⟨⟨%H, %S, %Q, %M, %Vr, %hInv, HH, HS, HQ, HM, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc0 : ¬atReset (grid0.coords t) := fun h => by have := (atReset_iff t).mp h; omega
  have hc1 : ¬inPass0 (grid0.coords t) := fun h => by have := (inPass0_iff t).mp h; omega
  have hc2 : ¬atStats (grid0.coords t) := fun h => by have := (atStats_iff t).mp h; omega
  have hc3 : inPass1 (grid0.coords t) := (inPass1_iff t).mpr (by omega)
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  isplitl [HQ]; · iexact HQ
  isplitl [HM]; · iexact HM
  isplitl [HV]; · iexact HV
  iintro ⟨H0, H1, H2, H3, H4, H5, H6, H7, H8, H9, HH, HS, HQ, HM, HV⟩
  isplitl [HH HS HQ HM HV Hg]
  · isplitl [HH HS HQ HM HV]
    · iexists H, S, Q, M, Vr
      isplitr; swap
      · isplitl [HH]; · iexact HH
        isplitl [HS]; · iexact HS
        isplitl [HQ]; · iexact HQ
        isplitl [HM]; · iexact HM
        iexact HV
      · ipureintro
        exact Inv_pass1 m c t.val (by omega) H S Q M Vr M Vr hInv (hInv.2.2 (by omega)).1 (hInv.2.2 (by omega)).2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap; · iexact H9
  ipureintro
  refine (pieceD_O c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).trans ?_
  rw [slab_eq m c t (by omega) hc3 H S Q M Vr hInv, (hInv.2.2 (by omega)).1, (hInv.2.2 (by omega)).2]
  rfl

end Cert.Kernel.Body

end
-- ==== Proof.WBodyFrame.lean ====
/-
  The frame run of the fused kernel: at every grid point the body takes the region's invariant and the windows'
  buffers to the next invariant and the buffers the proof data names (by cases on which of the four kinds of point
  it is); the invariant holds trivially on entry and is forgotten on exit; so every execution of the program ends
  with each windowed array at what the proof data computes and every other buffer untouched — in particular the
  eleven arguments unchanged.
-/
import proofs.«176976_j49795850829912_2_alg».proof.Proof.WBodyStepA
import proofs.«176976_j49795850829912_2_alg».proof.Proof.WBodyStepB
import proofs.«176976_j49795850829912_2_alg».proof.Proof.WBodyStepC
import proofs.«176976_j49795850829912_2_alg».proof.Proof.WBodyStepD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt cfgN
  by_cases h0 : t.val = 0
  · exact stepA m c t h0
  · by_cases h1 : t.val < 25
    · exact stepB m c t h0 h1
    · by_cases h2 : t.val = 25
      · exact stepC m c t h2
      · exact stepD m c t (by omega)

theorem body_obligation (c : Dev nD) : BodyObligation (dats (F := F) m 0 c) (defs₀ (F := F)) Variants.none () Set.univ := fun t => by
  rw [bigSep_W0, bigSep_W0]
  exact sound_body m c t

/-- On entry nothing is claimed of the resident buffers. -/
theorem hin (c : Dev nD) : Pipeline.ΦA spec0 c ⊢ (dats m 0 c).Φ 0 := by
  rw [show (dats m 0 c).Φ 0 = PhiN m c 0 from rfl, regionOwns_eq]
  unfold PhiN
  iintro ⟨⟨⟨%H, HH⟩, ⟨%S, HS⟩, ⟨%Q, HQ⟩, ⟨%M, HM⟩, ⟨%Vr, HV⟩⟩, Hg⟩
  isplitl [HH HS HQ HM HV]
  · iexists H, S, Q, M, Vr
    isplitr
    · ipureintro; exact Inv_zero m c H S Q M Vr
    isplitl [HH]; · iexact HH
    isplitl [HS]; · iexact HS
    isplitl [HQ]; · iexact HQ
    isplitl [HM]; · iexact HM
    iexact HV
  iexact Hg

/-- On exit what they hold is forgotten. -/
theorem hout (c : Dev nD) : (dats m 0 c).Φ (Fin.last cfg0.N) ⊢ Pipeline.ΦA spec0 c := by
  rw [show (dats m 0 c).Φ (Fin.last cfg0.N) = PhiN m c (Fin.last cfg0.N).val from rfl, regionOwns_eq]
  unfold PhiN
  iintro ⟨⟨%H, %S, %Q, %M, %Vr, -, HH, HS, HQ, HM, HV⟩, Hg⟩
  isplitl [HH HS HQ HM HV]
  · isplitl [HH]; · iexists _; iexact HH
    isplitl [HS]; · iexists _; iexact HS
    isplitl [HQ]; · iexists _; iexact HQ
    isplitl [HM]; · iexists _; iexact HM
    iexists _; iexact HV
  iexact Hg

set_option backward.isDefEq.respectTransparency.types false in
/-- Every weakly fair execution terminates with every windowed array at what the proof data computes and every
    other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Body

end
-- ==== Proof.BodyShared.lean ====
/-
  The grid of the fused kernel is 2 x 25 points taken in row-major order: points 0..24 are the first pass
  (block i of the node rows is pushed through the two linear layers, kept in the resident buffer, and added
  into the running column sums and sums of squares), points 25..49 the second pass (the batch statistics are
  formed once at point 25, then block i is normalised and written out).  This module fixes the vocabulary:
  the four branch conditions of the body as conditions on the point's number, the staging buffer each
  window is on at a point, and the five resident buffers (the 50000 x 64 matrix of second-layer values, the
  running sums, the running sums of squares, the mean, the variance).
-/
import proofs.«176976_j49795850829912_2_alg».proof.Proof.Gen.KernelIdeal.Launch
import proofs.«176976_j49795850829912_2_alg».proof.Proof.Gen.KernelIdeal.Skeleton
import proofs.«176976_j49795850829912_2_alg».proof.Proof.Gen.KernelIdeal.Points
import proofs.«176976_j49795850829912_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as conditions on the point's number -/

/-- "first pass and first block": the running sums are reset. -/
abbrev atReset (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem atReset_iff : ∀ t : Fin cfg0.N, atReset (grid0.coords t) ↔ t.val = 0 :=
  (by decide +kernel : ∀ t : Fin grid0.N, atReset (grid0.coords t) ↔ t.val = 0)

/-- "first pass": a block goes through the layers and is accumulated. -/
abbrev inPass0 (i : grid0.Coords) : Prop := k0_cond2 i = 1#1
theorem inPass0_iff : ∀ t : Fin cfg0.N, inPass0 (grid0.coords t) ↔ t.val < 25 :=
  (by decide +kernel : ∀ t : Fin grid0.N, inPass0 (grid0.coords t) ↔ t.val < 25)

/-- "second pass and first block": mean and variance are formed from the sums. -/
abbrev atStats (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem atStats_iff : ∀ t : Fin cfg0.N, atStats (grid0.coords t) ↔ t.val = 25 :=
  (by decide +kernel : ∀ t : Fin grid0.N, atStats (grid0.coords t) ↔ t.val = 25)

/-- "second pass": a block is normalised and written out. -/
abbrev inPass1 (i : grid0.Coords) : Prop := k0_cond4 i = 1#1
theorem inPass1_iff : ∀ t : Fin cfg0.N, inPass1 (grid0.coords t) ↔ 25 ≤ t.val :=
  (by decide +kernel : ∀ t : Fin grid0.N, inPass1 (grid0.coords t) ↔ 25 ≤ t.val)

/-! ## The buffers the body is called with -/

abbrev ms0 (t : Fin cfg0.N) : Memref sig .tc .vmem S2000x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2000x64 .f32 := win0_9.stage (cfg0.slots t 9)
abbrev hs9 (t : Fin cfg0.N) : (ms9 t).IsWhole := hstage0_9 ((cfg0.slots t 9).cast nbuf0_9)

/-- The five resident buffers: the matrix of second-layer values, the running sums, the running sums of
    squares, the mean, the variance. -/
abbrev bufH : Memref sig .tc .vmem S50000x64 .f32 := Memref.whole cc0_scratch0
abbrev bufS : Memref sig .tc .vmem S1x64 .f32 := Memref.whole cc0_scratch1
abbrev bufQ : Memref sig .tc .vmem S1x64 .f32 := Memref.whole cc0_scratch2
abbrev bufM : Memref sig .tc .vmem S1x64 .f32 := Memref.whole cc0_scratch3
abbrev bufV : Memref sig .tc .vmem S1x64 .f32 := Memref.whole cc0_scratch4

/-- Between points the region owns exactly the five resident buffers, each at some contents, and the generator
    register. -/
theorem regionOwns_eq (c : Dev nD) :
    (Pipeline.ΦA spec0 c : sProp 𝕄)
      = iprop(iprop((∃ d, owns (c : Thread nD τ) bufH fullShare d) ∗ (∃ d, owns (c : Thread nD τ) bufS fullShare d) ∗ (∃ d, owns (c : Thread nD τ) bufQ fullShare d) ∗ (∃ d, owns (c : Thread nD τ) bufM fullShare d) ∗ (∃ d, owns (c : Thread nD τ) bufV fullShare d)) ∗ (∃ r, prngReg c r)) := by
  unfold Pipeline.ΦA; rw [scopedRest0_eq]; simp only [bufH, bufS, bufQ, bufM, bufV, owns_whole]; try rfl

end Cert.KernelIdeal.Body

end
-- ==== Proof.BodyRunA.lean ====
/-
  The body at the first point: the running sums are reset, then block 0 goes through the layers, is kept, and is added in.
  Run on whole buffers whose contents are all named — the nine inputs' blocks, the output block's buffer, the five
  resident buffers — the body ends with every buffer it did not store into as it was, and every buffer it stored
  into at its previous contents overwritten, newest first, by the pieces listed; the lists are found by running the
  body, not written down.
-/
import proofs.«176976_j49795850829912_2_alg».proof.Proof.BodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    Σ' (L12 : List (View.Piece (Elt F) S50000x64 .f32)) (L13 : List (View.Piece (Elt F) S1x64 .f32)), { L14 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ (arg12.view.loc (c : Thread nD τ) ↦[arg12.view.set]{fullShare} arg12.view.writes (Elt F) (harg12.unread xH) L12) ∗ (arg13.view.loc (c : Thread nD τ) ↦[arg13.view.set]{fullShare} arg13.view.writes (Elt F) (harg13.unread xS) L13) ∗ (arg14.view.loc (c : Thread nD τ) ↦[arg14.view.set]{fullShare} arg14.view.writes (Elt F) (harg14.unread xQ) L14) ∗ owns (c : Thread nD τ) arg15 fullShare xM ∗ owns (c : Thread nD τ) arg16 fullShare xV) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [H11]; · iexact H11
    isplitl [H12]; · iexact H12
    isplitl [H13]
    · iexists _; isplitr; · ipureintro; exact harg15.read_unread _
      iexact H13
    iexists _; isplitr; · ipureintro; exact harg16.read_unread _
    iexact H14

end Cert.KernelIdeal.Body

end
-- ==== Proof.BodyRunB.lean ====
/-
  The body at a later point of the first pass: block i goes through the layers, is kept, and is added into the running sums.
  Run on whole buffers whose contents are all named — the nine inputs' blocks, the output block's buffer, the five
  resident buffers — the body ends with every buffer it did not store into as it was, and every buffer it stored
  into at its previous contents overwritten, newest first, by the pieces listed; the lists are found by running the
  body, not written down.
-/
import proofs.«176976_j49795850829912_2_alg».proof.Proof.BodyRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    Σ' (L12 : List (View.Piece (Elt F) S50000x64 .f32)) (L13 : List (View.Piece (Elt F) S1x64 .f32)), { L14 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ (arg12.view.loc (c : Thread nD τ) ↦[arg12.view.set]{fullShare} arg12.view.writes (Elt F) (harg12.unread xH) L12) ∗ (arg13.view.loc (c : Thread nD τ) ↦[arg13.view.set]{fullShare} arg13.view.writes (Elt F) (harg13.unread xS) L13) ∗ (arg14.view.loc (c : Thread nD τ) ↦[arg14.view.set]{fullShare} arg14.view.writes (Elt F) (harg14.unread xQ) L14) ∗ owns (c : Thread nD τ) arg15 fullShare xM ∗ owns (c : Thread nD τ) arg16 fullShare xV) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [H11]; · iexact H11
    isplitl [H12]; · iexact H12
    isplitl [H13]
    · iexists _; isplitr; · ipureintro; exact harg15.read_unread _
      iexact H13
    iexists _; isplitr; · ipureintro; exact harg16.read_unread _
    iexact H14

end Cert.KernelIdeal.Body

end
-- ==== Proof.BodyRunC.lean ====
/-
  The body at the first point of the second pass: mean and variance are formed from the sums, then block 0 is normalised and written.
  Run on whole buffers whose contents are all named — the nine inputs' blocks, the output block's buffer, the five
  resident buffers — the body ends with every buffer it did not store into as it was, and every buffer it stored
  into at its previous contents overwritten, newest first, by the pieces listed; the lists are found by running the
  body, not written down.
-/
import proofs.«176976_j49795850829912_2_alg».proof.Proof.BodyRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    Σ' (L11 : List (View.Piece (Elt F) S2000x64 .f32)) (L15 : List (View.Piece (Elt F) S1x64 .f32)), { L16 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread xO) L11) ∗ owns (c : Thread nD τ) arg12 fullShare xH ∗ owns (c : Thread nD τ) arg13 fullShare xS ∗ owns (c : Thread nD τ) arg14 fullShare xQ ∗ (arg15.view.loc (c : Thread nD τ) ↦[arg15.view.set]{fullShare} arg15.view.writes (Elt F) (harg15.unread xM) L15) ∗ (arg16.view.loc (c : Thread nD τ) ↦[arg16.view.set]{fullShare} arg16.view.writes (Elt F) (harg16.unread xV) L16)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexact H13
    iexact H14

end Cert.KernelIdeal.Body

end
-- ==== Proof.BodyRunD.lean ====
/-
  The body at a later point of the second pass: block i is normalised and written.
  Run on whole buffers whose contents are all named — the nine inputs' blocks, the output block's buffer, the five
  resident buffers — the body ends with every buffer it did not store into as it was, and every buffer it stored
  into at its previous contents overwritten, newest first, by the pieces listed; the lists are found by running the
  body, not written down.
-/
import proofs.«176976_j49795850829912_2_alg».proof.Proof.BodyRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runD (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : ¬atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    { L11 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xO ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread xO) L11) ∗ owns (c : Thread nD τ) arg12 fullShare xH ∗ owns (c : Thread nD τ) arg13 fullShare xS ∗ owns (c : Thread nD τ) arg14 fullShare xQ ∗ owns (c : Thread nD τ) arg15 fullShare xM ∗ owns (c : Thread nD τ) arg16 fullShare xV) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; isplitr; · ipureintro; exact harg16.read_unread _
    iexact H14

end Cert.KernelIdeal.Body

end
-- ==== Proof.BodyPieces.lean ====
/-
  What each store of the body leaves, as plain functions of the values the buffers held.
  A store of a whole buffer leaves its payload; a whole-buffer load after such a store reads that payload back;
  a load of a whole buffer that was not stored into reads what it held.  The one partial store — a block of
  2000 rows into the 50000-row matrix at row 2000 * (block number) — leaves the block inside those rows and the
  old contents elsewhere.
-/
import proofs.«176976_j49795850829912_2_alg».proof.Proof.BodyRunD
import proofs.«176976_j49795850829912_2_alg».proof.Proof.LibWholeStore
import proofs.«176976_j49795850829912_2_alg».proof.Proof.LibWholeReadback
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.WholeStore Cert.Lib.WholeReadback

/-! ## The first point -/
set_option maxHeartbeats 4000000 in
/-- Inside the slab of rows the point handles, the big matrix now holds the block of second-layer values. -/
theorem pieceA_H_in (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) (y : S2000x64.Idx) (z : S50000x64.Idx)
    (h0 : (z 0).val = 2000 * (i 1).val + (y 0).val) (h1 : (z 1).val = (y 1).val) :
    arg12.view.read (Elt F) (arg12.view.writes (Elt F) (harg12.unread xH) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) z = k0_pay9 x1 x0 x6 x2 x4 x3 x5 y := by
  unfold runA
  dsimp only
  refine (View.read_writes_cons_rows_of_mem _ _ (k0_off1_inb i hc1) _ [] z y (k0_off1_eq i) h0 h1).trans ?_
  sl_unfold_words
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  simp only [k0_pay10, shapeCast_self]

set_option maxHeartbeats 4000000 in
/-- Outside it, the big matrix holds what it held. -/
theorem pieceA_H_out (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) (z : S50000x64.Idx)
    (h : (z 0).val < 2000 * (i 1).val ∨ 2000 * (i 1).val + 2000 ≤ (z 0).val) :
    arg12.view.read (Elt F) (arg12.view.writes (Elt F) (harg12.unread xH) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) z = xH z := by
  unfold runA
  dsimp only
  refine (View.read_writes_cons_rows_of_not_mem _ _ (k0_off1_inb i hc1) _ [] z (k0_off1_eq i) (W := 2000) rfl h).trans ?_
  rw [View.writes_nil, Memref.IsWhole.read_unread]

set_option maxHeartbeats 4000000 in
theorem pieceA_S (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg13.view.read (Elt F) (arg13.view.writes (Elt F) (harg13.unread xS) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.1) = k0_pay3 (k0_pay1 (F := F)) (k0_pay11 x1 x0 x6 x2 x4 x3 x5) := by
  unfold runA
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

set_option maxHeartbeats 4000000 in
theorem pieceA_Q (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg14.view.read (Elt F) (arg14.view.writes (Elt F) (harg14.unread xQ) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.2.1) = k0_pay4 (k0_pay9 x1 x0 x6 x2 x4 x3 x5) (k0_pay2 (F := F)) := by
  unfold runA
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

/-! ## The later points of the first pass -/
set_option maxHeartbeats 4000000 in
/-- Inside the slab of rows the point handles, the big matrix now holds the block of second-layer values. -/
theorem pieceB_H_in (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) (y : S2000x64.Idx) (z : S50000x64.Idx)
    (h0 : (z 0).val = 2000 * (i 1).val + (y 0).val) (h1 : (z 1).val = (y 1).val) :
    arg12.view.read (Elt F) (arg12.view.writes (Elt F) (harg12.unread xH) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) z = k0_pay9 x1 x0 x6 x2 x4 x3 x5 y := by
  unfold runB
  dsimp only
  refine (View.read_writes_cons_rows_of_mem _ _ (k0_off1_inb i hc1) _ [] z y (k0_off1_eq i) h0 h1).trans ?_
  sl_unfold_words
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  simp only [k0_pay10, shapeCast_self]

set_option maxHeartbeats 4000000 in
/-- Outside it, the big matrix holds what it held. -/
theorem pieceB_H_out (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) (z : S50000x64.Idx)
    (h : (z 0).val < 2000 * (i 1).val ∨ 2000 * (i 1).val + 2000 ≤ (z 0).val) :
    arg12.view.read (Elt F) (arg12.view.writes (Elt F) (harg12.unread xH) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) z = xH z := by
  unfold runB
  dsimp only
  refine (View.read_writes_cons_rows_of_not_mem _ _ (k0_off1_inb i hc1) _ [] z (k0_off1_eq i) (W := 2000) rfl h).trans ?_
  rw [View.writes_nil, Memref.IsWhole.read_unread]

set_option maxHeartbeats 4000000 in
theorem pieceB_S (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg13.view.read (Elt F) (arg13.view.writes (Elt F) (harg13.unread xS) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.1) = k0_pay3 xS (k0_pay11 x1 x0 x6 x2 x4 x3 x5) := by
  unfold runB
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

set_option maxHeartbeats 4000000 in
theorem pieceB_Q (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : inPass0 i) (hc2 : ¬atStats i) (hc3 : ¬inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg14.view.read (Elt F) (arg14.view.writes (Elt F) (harg14.unread xQ) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.2.1) = k0_pay4 (k0_pay9 x1 x0 x6 x2 x4 x3 x5) xQ := by
  unfold runB
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

/-! ## The first point of the second pass -/
set_option maxHeartbeats 4000000 in
theorem pieceC_O (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg11.view.read (Elt F) (arg11.view.writes (Elt F) (harg11.unread xO) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) = k0_pay8 (View.ld xH (Rect.unit (k0_off2 i) S2000x64.size (k0_off2_inb i hc3))) (k0_pay7 xS xQ) (k0_pay6 xS) x7 x8 := by
  unfold runC
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

set_option maxHeartbeats 4000000 in
theorem pieceC_M (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg15.view.read (Elt F) (arg15.view.writes (Elt F) (harg15.unread xM) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.1) = k0_pay6 xS := by
  unfold runC
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

set_option maxHeartbeats 4000000 in
theorem pieceC_V (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg16.view.read (Elt F) (arg16.view.writes (Elt F) (harg16.unread xV) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).2.2.1) = k0_pay7 xS xQ := by
  unfold runC
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

/-! ## The later points of the second pass -/
set_option maxHeartbeats 4000000 in
theorem pieceD_O (c : Dev nD) (i : grid0.Coords) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2000x64 .f32) (harg11 : arg11.IsWhole) (arg12 : Memref sig .tc .vmem S50000x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (hc0 : ¬atReset i) (hc1 : ¬inPass0 i) (hc2 : ¬atStats i) (hc3 : inPass1 i)
    (x0 : Vec F S2000x64 .f32) (x1 : Vec F S2000x64 .f32) (x2 : Vec F S64x64 .f32) (x3 : Vec F S1x64 .f32) (x4 : Vec F S64x64 .f32) (x5 : Vec F S1x64 .f32) (x6 : Vec F S1x1 .f32) (x7 : Vec F S1x64 .f32) (x8 : Vec F S1x64 .f32) (xO : Vec F S2000x64 .f32) (xH : Vec F S50000x64 .f32) (xS : Vec F S1x64 .f32) (xQ : Vec F S1x64 .f32) (xM : Vec F S1x64 .f32) (xV : Vec F S1x64 .f32) :
    arg11.view.read (Elt F) (arg11.view.writes (Elt F) (harg11.unread xO) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 xO xH xS xQ xM xV).1) = k0_pay8 (View.ld xH (Rect.unit (k0_off2 i) S2000x64.size (k0_off2_inb i hc3))) xV xM x7 x8 := by
  unfold runD
  dsimp only
  try sl_unfold_words
  rw [read_writes_cons_whole _ _ zero2]
  simp only [View.readAt_eq_ld, Memref.IsWhole.read_unread, View.readCov_unit_zero (S := S1x64) _ zero2, readCov_cons_whole (S := S1x64) _ zero2,
    View.ld_unit_zero (S := S1x64) zero2, View.ld_unit_zero (S := S2000x64) zero2, View.ld_unit_zero (S := S64x64) zero2, View.ld_unit_zero (S := S1x1) zero2]
  try rfl

end Cert.KernelIdeal.Body

end
-- ==== Proof.BodyData.lean ====
/-
  What every buffer holds, point by point, as closed functions of the arrays the region is entered with.

  For a first-pass point t, linBlk t is the block of second-layer values of the 2000 node rows it handles and
  colSumBlk t that block's column sums.  sumAt n and sqAt n are the running column sums and sums of squares after
  point n (they stop changing after point 24); meanV and varV are the batch statistics formed from them; outBlk t is
  the normalised block written at a second-pass point t, which handles the same rows as first-pass point t mod 25.

  Between points the region holds its five resident buffers at contents tied to these by Inv n (before point n):
  the sums are sumAt (n-1) and sqAt (n-1); every block of rows already handled holds its linBlk in the big matrix;
  from point 26 on the mean and variance buffers hold meanV and varV.  Nothing is known before the first point.
-/
import proofs.«176976_j49795850829912_2_alg».proof.Proof.BodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem cfgN : cfg0.N = 50 := N_0

/-- The first-pass point that handles the rows of block n mod 25. -/
def pt (n : ℕ) : Fin cfg0.N := ⟨n % 25, by have : cfg0.N = 50 := N_0; omega⟩

/-- Second-layer values of the rows handled at point t, from the input blocks there. -/
def linBlk (c : Dev nD) (t : Fin cfg0.N) : Vec F S2000x64 .f32 :=
  k0_pay9 (iblk m c 1 t) (iblk m c 0 t) (iblk m c 6 t) (iblk m c 2 t) (iblk m c 4 t) (iblk m c 3 t) (iblk m c 5 t)

/-- Their column sums. -/
def colSumBlk (c : Dev nD) (t : Fin cfg0.N) : Vec F S1x64 .f32 :=
  k0_pay11 (iblk m c 1 t) (iblk m c 0 t) (iblk m c 6 t) (iblk m c 2 t) (iblk m c 4 t) (iblk m c 3 t) (iblk m c 5 t)

/-- The running column sums after point n: reset and first block at point 0, one more block per point up to 24. -/
def sumAt (c : Dev nD) : ℕ → Vec F S1x64 .f32
  | 0 => k0_pay3 (k0_pay1 (F := F)) (colSumBlk m c (pt 0))
  | n + 1 => if n + 1 < 25 then k0_pay3 (sumAt c n) (colSumBlk m c (pt (n + 1))) else sumAt c n

/-- The running column sums of squares after point n. -/
def sqAt (c : Dev nD) : ℕ → Vec F S1x64 .f32
  | 0 => k0_pay4 (linBlk m c (pt 0)) (k0_pay2 (F := F))
  | n + 1 => if n + 1 < 25 then k0_pay4 (linBlk m c (pt (n + 1))) (sqAt c n) else sqAt c n

/-- The batch mean and variance, formed from the sums over all 25 blocks. -/
def meanV (c : Dev nD) : Vec F S1x64 .f32 := k0_pay6 (sumAt m c 24)
def varV (c : Dev nD) : Vec F S1x64 .f32 := k0_pay7 (sumAt m c 24) (sqAt m c 24)

/-- The normalised, scaled, shifted, rectified block written at point t. -/
def outBlk (c : Dev nD) (t : Fin cfg0.N) : Vec F S2000x64 .f32 :=
  k0_pay8 (linBlk m c (pt t.val)) (varV m c) (meanV m c) (iblk m c 7 t) (iblk m c 8 t)

/-- What is known of the five resident buffers before point n. -/
def Inv (c : Dev nD) (n : ℕ) (H : Vec F S50000x64 .f32) (S Q M Vr : Vec F S1x64 .f32) : Prop :=
  (1 ≤ n → S = sumAt m c (n - 1) ∧ Q = sqAt m c (n - 1))
  ∧ (∀ b : ℕ, b < n → b < 25 → ∀ (y : S2000x64.Idx) (z : S50000x64.Idx),
        (z 0).val = 2000 * b + (y 0).val → (z 1).val = (y 1).val → H z = linBlk m c (pt b) y)
  ∧ (26 ≤ n → M = meanV m c ∧ Vr = varV m c)

theorem Inv_zero (c : Dev nD) (H : Vec F S50000x64 .f32) (S Q M Vr : Vec F S1x64 .f32) : Inv m c 0 H S Q M Vr :=
  ⟨fun h => absurd h (by omega), fun b hb => absurd hb (by omega), fun h => absurd h (by omega)⟩

/-- The region's invariant before point n. -/
def PhiN (c : Dev nD) (n : ℕ) : sProp 𝕄 :=
  iprop((∃ H S Q M Vr, ⌜Inv m c n H S Q M Vr⌝ ∗ owns (c : Thread nD τ) bufH fullShare H ∗ owns (c : Thread nD τ) bufS fullShare S
      ∗ owns (c : Thread nD τ) bufQ fullShare Q ∗ owns (c : Thread nD τ) bufM fullShare M ∗ owns (c : Thread nD τ) bufV fullShare Vr)
    ∗ (∃ r, prngReg c r))

/-- The proof data: the arrays as the region finds them; each input's buffer left at its block; the output's
    buffer at outBlk; the invariant PhiN; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ t := PhiN m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiN m c t.val := by
  dsimp only [dats]; simp only [Fin.coe_castSucc]
theorem Phi_succ (c : Dev nD) (t : Fin cfg0.N) : (dats m 0 c).Φ t.succ = PhiN m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk m c t := by dsimp only [dats]

/-- Each input's current buffer holds its block at every point, fetched there or not. -/
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t)

/-- Point t's second grid coordinate is the number of the block of rows it handles. -/
theorem coord1 : ∀ t : Fin cfg0.N, ((grid0.coords t) 1).val = t.val % 25 :=
  (by decide +kernel : ∀ t : Fin grid0.N, ((grid0.coords t) 1).val = t.val % 25)

/-- The output window is idle and not written back in the first pass, live in the second. -/
theorem out_idle : ∀ t : Fin cfg0.N, t.val < 25 → cfg0.idle 9 (grid0.coords t) = true :=
  (by decide +kernel : ∀ t : Fin grid0.N, t.val < 25 → cfg0.idle 9 (grid0.coords t) = true)
theorem out_noflush : ∀ t : Fin cfg0.N, t.val < 25 → (cfg0.win 9).flush t = false :=
  (by decide +kernel : ∀ t : Fin grid0.N, t.val < 25 → win0_9.flush t = false)
theorem out_live : ∀ t : Fin cfg0.N, 25 ≤ t.val → cfg0.idle 9 (grid0.coords t) = false :=
  (by decide +kernel : ∀ t : Fin grid0.N, 25 ≤ t.val → cfg0.idle 9 (grid0.coords t) = false)
theorem in_live : ∀ (w : Fin 10), w.val < 9 → ∀ t : Fin cfg0.N, cfg0.idle w (grid0.coords t) = false := by decide +kernel

end Cert.KernelIdeal.Body

end
-- ==== Proof.BodyInv.lean ====
/-
  How the invariant on the resident buffers moves from one point to the next.
  A first-pass point n < 25 replaces the sums by the next running sums and overwrites rows 2000 n .. 2000 n + 1999 of
  the big matrix with block n, leaving every other row alone.  Point 25 stores the mean and the variance.  Points after
  it change nothing.  A block loaded from the big matrix at rows 2000 b .. is, row by row, what was stored there.
-/
import proofs.«176976_j49795850829912_2_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem pt_of_lt {n : ℕ} (h : n < 25) : (pt n).val = n := Nat.mod_eq_of_lt h

theorem pt_eq (t : Fin cfg0.N) (h : t.val < 25) : pt t.val = t := Fin.ext (Nat.mod_eq_of_lt h)

theorem pt_mod (n : ℕ) : pt (n % 25) = pt n := Fin.ext (Nat.mod_mod _ _)

theorem sumAt_succ_lt (c : Dev nD) (n : ℕ) (h : n + 1 < 25) :
    sumAt m c (n + 1) = k0_pay3 (sumAt m c n) (colSumBlk m c (pt (n + 1))) := by
  rw [sumAt, if_pos h]
theorem sumAt_succ_ge (c : Dev nD) (n : ℕ) (h : ¬ n + 1 < 25) : sumAt m c (n + 1) = sumAt m c n := by
  rw [sumAt, if_neg h]
theorem sqAt_succ_lt (c : Dev nD) (n : ℕ) (h : n + 1 < 25) :
    sqAt m c (n + 1) = k0_pay4 (linBlk m c (pt (n + 1))) (sqAt m c n) := by
  rw [sqAt, if_pos h]
theorem sqAt_succ_ge (c : Dev nD) (n : ℕ) (h : ¬ n + 1 < 25) : sqAt m c (n + 1) = sqAt m c n := by
  rw [sqAt, if_neg h]

/-- From point 24 on the running sums no longer change. -/
theorem sumAt_ge (c : Dev nD) : ∀ n, 24 ≤ n → sumAt m c n = sumAt m c 24
  | 0, h => absurd h (by omega)
  | n + 1, h => by
    by_cases h24 : n + 1 = 24
    · rw [h24]
    · rw [sumAt_succ_ge m c n (by omega)]; exact sumAt_ge c n (by omega)
theorem sqAt_ge (c : Dev nD) : ∀ n, 24 ≤ n → sqAt m c n = sqAt m c 24
  | 0, h => absurd h (by omega)
  | n + 1, h => by
    by_cases h24 : n + 1 = 24
    · rw [h24]
    · rw [sqAt_succ_ge m c n (by omega)]; exact sqAt_ge c n (by omega)

/-- A first-pass point: new sums, block n written into its rows, the other rows kept. -/
theorem Inv_pass0 (c : Dev nD) (n : ℕ) (hn : n < 25) (H H' : Vec F S50000x64 .f32) (S Q S' Q' M Vr : Vec F S1x64 .f32)
    (h : Inv m c n H S Q M Vr) (hS : S' = sumAt m c n) (hQ : Q' = sqAt m c n)
    (hin : ∀ (y : S2000x64.Idx) (z : S50000x64.Idx), (z 0).val = 2000 * n + (y 0).val → (z 1).val = (y 1).val →
      H' z = linBlk m c (pt n) y)
    (hout : ∀ z : S50000x64.Idx, ((z 0).val < 2000 * n ∨ 2000 * n + 2000 ≤ (z 0).val) → H' z = H z) :
    Inv m c (n + 1) H' S' Q' M Vr := by
  refine ⟨fun _ => ⟨by rw [hS, Nat.add_sub_cancel], by rw [hQ, Nat.add_sub_cancel]⟩, fun b hb hb25 y z h0 h1 => ?_,
    fun h26 => absurd h26 (by omega)⟩
  by_cases hbn : b = n
  · subst hbn; exact hin y z h0 h1
  · have hlt : b < n := by omega
    have hy : (y 0).val < 2000 := (y 0).isLt
    rw [hout z (Or.inl (by rw [h0]; omega))]
    exact h.2.1 b hlt hb25 y z h0 h1

/-- A point from 25 on: the sums and the big matrix are as they were; the statistics are known from point 26. -/
theorem Inv_pass1 (c : Dev nD) (n : ℕ) (hn : 25 ≤ n) (H : Vec F S50000x64 .f32) (S Q M Vr M' Vr' : Vec F S1x64 .f32)
    (h : Inv m c n H S Q M Vr) (hM : M' = meanV m c) (hV : Vr' = varV m c) :
    Inv m c (n + 1) H S Q M' Vr' := by
  obtain ⟨hS, hQ⟩ := h.1 (by omega)
  refine ⟨fun _ => ⟨?_, ?_⟩, fun b hb hb25 y z h0 h1 => h.2.1 b (by omega) hb25 y z h0 h1, fun _ => ⟨hM, hV⟩⟩
  · rw [hS, Nat.add_sub_cancel, sumAt_ge m c n (by omega), sumAt_ge m c (n - 1) (by omega)]
  · rw [hQ, Nat.add_sub_cancel, sqAt_ge m c n (by omega), sqAt_ge m c (n - 1) (by omega)]

/-- Before point 25 and later, the sums are the final ones. -/
theorem Inv_sums (c : Dev nD) (n : ℕ) (hn : 25 ≤ n) (H : Vec F S50000x64 .f32) (S Q M Vr : Vec F S1x64 .f32)
    (h : Inv m c n H S Q M Vr) : S = sumAt m c 24 ∧ Q = sqAt m c 24 := by
  obtain ⟨hS, hQ⟩ := h.1 (by omega)
  exact ⟨by rw [hS, sumAt_ge m c (n - 1) (by omega)], by rw [hQ, sqAt_ge m c (n - 1) (by omega)]⟩

/-- A block loaded from the big matrix at the rows of block (i 1) is what the invariant says was stored there. -/
theorem slab_eq (c : Dev nD) (t : Fin cfg0.N) (ht : 25 ≤ t.val) (h3 : inPass1 (grid0.coords t))
    (H : Vec F S50000x64 .f32) (S Q M Vr : Vec F S1x64 .f32) (h : Inv m c t.val H S Q M Vr) :
    View.ld H (Rect.unit (k0_off2 (grid0.coords t)) S2000x64.size (k0_off2_inb (grid0.coords t) h3)) = linBlk m c (pt t.val) := by
  funext y
  have hN : t.val < 50 := lt_of_lt_of_eq t.isLt cfgN
  rw [← pt_mod]
  refine h.2.1 (t.val % 25) (by omega) (Nat.mod_lt _ (by omega)) y
    ((Rect.unit (s := S50000x64) (k0_off2 (grid0.coords t)) S2000x64.size (k0_off2_inb (grid0.coords t) h3)).emb y) ?_ ?_
  · have e0 : k0_off2 (grid0.coords t) 0 = 2000 * (t.val % 25) := by rw [k0_off2_eq, coord1]; rfl
    show (k0_off2 (grid0.coords t)) 0 + 1 * (y 0).val = _
    omega
  · have e1 : k0_off2 (grid0.coords t) 1 = 0 := by rw [k0_off2_eq]; rfl
    show (k0_off2 (grid0.coords t)) 1 + 1 * (y 1).val = _
    omega

end Cert.KernelIdeal.Body

end
-- ==== Proof.BodyStepA.lean ====
/-
  The body at one point of the grid, from the region's invariant before the point to the invariant after it, with
  every window's buffer left as the proof data says.
-/
import proofs.«176976_j49795850829912_2_alg».proof.Proof.BodyPieces
import proofs.«176976_j49795850829912_2_alg».proof.Proof.BodyInv

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Cert.Lib.WholeStore in
set_option maxHeartbeats 8000000 in
theorem stepA (c : Dev nD) (t : Fin cfg0.N) (ht : t.val = 0) :
    bodyPre m c t ⊢ wp frame (wpE (defs₀ (F := F)) Variants.none c none) Set.univ (bodyAt0 t) (fun _ => bodyPost m c t) := by
  have hN : t.val < 50 := lt_of_lt_of_eq t.isLt cfgN
  unfold bodyPre bodyPost bodyAt0
  simp only [before_0, before_1, before_2, before_3, before_4, before_5, before_6, before_7, before_8]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [in_live 0 (by decide) t], after_0]
  rw [show (dats m 0 c).leavesExact 1 t = owns (c : Thread nD τ) (ms1 t) fullShare ((dats m 0 c).after 1 t) from by
    unfold Dat.leavesExact; rw [in_live 1 (by decide) t], after_1]
  rw [show (dats m 0 c).leavesExact 2 t = owns (c : Thread nD τ) (ms2 t) fullShare ((dats m 0 c).after 2 t) from by
    unfold Dat.leavesExact; rw [in_live 2 (by decide) t], after_2]
  rw [show (dats m 0 c).leavesExact 3 t = owns (c : Thread nD τ) (ms3 t) fullShare ((dats m 0 c).after 3 t) from by
    unfold Dat.leavesExact; rw [in_live 3 (by decide) t], after_3]
  rw [show (dats m 0 c).leavesExact 4 t = owns (c : Thread nD τ) (ms4 t) fullShare ((dats m 0 c).after 4 t) from by
    unfold Dat.leavesExact; rw [in_live 4 (by decide) t], after_4]
  rw [show (dats m 0 c).leavesExact 5 t = owns (c : Thread nD τ) (ms5 t) fullShare ((dats m 0 c).after 5 t) from by
    unfold Dat.leavesExact; rw [in_live 5 (by decide) t], after_5]
  rw [show (dats m 0 c).leavesExact 6 t = owns (c : Thread nD τ) (ms6 t) fullShare ((dats m 0 c).after 6 t) from by
    unfold Dat.leavesExact; rw [in_live 6 (by decide) t], after_6]
  rw [show (dats m 0 c).leavesExact 7 t = owns (c : Thread nD τ) (ms7 t) fullShare ((dats m 0 c).after 7 t) from by
    unfold Dat.leavesExact; rw [in_live 7 (by decide) t], after_7]
  rw [show (dats m 0 c).leavesExact 8 t = owns (c : Thread nD τ) (ms8 t) fullShare ((dats m 0 c).after 8 t) from by
    unfold Dat.leavesExact; rw [in_live 8 (by decide) t], after_8]
  rw [Dat.leavesExact_idle (dats m 0 c) 9 t (out_idle t (by omega)) (out_noflush t (by omega))]
  unfold PhiN
  iintro ⟨⟨⟨%H, %S, %Q, %M, %Vr, %hInv, HH, HS, HQ, HM, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc0 : atReset (grid0.coords t) := (atReset_iff t).mpr ht
  have hc1 : inPass0 (grid0.coords t) := (inPass0_iff t).mpr (by omega)
  have hc2 : ¬atStats (grid0.coords t) := fun h => by have := (atStats_iff t).mp h; omega
  have hc3 : ¬inPass1 (grid0.coords t) := fun h => by have := (inPass1_iff t).mp h; omega
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  isplitl [HQ]; · iexact HQ
  isplitl [HM]; · iexact HM
  isplitl [HV]; · iexact HV
  iintro ⟨H0, H1, H2, H3, H4, H5, H6, H7, H8, H9, HH, HS, HQ, HM, HV⟩
  isplitl [HH HS HQ HM HV Hg]
  · isplitl [HH HS HQ HM HV]
    · iexists _, _, _, M, Vr
      isplitr; swap
      · isplitl [HH]
        · unfold owns; iexists _; isplitr; swap; · iexact HH
          ipureintro; rfl
        isplitl [HS]
        · unfold owns; iexists _; isplitr; swap; · iexact HS
          ipureintro; rfl
        isplitl [HQ]
        · unfold owns; iexists _; isplitr; swap; · iexact HQ
          ipureintro; rfl
        isplitl [HM]; · iexact HM
        iexact HV
      · ipureintro
        have ht25 : t.val < 25 := by omega
        have hp : pt 0 = t := by have e := pt_eq t ht25; rw [ht] at e; exact e
        have eS : sumAt m c t.val = k0_pay3 (k0_pay1 (F := F)) (colSumBlk m c t) := by
          rw [ht]; show k0_pay3 k0_pay1 (colSumBlk m c (pt 0)) = _; rw [hp]
        have eQ : sqAt m c t.val = k0_pay4 (linBlk m c t) (k0_pay2 (F := F)) := by
          rw [ht]; show k0_pay4 (linBlk m c (pt 0)) k0_pay2 = _; rw [hp]
        refine Inv_pass0 m c t.val ht25 H _ S Q _ _ M Vr hInv ?_ ?_ ?_ ?_
        · rw [eS]; exact pieceA_S c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr
        · rw [eQ]; exact pieceA_Q c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr
        · intro y z h0 h1
          rw [pt_eq t ht25]
          exact pieceA_H_in c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr y z (by rw [coord1, Nat.mod_eq_of_lt ht25]; exact h0) h1
        · intro z h
          exact pieceA_H_out c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr z (by rw [coord1, Nat.mod_eq_of_lt ht25]; exact h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.BodyStepB.lean ====
/-
  The body at one point of the grid, from the region's invariant before the point to the invariant after it, with
  every window's buffer left as the proof data says.
-/
import proofs.«176976_j49795850829912_2_alg».proof.Proof.BodyPieces
import proofs.«176976_j49795850829912_2_alg».proof.Proof.BodyInv

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Cert.Lib.WholeStore in
set_option maxHeartbeats 8000000 in
theorem stepB (c : Dev nD) (t : Fin cfg0.N) (ht0 : t.val ≠ 0) (ht : t.val < 25) :
    bodyPre m c t ⊢ wp frame (wpE (defs₀ (F := F)) Variants.none c none) Set.univ (bodyAt0 t) (fun _ => bodyPost m c t) := by
  have hN : t.val < 50 := lt_of_lt_of_eq t.isLt cfgN
  unfold bodyPre bodyPost bodyAt0
  simp only [before_0, before_1, before_2, before_3, before_4, before_5, before_6, before_7, before_8]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [in_live 0 (by decide) t], after_0]
  rw [show (dats m 0 c).leavesExact 1 t = owns (c : Thread nD τ) (ms1 t) fullShare ((dats m 0 c).after 1 t) from by
    unfold Dat.leavesExact; rw [in_live 1 (by decide) t], after_1]
  rw [show (dats m 0 c).leavesExact 2 t = owns (c : Thread nD τ) (ms2 t) fullShare ((dats m 0 c).after 2 t) from by
    unfold Dat.leavesExact; rw [in_live 2 (by decide) t], after_2]
  rw [show (dats m 0 c).leavesExact 3 t = owns (c : Thread nD τ) (ms3 t) fullShare ((dats m 0 c).after 3 t) from by
    unfold Dat.leavesExact; rw [in_live 3 (by decide) t], after_3]
  rw [show (dats m 0 c).leavesExact 4 t = owns (c : Thread nD τ) (ms4 t) fullShare ((dats m 0 c).after 4 t) from by
    unfold Dat.leavesExact; rw [in_live 4 (by decide) t], after_4]
  rw [show (dats m 0 c).leavesExact 5 t = owns (c : Thread nD τ) (ms5 t) fullShare ((dats m 0 c).after 5 t) from by
    unfold Dat.leavesExact; rw [in_live 5 (by decide) t], after_5]
  rw [show (dats m 0 c).leavesExact 6 t = owns (c : Thread nD τ) (ms6 t) fullShare ((dats m 0 c).after 6 t) from by
    unfold Dat.leavesExact; rw [in_live 6 (by decide) t], after_6]
  rw [show (dats m 0 c).leavesExact 7 t = owns (c : Thread nD τ) (ms7 t) fullShare ((dats m 0 c).after 7 t) from by
    unfold Dat.leavesExact; rw [in_live 7 (by decide) t], after_7]
  rw [show (dats m 0 c).leavesExact 8 t = owns (c : Thread nD τ) (ms8 t) fullShare ((dats m 0 c).after 8 t) from by
    unfold Dat.leavesExact; rw [in_live 8 (by decide) t], after_8]
  rw [Dat.leavesExact_idle (dats m 0 c) 9 t (out_idle t (by omega)) (out_noflush t (by omega))]
  unfold PhiN
  iintro ⟨⟨⟨%H, %S, %Q, %M, %Vr, %hInv, HH, HS, HQ, HM, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc0 : ¬atReset (grid0.coords t) := fun h => by have := (atReset_iff t).mp h; omega
  have hc1 : inPass0 (grid0.coords t) := (inPass0_iff t).mpr ht
  have hc2 : ¬atStats (grid0.coords t) := fun h => by have := (atStats_iff t).mp h; omega
  have hc3 : ¬inPass1 (grid0.coords t) := fun h => by have := (inPass1_iff t).mp h; omega
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  isplitl [HQ]; · iexact HQ
  isplitl [HM]; · iexact HM
  isplitl [HV]; · iexact HV
  iintro ⟨H0, H1, H2, H3, H4, H5, H6, H7, H8, H9, HH, HS, HQ, HM, HV⟩
  isplitl [HH HS HQ HM HV Hg]
  · isplitl [HH HS HQ HM HV]
    · iexists _, _, _, M, Vr
      isplitr; swap
      · isplitl [HH]
        · unfold owns; iexists _; isplitr; swap; · iexact HH
          ipureintro; rfl
        isplitl [HS]
        · unfold owns; iexists _; isplitr; swap; · iexact HS
          ipureintro; rfl
        isplitl [HQ]
        · unfold owns; iexists _; isplitr; swap; · iexact HQ
          ipureintro; rfl
        isplitl [HM]; · iexact HM
        iexact HV
      · ipureintro
        have ht25 : t.val < 25 := ht
        have eS : sumAt m c t.val = k0_pay3 (sumAt m c (t.val - 1)) (colSumBlk m c t) := by
          have e := sumAt_succ_lt m c (t.val - 1) (by omega)
          rw [Nat.sub_add_cancel (by omega)] at e; rw [e, pt_eq t ht25]
        have eQ : sqAt m c t.val = k0_pay4 (linBlk m c t) (sqAt m c (t.val - 1)) := by
          have e := sqAt_succ_lt m c (t.val - 1) (by omega)
          rw [Nat.sub_add_cancel (by omega)] at e; rw [e, pt_eq t ht25]
        obtain ⟨hS, hQ⟩ := hInv.1 (by omega)
        refine Inv_pass0 m c t.val ht25 H _ S Q _ _ M Vr hInv ?_ ?_ ?_ ?_
        · rw [eS, ← hS]; exact pieceB_S c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr
        · rw [eQ, ← hQ]; exact pieceB_Q c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr
        · intro y z h0 h1
          rw [pt_eq t ht25]
          exact pieceB_H_in c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr y z (by rw [coord1, Nat.mod_eq_of_lt ht25]; exact h0) h1
        · intro z h
          exact pieceB_H_out c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr z (by rw [coord1, Nat.mod_eq_of_lt ht25]; exact h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.BodyStepC.lean ====
/-
  The body at one point of the grid, from the region's invariant before the point to the invariant after it, with
  every window's buffer left as the proof data says.
-/
import proofs.«176976_j49795850829912_2_alg».proof.Proof.BodyPieces
import proofs.«176976_j49795850829912_2_alg».proof.Proof.BodyInv

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Cert.Lib.WholeStore in
set_option maxHeartbeats 8000000 in
theorem stepC (c : Dev nD) (t : Fin cfg0.N) (ht : t.val = 25) :
    bodyPre m c t ⊢ wp frame (wpE (defs₀ (F := F)) Variants.none c none) Set.univ (bodyAt0 t) (fun _ => bodyPost m c t) := by
  have hN : t.val < 50 := lt_of_lt_of_eq t.isLt cfgN
  unfold bodyPre bodyPost bodyAt0
  simp only [before_0, before_1, before_2, before_3, before_4, before_5, before_6, before_7, before_8]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [in_live 0 (by decide) t], after_0]
  rw [show (dats m 0 c).leavesExact 1 t = owns (c : Thread nD τ) (ms1 t) fullShare ((dats m 0 c).after 1 t) from by
    unfold Dat.leavesExact; rw [in_live 1 (by decide) t], after_1]
  rw [show (dats m 0 c).leavesExact 2 t = owns (c : Thread nD τ) (ms2 t) fullShare ((dats m 0 c).after 2 t) from by
    unfold Dat.leavesExact; rw [in_live 2 (by decide) t], after_2]
  rw [show (dats m 0 c).leavesExact 3 t = owns (c : Thread nD τ) (ms3 t) fullShare ((dats m 0 c).after 3 t) from by
    unfold Dat.leavesExact; rw [in_live 3 (by decide) t], after_3]
  rw [show (dats m 0 c).leavesExact 4 t = owns (c : Thread nD τ) (ms4 t) fullShare ((dats m 0 c).after 4 t) from by
    unfold Dat.leavesExact; rw [in_live 4 (by decide) t], after_4]
  rw [show (dats m 0 c).leavesExact 5 t = owns (c : Thread nD τ) (ms5 t) fullShare ((dats m 0 c).after 5 t) from by
    unfold Dat.leavesExact; rw [in_live 5 (by decide) t], after_5]
  rw [show (dats m 0 c).leavesExact 6 t = owns (c : Thread nD τ) (ms6 t) fullShare ((dats m 0 c).after 6 t) from by
    unfold Dat.leavesExact; rw [in_live 6 (by decide) t], after_6]
  rw [show (dats m 0 c).leavesExact 7 t = owns (c : Thread nD τ) (ms7 t) fullShare ((dats m 0 c).after 7 t) from by
    unfold Dat.leavesExact; rw [in_live 7 (by decide) t], after_7]
  rw [show (dats m 0 c).leavesExact 8 t = owns (c : Thread nD τ) (ms8 t) fullShare ((dats m 0 c).after 8 t) from by
    unfold Dat.leavesExact; rw [in_live 8 (by decide) t], after_8]
  rw [show (dats m 0 c).leavesExact 9 t = owns (c : Thread nD τ) (ms9 t) fullShare ((dats m 0 c).after 9 t) from by
    unfold Dat.leavesExact; rw [out_live t (by omega)], after_9]
  unfold PhiN
  iintro ⟨⟨⟨%H, %S, %Q, %M, %Vr, %hInv, HH, HS, HQ, HM, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc0 : ¬atReset (grid0.coords t) := fun h => by have := (atReset_iff t).mp h; omega
  have hc1 : ¬inPass0 (grid0.coords t) := fun h => by have := (inPass0_iff t).mp h; omega
  have hc2 : atStats (grid0.coords t) := (atStats_iff t).mpr ht
  have hc3 : inPass1 (grid0.coords t) := (inPass1_iff t).mpr (by omega)
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  isplitl [HQ]; · iexact HQ
  isplitl [HM]; · iexact HM
  isplitl [HV]; · iexact HV
  iintro ⟨H0, H1, H2, H3, H4, H5, H6, H7, H8, H9, HH, HS, HQ, HM, HV⟩
  isplitl [HH HS HQ HM HV Hg]
  · isplitl [HH HS HQ HM HV]
    · iexists H, S, Q, _, _
      isplitr; swap
      · isplitl [HH]; · iexact HH
        isplitl [HS]; · iexact HS
        isplitl [HQ]; · iexact HQ
        isplitl [HM]
        · unfold owns; iexists _; isplitr; swap; · iexact HM
          ipureintro; rfl
        unfold owns; iexists _; isplitr; swap; · iexact HV
        ipureintro; rfl
      · ipureintro
        obtain ⟨hS, hQ⟩ := Inv_sums m c t.val (by omega) H S Q M Vr hInv
        refine Inv_pass1 m c t.val (by omega) H S Q M Vr _ _ hInv ?_ ?_
        · refine (pieceC_M c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).trans ?_
          rw [hS]; rfl
        · refine (pieceC_V c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).trans ?_
          rw [hS, hQ]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap; · iexact H9
  ipureintro
  obtain ⟨hS, hQ⟩ := Inv_sums m c t.val (by omega) H S Q M Vr hInv
  refine (pieceC_O c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).trans ?_
  rw [slab_eq m c t (by omega) hc3 H S Q M Vr hInv, hS, hQ]
  rfl

end Cert.KernelIdeal.Body

end
-- ==== Proof.BodyStepD.lean ====
/-
  The body at one point of the grid, from the region's invariant before the point to the invariant after it, with
  every window's buffer left as the proof data says.
-/
import proofs.«176976_j49795850829912_2_alg».proof.Proof.BodyPieces
import proofs.«176976_j49795850829912_2_alg».proof.Proof.BodyInv

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Cert.Lib.WholeStore in
set_option maxHeartbeats 8000000 in
theorem stepD (c : Dev nD) (t : Fin cfg0.N) (ht : 25 < t.val) :
    bodyPre m c t ⊢ wp frame (wpE (defs₀ (F := F)) Variants.none c none) Set.univ (bodyAt0 t) (fun _ => bodyPost m c t) := by
  have hN : t.val < 50 := lt_of_lt_of_eq t.isLt cfgN
  unfold bodyPre bodyPost bodyAt0
  simp only [before_0, before_1, before_2, before_3, before_4, before_5, before_6, before_7, before_8]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [in_live 0 (by decide) t], after_0]
  rw [show (dats m 0 c).leavesExact 1 t = owns (c : Thread nD τ) (ms1 t) fullShare ((dats m 0 c).after 1 t) from by
    unfold Dat.leavesExact; rw [in_live 1 (by decide) t], after_1]
  rw [show (dats m 0 c).leavesExact 2 t = owns (c : Thread nD τ) (ms2 t) fullShare ((dats m 0 c).after 2 t) from by
    unfold Dat.leavesExact; rw [in_live 2 (by decide) t], after_2]
  rw [show (dats m 0 c).leavesExact 3 t = owns (c : Thread nD τ) (ms3 t) fullShare ((dats m 0 c).after 3 t) from by
    unfold Dat.leavesExact; rw [in_live 3 (by decide) t], after_3]
  rw [show (dats m 0 c).leavesExact 4 t = owns (c : Thread nD τ) (ms4 t) fullShare ((dats m 0 c).after 4 t) from by
    unfold Dat.leavesExact; rw [in_live 4 (by decide) t], after_4]
  rw [show (dats m 0 c).leavesExact 5 t = owns (c : Thread nD τ) (ms5 t) fullShare ((dats m 0 c).after 5 t) from by
    unfold Dat.leavesExact; rw [in_live 5 (by decide) t], after_5]
  rw [show (dats m 0 c).leavesExact 6 t = owns (c : Thread nD τ) (ms6 t) fullShare ((dats m 0 c).after 6 t) from by
    unfold Dat.leavesExact; rw [in_live 6 (by decide) t], after_6]
  rw [show (dats m 0 c).leavesExact 7 t = owns (c : Thread nD τ) (ms7 t) fullShare ((dats m 0 c).after 7 t) from by
    unfold Dat.leavesExact; rw [in_live 7 (by decide) t], after_7]
  rw [show (dats m 0 c).leavesExact 8 t = owns (c : Thread nD τ) (ms8 t) fullShare ((dats m 0 c).after 8 t) from by
    unfold Dat.leavesExact; rw [in_live 8 (by decide) t], after_8]
  rw [show (dats m 0 c).leavesExact 9 t = owns (c : Thread nD τ) (ms9 t) fullShare ((dats m 0 c).after 9 t) from by
    unfold Dat.leavesExact; rw [out_live t (by omega)], after_9]
  unfold PhiN
  iintro ⟨⟨⟨%H, %S, %Q, %M, %Vr, %hInv, HH, HS, HQ, HM, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc0 : ¬atReset (grid0.coords t) := fun h => by have := (atReset_iff t).mp h; omega
  have hc1 : ¬inPass0 (grid0.coords t) := fun h => by have := (inPass0_iff t).mp h; omega
  have hc2 : ¬atStats (grid0.coords t) := fun h => by have := (atStats_iff t).mp h; omega
  have hc3 : inPass1 (grid0.coords t) := (inPass1_iff t).mpr (by omega)
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  isplitl [HQ]; · iexact HQ
  isplitl [HM]; · iexact HM
  isplitl [HV]; · iexact HV
  iintro ⟨H0, H1, H2, H3, H4, H5, H6, H7, H8, H9, HH, HS, HQ, HM, HV⟩
  isplitl [HH HS HQ HM HV Hg]
  · isplitl [HH HS HQ HM HV]
    · iexists H, S, Q, M, Vr
      isplitr; swap
      · isplitl [HH]; · iexact HH
        isplitl [HS]; · iexact HS
        isplitl [HQ]; · iexact HQ
        isplitl [HM]; · iexact HM
        iexact HV
      · ipureintro
        exact Inv_pass1 m c t.val (by omega) H S Q M Vr M Vr hInv (hInv.2.2 (by omega)).1 (hInv.2.2 (by omega)).2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap; · iexact H9
  ipureintro
  refine (pieceD_O c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) bufH (Memref.isWhole_whole _) bufS (Memref.isWhole_whole _) bufQ (Memref.isWhole_whole _) bufM (Memref.isWhole_whole _) bufV (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) ((dats m 0 c).before 9 t d9) H S Q M Vr).trans ?_
  rw [slab_eq m c t (by omega) hc3 H S Q M Vr hInv, (hInv.2.2 (by omega)).1, (hInv.2.2 (by omega)).2]
  rfl

end Cert.KernelIdeal.Body

end
-- ==== Proof.BodyFrame.lean ====
/-
  The frame run of the fused kernel: at every grid point the body takes the region's invariant and the windows'
  buffers to the next invariant and the buffers the proof data names (by cases on which of the four kinds of point
  it is); the invariant holds trivially on entry and is forgotten on exit; so every execution of the program ends
  with each windowed array at what the proof data computes and every other buffer untouched — in particular the
  eleven arguments unchanged.
-/
import proofs.«176976_j49795850829912_2_alg».proof.Proof.BodyStepA
import proofs.«176976_j49795850829912_2_alg».proof.Proof.BodyStepB
import proofs.«176976_j49795850829912_2_alg».proof.Proof.BodyStepC
import proofs.«176976_j49795850829912_2_alg».proof.Proof.BodyStepD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt cfgN
  by_cases h0 : t.val = 0
  · exact stepA m c t h0
  · by_cases h1 : t.val < 25
    · exact stepB m c t h0 h1
    · by_cases h2 : t.val = 25
      · exact stepC m c t h2
      · exact stepD m c t (by omega)

theorem body_obligation (c : Dev nD) : BodyObligation (dats (F := F) m 0 c) (defs₀ (F := F)) Variants.none () Set.univ := fun t => by
  rw [bigSep_W0, bigSep_W0]
  exact sound_body m c t

/-- On entry nothing is claimed of the resident buffers. -/
theorem hin (c : Dev nD) : Pipeline.ΦA spec0 c ⊢ (dats m 0 c).Φ 0 := by
  rw [show (dats m 0 c).Φ 0 = PhiN m c 0 from rfl, regionOwns_eq]
  unfold PhiN
  iintro ⟨⟨⟨%H, HH⟩, ⟨%S, HS⟩, ⟨%Q, HQ⟩, ⟨%M, HM⟩, ⟨%Vr, HV⟩⟩, Hg⟩
  isplitl [HH HS HQ HM HV]
  · iexists H, S, Q, M, Vr
    isplitr
    · ipureintro; exact Inv_zero m c H S Q M Vr
    isplitl [HH]; · iexact HH
    isplitl [HS]; · iexact HS
    isplitl [HQ]; · iexact HQ
    isplitl [HM]; · iexact HM
    iexact HV
  iexact Hg

/-- On exit what they hold is forgotten. -/
theorem hout (c : Dev nD) : (dats m 0 c).Φ (Fin.last cfg0.N) ⊢ Pipeline.ΦA spec0 c := by
  rw [show (dats m 0 c).Φ (Fin.last cfg0.N) = PhiN m c (Fin.last cfg0.N).val from rfl, regionOwns_eq]
  unfold PhiN
  iintro ⟨⟨%H, %S, %Q, %M, %Vr, -, HH, HS, HQ, HM, HV⟩, Hg⟩
  isplitl [HH HS HQ HM HV]
  · isplitl [HH]; · iexists _; iexact HH
    isplitl [HS]; · iexists _; iexact HS
    isplitl [HQ]; · iexists _; iexact HQ
    isplitl [HM]; · iexists _; iexact HM
    iexists _; iexact HV
  iexact Hg

set_option backward.isDefEq.respectTransparency.types false in
/-- Every weakly fair execution terminates with every windowed array at what the proof data computes and every
    other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Body

end
-- ==== Proof.OutArray.lean ====
/-
  From blocks to the whole output array.

  In the second pass, point t (25 ≤ t < 50) writes the normalised block of rows 2000 (t − 25) … 2000 (t − 25) + 1999
  back to the output array; in the first pass nothing is written back.  The 25 blocks tile the 50000 rows, so after
  the last point row r of the output is row r mod 2000 of the block written at point 25 + r / 2000.
-/
import proofs.«176976_j49795850829912_2_alg».proof.Proof.BodyData
import Idealize.ShloMosaic.Lib.Pipeline.Value
import Idealize.ShloMosaic.Lib.ValueIdx

set_option maxRecDepth 16384

noncomputable section

namespace Cert.KernelIdeal.OutArray

open Cert.KernelIdeal Cert.KernelIdeal.Gen Cert.KernelIdeal.Body
open Idealize.ShloMosaic Idealize.ShloMosaic.ValueIdx Idealize.ShloMosaic.TcCoe
open Idealize.ShloMosaic.Pipeline (Dat Cfg Window)

variable {F : FTy → Type} [FloatOps F]
variable (m : (ℓ : Loc nD τ sig) → Buf (Elt F) ℓ)

/-- The second-pass point that writes row z 0 of the output. -/
def outPt (z : S50000x64.Idx) : Fin cfg0.N :=
  ⟨25 + (z 0).val / 2000, by
    have hN : cfg0.N = 50 := N_0
    have hz : (z 0).val < 50000 := (z 0).isLt
    omega⟩

/-- The row of that point's block which is row z 0 of the output. -/
def rowIn (z : S50000x64.Idx) : Fin 2000 := ⟨(z 0).val % 2000, Nat.mod_lt _ (by decide)⟩

/-- The whole output: row r is row r mod 2000 of the block written at point 25 + r / 2000. -/
def outArr (c : Dev nD) : S50000x64.Idx → Elt F .f32 :=
  fun z => outBlk m c (outPt z) (ix2 (rowIn z) (z 1))

/-- The output window is written back exactly at the second-pass points, -/
theorem out_flush_iff : ∀ t : Fin cfg0.N, (cfg0.win 9).flush t = true ↔ 25 ≤ t.val :=
  (by decide +kernel : ∀ t : Fin grid0.N, win0_9.flush t = true ↔ 25 ≤ t.val)

/-- and its block there is block t − 25 of the rows, the only block of the columns. -/
theorem out_index : ∀ t : Fin cfg0.N, 25 ≤ t.val →
    win0_9.index t (0 : Fin 2) = t.val - 25 ∧ win0_9.index t (1 : Fin 2) = 0 :=
  (by decide +kernel : ∀ t : Fin grid0.N, 25 ≤ t.val →
    win0_9.index t (0 : Fin 2) = t.val - 25 ∧ win0_9.index t (1 : Fin 2) = 0)

/-- The whole output at the array index of entry y of the block of a second-pass point t is that block's entry. -/
theorem outArr_at (c : Dev nD) (t : Fin cfg0.N) (h25 : 25 ≤ t.val) (y : S2000x64.Idx) (z : S50000x64.Idx)
    (h0 : (z 0).val = (t.val - 25) * 2000 + (y 0).val) (h1 : (z 1).val = (y 1).val) :
    outArr m c z = outBlk m c t y := by
  have hy0 : (y 0).val < 2000 := (y 0).isLt
  have hp : outPt z = t := by
    apply Fin.ext
    show 25 + (z 0).val / 2000 = t.val
    rw [h0, Nat.mul_comm, Nat.mul_add_div (by decide), Nat.div_eq_of_lt hy0]
    omega
  have hi : ix2 (rowIn z) (z 1) = y := by
    funext a
    apply Fin.ext
    match a with
    | ⟨0, _⟩ =>
      show (z 0).val % 2000 = (y 0).val
      rw [h0, Nat.mul_comm, Nat.mul_add_mod, Nat.mod_eq_of_lt hy0]
    | ⟨1, _⟩ => exact h1
  unfold outArr
  rw [hp]
  exact congrArg (outBlk m c t) hi

/-- What a second-pass point writes back is its block of the whole output. -/
theorem flushed_eq (c : Dev nD) (t : Fin cfg0.N) (hf : (cfg0.win 9).flush t = true) :
    (dats m 0 c).flushed 9 t = ((cfg0.win 9).blk t).view.read (Elt F) (outArr m c) := by
  have h25 : 25 ≤ t.val := (out_flush_iff t).mp hf
  obtain ⟨e0, e1⟩ := out_index t h25
  show (cfg0.win 9).cut (grid0.coords t) ((dats m 0 c).after 9 t) = _
  rw [after_9]
  funext y
  rw [View.read_apply]
  refine (outArr_at m c t h25 y _ ?_ ?_).symm
  · show win0_9.index t (0 : Fin 2) * 2000 + 1 * (y 0).val = _
    rw [e0]; omega
  · show win0_9.index t (1 : Fin 2) * 64 + 1 * (y 1).val = _
    rw [e1]; omega

/-- An index of the output is in point t's block iff each coordinate is in the block's range on its axis. -/
theorem mem_blk (t : Fin cfg0.N) (i : S50000x64.Idx) :
    i ∈ ((cfg0.win 9).blk t).view.set ↔
      ∀ a : Fin 2, win0_9.index t a * S2000x64.size a ≤ (i a).val ∧ (i a).val < win0_9.index t a * S2000x64.size a + S2000x64.size a := by
  show i ∈ ((View.whole main_v18).slice (win0_9.rect t)).set ↔ _
  rw [View.set_slice_whole, Rect.mem_set_unit]
  exact Iff.rfl

/-- Every index of the output is in the block of the point that writes its row. -/
theorem cover (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  have h25 : 25 ≤ (outPt i).val := Nat.le_add_right _ _
  obtain ⟨e0, e1⟩ := out_index (outPt i) h25
  have hv : (outPt i).val = 25 + (i 0).val / 2000 := rfl
  refine ⟨outPt i, (out_flush_iff _).mpr h25, ?_⟩
  rw [mem_blk]
  intro a
  match a with
  | ⟨0, _⟩ =>
    show win0_9.index (outPt i) (0 : Fin 2) * 2000 ≤ (i 0).val ∧ (i 0).val < win0_9.index (outPt i) (0 : Fin 2) * 2000 + 2000
    rw [e0, hv]; omega
  | ⟨1, _⟩ =>
    show win0_9.index (outPt i) (1 : Fin 2) * 64 ≤ (i 1).val ∧ (i 1).val < win0_9.index (outPt i) (1 : Fin 2) * 64 + 64
    rw [e1]; omega

/-- THE OUTPUT ARRAY after the last point is the whole output, -/
theorem out_array_eq (c : Dev nD) : (dats m 0 c).arrAt 9 cfg0.N = outArr m c :=
  (dats m 0 c).arrAt_eq_of_cover 9 (outArr m c) (fun t hf => flushed_eq m c t hf) cover

/-- that is: row r of the output is row r mod 2000 of the block written at point 25 + r / 2000. -/
theorem out_array (c : Dev nD) : (dats m 0 c).arrAt 9 cfg0.N
    = fun z : S50000x64.Idx => outBlk m c (outPt z) (ix2 (⟨(z 0).val % 2000, Nat.mod_lt _ (by decide)⟩ : Fin 2000) (z 1)) :=
  out_array_eq m c

end Cert.KernelIdeal.OutArray

end
-- ==== Proof.KBlocks.lean ====
/-
  The blocks the body loads, read off the arrays the region is entered with.

  The aggregated features and the node features are cut into 25 blocks of 2000 rows; at first-pass point n the block
  in place is block n, so its entry (p, i) is the array's entry (2000 n + p, i).  The weights, the biases, the residual
  weight, the gain and the offset are each one block: the block in place at any point is the whole array.  Which block
  a window is on at a point is read off the printed index maps, decided once over the 50 points.
-/
import proofs.«176976_j49795850829912_2_alg».proof.Proof.BodyData
import Idealize.ShloMosaic.PureOps.Ideal
import Idealize.ShloMosaic.Lib.ValueIdx

set_option maxRecDepth 16384

noncomputable section

namespace Cert.KernelIdeal.ValueD

open Cert.KernelIdeal Cert.KernelIdeal.Gen Cert.KernelIdeal.Body Idealize.ShloMosaic Idealize.ShloMosaic.ValueIdx

variable (m : (ℓ : Loc nD τ sig) → Buf (Elt Ideal) ℓ)

/-! ## The arrays as the region finds them -/

/-- The aggregated neighbour features. -/
def AY (c : Dev nD) : S50000x64.Idx → EReal := V (F := Ideal) m c (Pipeline.arrRef spec0 0)
/-- The node features. -/
def AX (c : Dev nD) : S50000x64.Idx → EReal := V (F := Ideal) m c (Pipeline.arrRef spec0 1)
/-- The array of the first layer's weight. -/
def AW1 (c : Dev nD) : S64x64.Idx → EReal := V (F := Ideal) m c (Pipeline.arrRef spec0 2)
/-- The array of the first layer's bias. -/
def Ab1 (c : Dev nD) : S1x64.Idx → EReal := V (F := Ideal) m c (Pipeline.arrRef spec0 3)
/-- The array of the second layer's weight. -/
def AW2 (c : Dev nD) : S64x64.Idx → EReal := V (F := Ideal) m c (Pipeline.arrRef spec0 4)
/-- The array of the second layer's bias. -/
def Ab2 (c : Dev nD) : S1x64.Idx → EReal := V (F := Ideal) m c (Pipeline.arrRef spec0 5)
/-- The array of the residual weight. -/
def Ae (c : Dev nD) : S1x1.Idx → EReal := V (F := Ideal) m c (Pipeline.arrRef spec0 6)
/-- The array of the gain. -/
def Ag (c : Dev nD) : S1x64.Idx → EReal := V (F := Ideal) m c (Pipeline.arrRef spec0 7)
/-- The array of the offset. -/
def Abt (c : Dev nD) : S1x64.Idx → EReal := V (F := Ideal) m c (Pipeline.arrRef spec0 8)

/-! ## Which block each window is on -/

/-- At a first-pass point the two feature windows are on the block of that point's number, in the one column block. -/
theorem idx_first : ∀ t : Fin cfg0.N, t.val < 25 →
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The seven one-block windows are on their one block at every point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The feature blocks at a first-pass point -/

/-- At first-pass point t the block of aggregated features in place is block t. -/
theorem blk0_read (c : Dev nD) (t : Fin cfg0.N) (ht : t.val < 25) (p : Fin 2000) (i : Fin 64) :
    iblk m c 0 t (ix2 p i) = AY m c (ix2 ⟨2000 * t.val + p.val, by have := p.isLt; omega⟩ i) := by
  obtain ⟨e0, e1, -, -⟩ := idx_first t ht
  have h : ((cfg0.win 0).blk t).view.emb (ix2 p i) = ix2 ⟨2000 * t.val + p.val, by have := p.isLt; omega⟩ i := by
    funext a; apply Fin.ext
    match a with
    | ⟨0, _⟩ => show win0_0.index t (0 : Fin 2) * 2000 + 1 * p.val = 2000 * t.val + p.val; omega
    | ⟨1, _⟩ => show win0_0.index t (1 : Fin 2) * 64 + 1 * i.val = i.val; omega
  unfold iblk
  delta AY
  rw [View.read_apply, h]
  exact cast_eq _ _

/-- And the block of node features in place is block t. -/
theorem blk1_read (c : Dev nD) (t : Fin cfg0.N) (ht : t.val < 25) (p : Fin 2000) (i : Fin 64) :
    iblk m c 1 t (ix2 p i) = AX m c (ix2 ⟨2000 * t.val + p.val, by have := p.isLt; omega⟩ i) := by
  obtain ⟨-, -, e0, e1⟩ := idx_first t ht
  have h : ((cfg0.win 1).blk t).view.emb (ix2 p i) = ix2 ⟨2000 * t.val + p.val, by have := p.isLt; omega⟩ i := by
    funext a; apply Fin.ext
    match a with
    | ⟨0, _⟩ => show win0_1.index t (0 : Fin 2) * 2000 + 1 * p.val = 2000 * t.val + p.val; omega
    | ⟨1, _⟩ => show win0_1.index t (1 : Fin 2) * 64 + 1 * i.val = i.val; omega
  unfold iblk
  delta AX
  rw [View.read_apply, h]
  exact cast_eq _ _

/-! ## The one-block windows at any point -/

/-- The block of the first layer's weight is the whole array. -/
theorem blk2_eq (c : Dev nD) (t : Fin cfg0.N) : (iblk m c 2 t : S64x64.Idx → EReal) = AW1 m c := by
  obtain ⟨e0, e1, -, -, -, -, -, -, -, -, -, -, -, -⟩ := idx_whole t
  funext y
  have h : ((cfg0.win 2).blk t).view.emb y = y := by
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  unfold iblk
  delta AW1
  rw [View.read_apply, h]
  exact cast_eq _ _

/-- The block of the first layer's bias is the whole array. -/
theorem blk3_eq (c : Dev nD) (t : Fin cfg0.N) : (iblk m c 3 t : S1x64.Idx → EReal) = Ab1 m c := by
  obtain ⟨-, -, e0, e1, -, -, -, -, -, -, -, -, -, -⟩ := idx_whole t
  funext y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 64 + 1 * (y 1).val = (y 1).val; omega
  unfold iblk
  delta Ab1
  rw [View.read_apply, h]
  exact cast_eq _ _

/-- The block of the second layer's weight is the whole array. -/
theorem blk4_eq (c : Dev nD) (t : Fin cfg0.N) : (iblk m c 4 t : S64x64.Idx → EReal) = AW2 m c := by
  obtain ⟨-, -, -, -, e0, e1, -, -, -, -, -, -, -, -⟩ := idx_whole t
  funext y
  have h : ((cfg0.win 4).blk t).view.emb y = y := by
    funext a; apply Fin.ext
    match a with
    | ⟨0, _⟩ => show win0_4.index t (0 : Fin 2) * 64 + 1 * (y 0).val = (y 0).val; omega
    | ⟨1, _⟩ => show win0_4.index t (1 : Fin 2) * 64 + 1 * (y 1).val = (y 1).val; omega
  unfold iblk
  delta AW2
  rw [View.read_apply, h]
  exact cast_eq _ _

/-- The block of the second layer's bias is the whole array. -/
theorem blk5_eq (c : Dev nD) (t : Fin cfg0.N) : (iblk m c 5 t : S1x64.Idx → EReal) = Ab2 m c := by
  obtain ⟨-, -, -, -, -, -, e0, e1, -, -, -, -, -, -⟩ := idx_whole t
  funext y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 64 + 1 * (y 1).val = (y 1).val; omega
  unfold iblk
  delta Ab2
  rw [View.read_apply, h]
  exact cast_eq _ _

/-- The block of the residual weight is the whole array. -/
theorem blk6_eq (c : Dev nD) (t : Fin cfg0.N) : (iblk m c 6 t : S1x1.Idx → EReal) = Ae m c := by
  obtain ⟨-, -, -, -, -, -, -, -, e0, e1, -, -, -, -⟩ := idx_whole t
  funext y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 1 + 1 * (y 1).val = (y 1).val; omega
  unfold iblk
  delta Ae
  rw [View.read_apply, h]
  exact cast_eq _ _

/-- The block of the gain is the whole array. -/
theorem blk7_eq (c : Dev nD) (t : Fin cfg0.N) : (iblk m c 7 t : S1x64.Idx → EReal) = Ag m c := by
  obtain ⟨-, -, -, -, -, -, -, -, -, -, e0, e1, -, -⟩ := idx_whole t
  funext y
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 64 + 1 * (y 1).val = (y 1).val; omega
  unfold iblk
  delta Ag
  rw [View.read_apply, h]
  exact cast_eq _ _

/-- The block of the offset is the whole array. -/
theorem blk8_eq (c : Dev nD) (t : Fin cfg0.N) : (iblk m c 8 t : S1x64.Idx → EReal) = Abt m c := by
  obtain ⟨-, -, -, -, -, -, -, -, -, -, -, -, e0, e1⟩ := idx_whole t
  funext y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 64 + 1 * (y 1).val = (y 1).val; omega
  unfold iblk
  delta Abt
  rw [View.read_apply, h]
  exact cast_eq _ _

end Cert.KernelIdeal.ValueD

end
-- ==== Proof.Spec.lean ====
/-
  The mathematics both programs compute, over the extended reals, coordinate by coordinate.

  A node r (of 50000) carries 64 features.  With y the aggregated neighbour features,
    hid r j  = y r j + (1 + e) * x r j                       the residual with the learnable weight e
    act r k  = max (sum_j hid r j * W1 k j + b1 k) 0         first linear layer and the rectifier
    lin r k  = sum_j act r j * W2 k j + b2 k                 second linear layer
    mean k   = (sum_r lin r k) / 50000                       the batch mean of feature k
  and the batch variance in its two spellings,
    varC k   = (sum_r (lin r k - mean k)^2) / 50000          centred second moment
    varM k   = max ((sum_r (lin r k)^2) / 50000 - (mean k)^2) 0   raw second moment minus squared mean, clamped at 0
  which agree when every lin r k is a real number (sum (a - m)^2 = sum a^2 - N m^2 for m the mean, and the
  left side is non-negative so the clamp does nothing); at an infinite entry they differ, which is why the
  finiteness of the inputs is used.  The result is
    out v r k = max ((lin r k - mean k) * rsqrt (v k + eps) * g k + bt k) 0     with v the variance.
  The float constants stay as their binary words; their real values are named in NormLaw.
-/
import Idealize.ShloMosaic.PureOps.Ideal
import Mathlib

noncomputable section

namespace Cert.GinNorm

open Idealize.ShloMosaic

/-- The words 1.0, 0.0, 50000.0 and the normalisation's epsilon, read at the extended reals. -/
def cOne : EReal := Ideal.ofBits .f32 0x3F800000#32
def cZero : EReal := Ideal.ofBits .f32 0x00000000#32
def cN : EReal := Ideal.ofBits .f32 0x47435000#32
def cEps : EReal := Ideal.ofBits .f32 0x3727C5AC#32

variable (y x : Fin 50000 → Fin 64 → EReal) (W1 W2 : Fin 64 → Fin 64 → EReal) (b1 b2 : Fin 64 → EReal) (e : EReal)

/-- The residual: aggregated neighbours plus (1 + e) times the node's own features. -/
def hid (r : Fin 50000) (j : Fin 64) : EReal := y r j + (cOne + e) * x r j

/-- The first linear layer followed by the rectifier. -/
def act (r : Fin 50000) (k : Fin 64) : EReal := max ((∑ j : Fin 64, hid y x e r j * W1 k j) + b1 k) cZero

/-- The second linear layer: the values that are normalised over the batch. -/
def lin (r : Fin 50000) (k : Fin 64) : EReal := (∑ j : Fin 64, act y x W1 b1 e r j * W2 k j) + b2 k

/-- The batch mean of feature k. -/
def mean (k : Fin 64) : EReal := Ideal.div (∑ r : Fin 50000, lin y x W1 W2 b1 b2 e r k) cN

/-- The batch variance as the centred second moment. -/
def varC (k : Fin 64) : EReal :=
  Ideal.div (∑ r : Fin 50000, (lin y x W1 W2 b1 b2 e r k - mean y x W1 W2 b1 b2 e k) * (lin y x W1 W2 b1 b2 e r k - mean y x W1 W2 b1 b2 e k)) cN

/-- The batch variance as the raw second moment minus the squared mean, clamped at zero. -/
def varM (k : Fin 64) : EReal :=
  max (Ideal.div (∑ r : Fin 50000, lin y x W1 W2 b1 b2 e r k * lin y x W1 W2 b1 b2 e r k) cN
        - mean y x W1 W2 b1 b2 e k * mean y x W1 W2 b1 b2 e k) cZero

/-- The normalised, scaled, shifted and rectified result, for a variance v. -/
def out (g bt : Fin 64 → EReal) (v : Fin 64 → EReal) (r : Fin 50000) (k : Fin 64) : EReal :=
  max ((lin y x W1 W2 b1 b2 e r k - mean y x W1 W2 b1 b2 e k) * Ideal.rsqrt (v k + cEps) * g k + bt k) cZero

end Cert.GinNorm

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibAxisReads.lean ====
/-
  Layout and reduction operations of rank-2 arrays read at an index given by coordinates, at the ideal values.

  * A vector `[a]` cast to a column `[a, 1]` reads, at `(i, u)`, the vector at `i`: both have row-major
    position `i` because the unit coordinate `u` is 0.
  * A column `[a, 1]` broadcast over `[a, b]` reads, at `(p, c)`, the column at `(p, 0)`.
  * For a reduction of a rank-2 array along one axis, the source index over the result index `r` with
    coordinate `k` on the reduced axis is `(r, k)` (axis 1) or `(k, r)` (axis 0).  So a sum along an axis is
    the sum over that axis's coordinates, and a minimum along an axis is the fold of `min`, from the value of
    the starting word, over that axis's coordinates.
-/
import Idealize.ShloMosaic.Lib.ValueIdx
import Idealize.ShloMosaic.Lib.Pipeline.Value
import Idealize.ShloMosaic.Lib.ValueLayout
import Idealize.ShloMosaic.PureOps.Ideal.Laws

/-!
# Unit-axis columns and one-axis reductions of rank-2 arrays, read at an index

General lemmas in the style of the library's layout lemmas: the cast of a vector to a column, the broadcast of
a column over a matrix, and a sum or a minimum of a matrix along one axis, each read at an index written by
its coordinates.
-/

noncomputable section

open scoped BigOperators

namespace Cert.Lib.AxisReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along axis 1: the source index over row `r` with column `k` is `(r, k)`. -/
theorem lift_axis1 {n0 n1 : ℕ} (h : (⟨2, ![n0, n1]⟩ : Shape).Reduces [1] ⟨1, ![n0]⟩) (r : Fin n0) (k : Fin n1) :
    h.lift (ix1 r) k = ix2 r k := by
  funext c
  match c with
  | ⟨0, _⟩ => rfl
  | ⟨1, _⟩ => rfl

/-- Reducing a matrix along axis 0: the source index over column `q` with row `k` is `(k, q)`. -/
theorem lift_axis0 {n0 n1 : ℕ} (h : (⟨2, ![n0, n1]⟩ : Shape).Reduces [0] ⟨1, ![n1]⟩) (q : Fin n1) (k : Fin n0) :
    h.lift (ix1 q) k = ix2 k q := by
  funext c
  match c with
  | ⟨0, _⟩ => rfl
  | ⟨1, _⟩ => rfl

/-- A sum of a matrix along axis 1, at the ideal values, read at row `r`: the sum of the row. -/
theorem add_axis1_apply {n0 n1 : ℕ} {φ : FTy} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (r : Fin n0) :
    multiReduction .add [1] ⟨1, ![n0]⟩ src acc h hφ hacc (ix1 r) = ∑ d : Fin n1, src (ix2 r d) :=
  (Ideal.multiReduction_add_single src acc h hφ hacc (ix1 r)).trans
    (Finset.sum_congr rfl fun d _ => congrArg src (lift_axis1 h r d))

/-- A sum of a matrix along axis 0, at the ideal values, read at column `q`: the sum of the column. -/
theorem add_axis0_apply {n0 n1 : ℕ} {φ : FTy} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (q : Fin n1) :
    multiReduction .add [0] ⟨1, ![n1]⟩ src acc h hφ hacc (ix1 q) = ∑ d : Fin n0, src (ix2 d q) :=
  (Ideal.multiReduction_add_single src acc h hφ hacc (ix1 q)).trans
    (Finset.sum_congr rfl fun d _ => congrArg src (lift_axis0 h q d))

/-- A minimum over ONE axis, at the ideal values: the fold of `min` from the starting word's value over that
axis's coordinates (the twin of the library's law for a maximum). -/
theorem multiReduction_minimumf_single {s t : Shape} {a : Fin s.rank} {φ : FTy} (src : FVec Ideal s φ)
    (acc : BitVec φ.bits) (h : s.Reduces [a] t) (hφ : FKind.Formats φ)
    (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum of a matrix along axis 1, read at row `r`: the fold of `min` over the row. -/
theorem min_axis1_apply {n0 n1 : ℕ} {φ : FTy} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.minimumf.neutral φ hφ) (r : Fin n0) :
    multiReduction .minimumf [1] ⟨1, ![n0]⟩ src acc h hφ hacc (ix1 r)
      = (Finset.univ : Finset (Fin n1)).fold min (Ideal.ofBits φ acc) (fun d => src (ix2 r d)) :=
  (multiReduction_minimumf_single src acc h hφ hacc (ix1 r)).trans
    (Finset.fold_congr fun d _ => congrArg src (lift_axis1 h r d))

/-- A minimum of a matrix along axis 0, read at column `q`: the fold of `min` over the column. -/
theorem min_axis0_apply {n0 n1 : ℕ} {φ : FTy} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.minimumf.neutral φ hφ) (q : Fin n1) :
    multiReduction .minimumf [0] ⟨1, ![n1]⟩ src acc h hφ hacc (ix1 q)
      = (Finset.univ : Finset (Fin n0)).fold min (Ideal.ofBits φ acc) (fun d => src (ix2 d q)) :=
  (multiReduction_minimumf_single src acc h hφ hacc (ix1 q)).trans
    (Finset.fold_congr fun d _ => congrArg src (lift_axis0 h q d))

end Cert.Lib.AxisReads

end
-- ==== Proof.KPayloads.lean ====
/-
  The kernel's arithmetic read coordinate by coordinate over the extended reals.

  Every value the body stores is a pure function of the blocks it loads.  Read at a coordinate (p, q) of a
  2000 x 64 block, or (0, q) of a one-row block, each of them is the expression the specification is made of:

  * a linear layer  A Wᵀ + b  is  sum_i A p i * W q i + b 0 q  (rounding to the short format is the identity on the
    extended reals, the product runs into a zero accumulator, the transposed weight is read with its coordinates
    exchanged, and the one-row bias is spread down the rows);
  * the block of second-layer values is two such layers around the rectifier, on the residual
    y + (1 + e) x  with the 1 x 1 weight e spread over the block;
  * a column sum of a block is the sum over its 2000 rows;
  * the running totals add a block's column sums (of the values, of their squares) to what was there;
  * the mean and the clamped variance divide the totals by the word 50000;
  * the normalised block subtracts the mean, scales by the reciprocal root of the variance plus the epsilon word and
    by the gain, shifts by the offset and rectifies.

  The float words are kept as words: 1.0, 0.0, 50000.0 and the epsilon are the specification's named constants.
-/
import proofs.«176976_j49795850829912_2_alg».proof.Proof.Spec
import proofs.«176976_j49795850829912_2_alg».proof.Proof.Gen.KernelIdeal.Skeleton
import proofs.«176976_j49795850829912_2_alg».proof.Proof.LibMatmul2
import proofs.«176976_j49795850829912_2_alg».proof.Proof.LibAxisReads
import Idealize.ShloMosaic.Lib.ValueLayout
import Idealize.ShloMosaic.Lib.Pipeline.Value

noncomputable section

namespace Cert.KernelIdeal.ValueD

open Cert.KernelIdeal Cert.KernelIdeal.Gen Idealize.ShloMosaic Idealize.ShloMosaic.ValueIdx
open Cert.GinNorm (cOne cZero cN cEps)

/-! ## Layout operations at these shapes -/

/-- A 1 x 1 array spread over a 2000 x 64 block reads its one entry everywhere. -/
theorem spread11_apply (v : S1x1.Idx → EReal) (h : S1x1.Broadcasts S2000x64) (p : Fin 2000) (q : Fin 64) :
    broadcastTo S2000x64 v h (ix2 p q) = v (ix2 (0 : Fin 1) (0 : Fin 1)) :=
  broadcastTo_apply v h (ix2 p q) (ix2 (0 : Fin 1) (0 : Fin 1)) fun ax =>
    match ax with
    | ⟨0, _⟩ => rfl
    | ⟨1, _⟩ => rfl

/-- A one-row array spread down the rows of a 2000 x 64 block. -/
theorem spreadRow_apply (v : S1x64.Idx → EReal) (h : S1x64.Broadcasts S2000x64) (p : Fin 2000) (q : Fin 64) :
    broadcastTo S2000x64 v h (ix2 p q) = v (ix2 (0 : Fin 1) q) :=
  broadcastTo_1b_ab_apply v h p q

/-- The product of a 2000 x 64 block with a 64 x 64 matrix into a zero accumulator, at an entry. -/
theorem mm_apply (A : FVec Ideal S2000x64 .bf16) (B : FVec Ideal S64x64 .bf16) (p : Fin 2000) (q : Fin 64) :
    matmul dot_S2000x64_S64x64_S2000x64_1_0_0_1_n_n none A B (constant (F := Ideal) S2000x64 .f32 0x00000000#32) (ix2 p q)
      = ∑ i : Fin 64, A (ix2 p i) * B (ix2 i q) :=
  LibMatmul2.matmul_nn_apply dot_S2000x64_S64x64_S2000x64_1_0_0_1_n_n_wf none A B p q

/-- The column sums of a 2000 x 64 block, as a one-row array. -/
theorem colSum_apply (L : FVec Ideal S2000x64 .f32) (u : Fin 1) (q : Fin 64) :
    shapeCast S1x64 (multiReduction (F := Ideal) .add [0] S64 L 0x00000000#32 reduces_S2000x64_S64 (.inl rfl) rfl) shapeCasts_S64_S1x64 (ix2 u q)
      = ∑ p : Fin 2000, L (ix2 p q) :=
  (shapeCast_a_1a_apply _ shapeCasts_S64_S1x64 u q).trans
    (Cert.Lib.AxisReads.add_axis0_apply L 0x00000000#32 reduces_S2000x64_S64 (.inl rfl) rfl q)

/-! ## A linear layer -/

/-- A block times the transposed weight plus the one-row bias, as the kernel spells it. -/
def layer (A : FVec Ideal S2000x64 .f32) (W : FVec Ideal S64x64 .f32) (b : FVec Ideal S1x64 .f32) : FVec Ideal S2000x64 .f32 :=
  addf (matmul dot_S2000x64_S64x64_S2000x64_1_0_0_1_n_n none (truncf .bf16 A bitsLt_bf16_f32)
      (transpose S64x64 [1, 0] (truncf .bf16 W bitsLt_bf16_f32) transposes_S64x64_p1_0_S64x64)
      (constant (F := Ideal) S2000x64 .f32 0x00000000#32))
    (broadcastTo S2000x64 (shapeCast S1x64 b shapeCasts_S1x64_S1x64) broadcasts_S1x64_S2000x64)

theorem layer_apply (A : FVec Ideal S2000x64 .f32) (W : FVec Ideal S64x64 .f32) (b : FVec Ideal S1x64 .f32) (p : Fin 2000) (q : Fin 64) :
    layer A W b (ix2 p q) = (∑ i : Fin 64, A (ix2 p i) * W (ix2 q i)) + b (ix2 (0 : Fin 1) q) := by
  unfold layer
  rw [addf_apply, mm_apply, shapeCast_self, spreadRow_apply]
  refine congrArg (· + b (ix2 (0 : Fin 1) q)) (Finset.sum_congr rfl fun i _ => ?_)
  rw [truncf_apply, transpose_ix2_apply, truncf_apply]

/-- The residual y + (1 + e) x, as the kernel spells it. -/
def resid (x y : FVec Ideal S2000x64 .f32) (e : FVec Ideal S1x1 .f32) : FVec Ideal S2000x64 .f32 :=
  addf (shapeCast S2000x64 y shapeCasts_S2000x64_S2000x64)
    (mulf (broadcastTo S2000x64 (addf (broadcast S1x1 (Scalar.ofBits (F := Ideal) .f32 0x3F800000#32)) (shapeCast S1x1 e shapeCasts_S1x1_S1x1))
      broadcasts_S1x1_S2000x64) x)

theorem resid_apply (x y : FVec Ideal S2000x64 .f32) (e : FVec Ideal S1x1 .f32) (p : Fin 2000) (q : Fin 64) :
    resid x y e (ix2 p q) = y (ix2 p q) + (cOne + e (ix2 (0 : Fin 1) (0 : Fin 1))) * x (ix2 p q) := by
  unfold resid
  rw [addf_apply, shapeCast_self, mulf_apply, spread11_apply, addf_apply, shapeCast_self, broadcast_apply]
  rfl

/-! ## The payloads -/

/-- The block of second-layer values is two linear layers around the rectifier, on the residual. -/
theorem pay9_eq (x y : Vec Ideal S2000x64 .f32) (e : Vec Ideal S1x1 .f32) (W1 W2 : Vec Ideal S64x64 .f32) (b1 b2 : Vec Ideal S1x64 .f32) :
    k0_pay9 (F := Ideal) x y e W1 W2 b1 b2
      = layer (maximumf (layer (resid x y e) W1 b1) (broadcast S2000x64 (Scalar.ofBits (F := Ideal) .f32 0x00000000#32))) W2 b2 := rfl

theorem pay9_apply (x y : Vec Ideal S2000x64 .f32) (e : Vec Ideal S1x1 .f32) (W1 W2 : Vec Ideal S64x64 .f32) (b1 b2 : Vec Ideal S1x64 .f32)
    (p : Fin 2000) (q : Fin 64) :
    k0_pay9 (F := Ideal) x y e W1 W2 b1 b2 (ix2 p q)
      = (∑ j : Fin 64, max ((∑ i : Fin 64, (y (ix2 p i) + (cOne + e (ix2 (0 : Fin 1) (0 : Fin 1))) * x (ix2 p i)) * W1 (ix2 j i))
            + b1 (ix2 (0 : Fin 1) j)) cZero * W2 (ix2 q j)) + b2 (ix2 (0 : Fin 1) q) := by
  rw [pay9_eq, layer_apply]
  refine congrArg (· + b2 (ix2 (0 : Fin 1) q)) (Finset.sum_congr rfl fun j _ => ?_)
  rw [maximumf_apply, layer_apply, broadcast_apply]
  refine congrArg (fun z => max (z + b1 (ix2 (0 : Fin 1) j)) cZero * W2 (ix2 q j)) (Finset.sum_congr rfl fun i _ => ?_)
  rw [resid_apply]

/-- The block's column sums. -/
theorem pay11_apply (x y : Vec Ideal S2000x64 .f32) (e : Vec Ideal S1x1 .f32) (W1 W2 : Vec Ideal S64x64 .f32) (b1 b2 : Vec Ideal S1x64 .f32)
    (u : Fin 1) (q : Fin 64) :
    k0_pay11 (F := Ideal) x y e W1 W2 b1 b2 (ix2 u q) = ∑ p : Fin 2000, k0_pay9 (F := Ideal) x y e W1 W2 b1 b2 (ix2 p q) :=
  colSum_apply (k0_pay9 (F := Ideal) x y e W1 W2 b1 b2) u q

/-- The running totals start from zero. -/
theorem pay1_apply (i : S1x64.Idx) : k0_pay1 (F := Ideal) i = 0 := by
  unfold k0_pay1
  rw [shapeCast_self, broadcast_apply]
  exact Ideal.ofBits_zero_f32

theorem pay2_apply (i : S1x64.Idx) : k0_pay2 (F := Ideal) i = 0 := by
  unfold k0_pay2
  rw [shapeCast_self, broadcast_apply]
  exact Ideal.ofBits_zero_f32

/-- The running column sums take one more block's column sums. -/
theorem pay3_apply (s c : Vec Ideal S1x64 .f32) (i : S1x64.Idx) : k0_pay3 (F := Ideal) s c i = s i + c i := by
  unfold k0_pay3
  rw [shapeCast_self, addf_apply]

/-- The running sums of squares take one more block's. -/
theorem pay4_apply (L : FVec Ideal S2000x64 .f32) (s : Vec Ideal S1x64 .f32) (u : Fin 1) (q : Fin 64) :
    k0_pay4 (F := Ideal) L s (ix2 u q) = s (ix2 u q) + ∑ p : Fin 2000, L (ix2 p q) * L (ix2 p q) := by
  unfold k0_pay4
  rw [shapeCast_self, addf_apply, colSum_apply]
  rfl

/-- The mean: the total over the word 50000. -/
theorem pay6_apply (s : Vec Ideal S1x64 .f32) (i : S1x64.Idx) : k0_pay6 (F := Ideal) s i = Ideal.div (s i) cN := by
  unfold k0_pay6 k0_pay5
  rw [shapeCast_self, divf_apply, broadcast_apply]
  rfl

/-- The variance: the mean square minus the squared mean, clamped at the word 0. -/
theorem pay7_apply (s sq : Vec Ideal S1x64 .f32) (i : S1x64.Idx) :
    k0_pay7 (F := Ideal) s sq i = max (Ideal.div (sq i) cN - Ideal.div (s i) cN * Ideal.div (s i) cN) cZero := by
  unfold k0_pay7 k0_pay5
  rw [shapeCast_self, maximumf_apply, subf_apply, divf_apply, mulf_apply, divf_apply, broadcast_apply, broadcast_apply]
  rfl

/-- The normalised, scaled, shifted and rectified block. -/
theorem pay8_apply (L : Vec Ideal S2000x64 .f32) (v mu g bt : Vec Ideal S1x64 .f32) (p : Fin 2000) (q : Fin 64) :
    k0_pay8 (F := Ideal) L v mu g bt (ix2 p q)
      = max ((L (ix2 p q) - mu (ix2 (0 : Fin 1) q)) * Ideal.rsqrt (v (ix2 (0 : Fin 1) q) + cEps) * g (ix2 (0 : Fin 1) q)
          + bt (ix2 (0 : Fin 1) q)) cZero := by
  unfold k0_pay8
  rw [maximumf_apply, addf_apply, mulf_apply, mulf_apply, subf_apply, spreadRow_apply, spreadRow_apply, spreadRow_apply,
    spreadRow_apply, shapeCast_self, shapeCast_self, broadcast_apply]
  rfl

end Cert.KernelIdeal.ValueD

end
-- ==== Proof.KPoint.lean ====
/-
  One block of rows against the whole arrays.

  At a first-pass point the body loads block n of the aggregated features and of the node features (the 2000 rows
  from 2000 n on) and the whole of the weights, biases and the residual weight.  Read at (p, q), the block of
  second-layer values it forms is the specification's second-layer value of row 2000 n + p, feature q, and its column
  sum at q is the sum of those values over the block's rows.  The arrays are variables here; the coordinate views
  mat2, row1, entry1 turn an array into the function of coordinates the specification is written over.
-/
import proofs.«176976_j49795850829912_2_alg».proof.Proof.KPayloads

noncomputable section

namespace Cert.KernelIdeal.ValueD

open Cert.KernelIdeal Cert.KernelIdeal.Gen Idealize.ShloMosaic Idealize.ShloMosaic.ValueIdx
open Cert.GinNorm

/-- A rank-2 array as a function of its two coordinates. -/
def mat2 {a b : ℕ} (A : (⟨2, ![a, b]⟩ : Shape).Idx → EReal) : Fin a → Fin b → EReal := fun r j => A (ix2 r j)
/-- A one-row array as a function of its column. -/
def row1 {b : ℕ} (A : (⟨2, ![1, b]⟩ : Shape).Idx → EReal) : Fin b → EReal := fun k => A (ix2 (0 : Fin 1) k)
/-- A 1 x 1 array's entry. -/
def entry1 (A : (⟨2, ![1, 1]⟩ : Shape).Idx → EReal) : EReal := A (ix2 (0 : Fin 1) (0 : Fin 1))

variable (AY AX : S50000x64.Idx → EReal) (AW1 AW2 : S64x64.Idx → EReal) (Ab1 Ab2 : S1x64.Idx → EReal) (Ae : S1x1.Idx → EReal)

/-- The specification's second-layer values of the arrays. -/
def linOf : Fin 50000 → Fin 64 → EReal :=
  lin (mat2 AY) (mat2 AX) (mat2 AW1) (mat2 AW2) (row1 Ab1) (row1 Ab2) (entry1 Ae)

/-- The block of second-layer values formed from block n of the features is the specification's, row by row. -/
theorem lin_point (n : ℕ) (hn : n < 25) (bx by_ : Vec Ideal S2000x64 .f32)
    (hx : ∀ (p : Fin 2000) (i : Fin 64), bx (ix2 p i) = AX (ix2 ⟨2000 * n + p.val, by have := p.isLt; omega⟩ i))
    (hy : ∀ (p : Fin 2000) (i : Fin 64), by_ (ix2 p i) = AY (ix2 ⟨2000 * n + p.val, by have := p.isLt; omega⟩ i))
    (p : Fin 2000) (q : Fin 64) :
    k0_pay9 (F := Ideal) bx by_ Ae AW1 AW2 Ab1 Ab2 (ix2 p q)
      = linOf AY AX AW1 AW2 Ab1 Ab2 Ae ⟨2000 * n + p.val, by have := p.isLt; omega⟩ q := by
  rw [pay9_apply]
  simp only [hx, hy]
  rfl

/-- Its column sums are the sums of the specification's values over the block's rows. -/
theorem colsum_point (n : ℕ) (hn : n < 25) (bx by_ : Vec Ideal S2000x64 .f32)
    (hx : ∀ (p : Fin 2000) (i : Fin 64), bx (ix2 p i) = AX (ix2 ⟨2000 * n + p.val, by have := p.isLt; omega⟩ i))
    (hy : ∀ (p : Fin 2000) (i : Fin 64), by_ (ix2 p i) = AY (ix2 ⟨2000 * n + p.val, by have := p.isLt; omega⟩ i))
    (u : Fin 1) (q : Fin 64) :
    k0_pay11 (F := Ideal) bx by_ Ae AW1 AW2 Ab1 Ab2 (ix2 u q)
      = ∑ p : Fin 2000, linOf AY AX AW1 AW2 Ab1 Ab2 Ae ⟨2000 * n + p.val, by have := p.isLt; omega⟩ q := by
  rw [pay11_apply]
  exact Finset.sum_congr rfl fun p _ => lin_point AY AX AW1 AW2 Ab1 Ab2 Ae n hn bx by_ hx hy p q

end Cert.KernelIdeal.ValueD

end
-- ==== Proof.KSums.lean ====
/-
  Sums over the 50000 node rows taken 2000 rows at a time.

  The rows are handled in 25 consecutive blocks of 2000.  A function of the rows is continued by zero past the last row,
  so that block k's total is defined for every k and vanishes for k ≥ 25.  The total over all rows is the sum of the 25
  block totals (position 2000 i + j is entry j of block i), and a running total that starts at block 0's total and
  takes block n + 1's total at step n + 1 holds, after step 24, the total over all rows.  This holds in any additive
  commutative monoid: on the extended reals no finiteness is needed.
-/
import Mathlib

namespace Cert.KernelIdeal.ValueD

variable {M : Type*} [AddCommMonoid M]

/-- A function of the 50000 rows, continued by zero. -/
def rowsNat (f : Fin 50000 → M) (r : ℕ) : M := if h : r < 50000 then f ⟨r, h⟩ else 0

/-- The total of the 2000 rows of block k. -/
def blockSum (f : Fin 50000 → M) (k : ℕ) : M := ∑ p : Fin 2000, rowsNat f (2000 * k + p.val)

theorem blockSum_of_lt (f : Fin 50000 → M) (k : ℕ) (hk : k < 25) :
    blockSum f k = ∑ p : Fin 2000, f ⟨2000 * k + p.val, by have := p.isLt; omega⟩ := by
  unfold blockSum rowsNat
  refine Finset.sum_congr rfl fun p _ => ?_
  rw [dif_pos (by have := p.isLt; omega)]

/-- The 25 block totals add up to the total over all rows. -/
theorem sum_blocks (f : Fin 50000 → M) : ∑ k ∈ Finset.range 25, blockSum f k = ∑ r : Fin 50000, f r := by
  rw [Finset.sum_range]
  have e : ∑ r : Fin (25 * 2000), f r = ∑ i : Fin 25, ∑ j : Fin 2000, f (finProdFinEquiv (i, j)) := by
    rw [← Equiv.sum_comp (finProdFinEquiv (m := 25) (n := 2000)) (fun r : Fin (25 * 2000) => f r), Fintype.sum_prod_type]
  refine Eq.trans ?_ e.symm
  refine Finset.sum_congr rfl fun i _ => ?_
  rw [blockSum_of_lt f i.val i.isLt]
  refine Finset.sum_congr rfl fun j _ => congrArg f (Fin.ext ?_)
  show 2000 * i.val + j.val = j.val + 2000 * i.val
  omega

/-- A running total over the blocks: after step 24 it is the total over all rows. -/
theorem running_total (acc : ℕ → M) (f : Fin 50000 → M) (h0 : acc 0 = blockSum f 0)
    (hs : ∀ n, n + 1 < 25 → acc (n + 1) = acc n + blockSum f (n + 1)) : acc 24 = ∑ r : Fin 50000, f r := by
  have h : ∀ n, n < 25 → acc n = ∑ k ∈ Finset.range (n + 1), blockSum f k := by
    intro n
    induction n with
    | zero => intro _; rw [h0, Finset.sum_range_one]
    | succ n ih => intro hn; rw [hs n hn, ih (by omega), Finset.sum_range_succ _ (n + 1)]
  rw [h 24 (by omega), sum_blocks]

end Cert.KernelIdeal.ValueD
-- ==== Proof.KSpec.lean ====
/-
  The kernel's closed forms are the specification.

  With the arrays the region is entered with read by coordinates (Y the aggregated features, X the node features, W1, b1,
  W2, b2 the two linear layers, e the residual weight, g and bt the gain and the offset):

  * the block of second-layer values formed at first-pass point n is the specification's second-layer values of the rows
    2000 n .. 2000 n + 1999, and its column sums are their sums over those rows;
  * the running column sums and sums of squares, reset at point 0 and fed one block per point, hold after point 24 the
    sums over all 50000 rows (addition of extended reals is commutative and associative: nothing is assumed finite);
  * so the mean and the clamped variance formed from them are the specification's mean and raw-moment variance;
  * and the block written at second-pass point t is the specification's result on the rows of block t - 25, with that
    variance.
-/
import proofs.«176976_j49795850829912_2_alg».proof.Proof.KBlocks
import proofs.«176976_j49795850829912_2_alg».proof.Proof.KPoint
import proofs.«176976_j49795850829912_2_alg».proof.Proof.KSums

set_option maxRecDepth 16384

noncomputable section

namespace Cert.KernelIdeal.ValueD

open Cert.KernelIdeal Cert.KernelIdeal.Gen Cert.KernelIdeal.Body Idealize.ShloMosaic Idealize.ShloMosaic.ValueIdx
open Cert.GinNorm (lin mean varM out cOne cZero cN cEps)

variable (m : (ℓ : Loc nD τ sig) → Buf (Elt Ideal) ℓ)

/-! ## The arrays by coordinates -/

/-- The aggregated neighbour features, row r, feature j. -/
def Y (c : Dev nD) : Fin 50000 → Fin 64 → EReal := mat2 (AY m c)
/-- The node features. -/
def X (c : Dev nD) : Fin 50000 → Fin 64 → EReal := mat2 (AX m c)
/-- The two layers' weights and biases. -/
def W1 (c : Dev nD) : Fin 64 → Fin 64 → EReal := mat2 (AW1 m c)
def W2 (c : Dev nD) : Fin 64 → Fin 64 → EReal := mat2 (AW2 m c)
def b1 (c : Dev nD) : Fin 64 → EReal := row1 (Ab1 m c)
def b2 (c : Dev nD) : Fin 64 → EReal := row1 (Ab2 m c)
/-- The residual weight. -/
def e (c : Dev nD) : EReal := entry1 (Ae m c)
/-- The gain and the offset. -/
def g (c : Dev nD) : Fin 64 → EReal := row1 (Ag m c)
def bt (c : Dev nD) : Fin 64 → EReal := row1 (Abt m c)

/-- The specification's second-layer values of these arrays. -/
def L (c : Dev nD) : Fin 50000 → Fin 64 → EReal := lin (Y m c) (X m c) (W1 m c) (W2 m c) (b1 m c) (b2 m c) (e m c)

theorem L_eq (c : Dev nD) : L m c = linOf (AY m c) (AX m c) (AW1 m c) (AW2 m c) (Ab1 m c) (Ab2 m c) (Ae m c) := rfl

/-! ## One first-pass point -/

/-- The block of second-layer values formed at first-pass point t. -/
theorem linBlk_read (c : Dev nD) (t : Fin cfg0.N) (ht : t.val < 25) (p : Fin 2000) (q : Fin 64) :
    linBlk m c t (ix2 p q) = L m c ⟨2000 * t.val + p.val, by have := p.isLt; omega⟩ q := by
  unfold linBlk
  rw [blk2_eq m c, blk3_eq m c, blk4_eq m c, blk5_eq m c, blk6_eq m c, L_eq]
  exact lin_point (AY m c) (AX m c) (AW1 m c) (AW2 m c) (Ab1 m c) (Ab2 m c) (Ae m c) t.val ht _ _
    (blk1_read m c t ht) (blk0_read m c t ht) p q

/-- Its column sums. -/
theorem colSumBlk_read (c : Dev nD) (t : Fin cfg0.N) (ht : t.val < 25) (u : Fin 1) (q : Fin 64) :
    colSumBlk m c t (ix2 u q) = ∑ p : Fin 2000, L m c ⟨2000 * t.val + p.val, by have := p.isLt; omega⟩ q := by
  unfold colSumBlk
  rw [blk2_eq m c, blk3_eq m c, blk4_eq m c, blk5_eq m c, blk6_eq m c, L_eq]
  exact colsum_point (AY m c) (AX m c) (AW1 m c) (AW2 m c) (Ab1 m c) (Ab2 m c) (Ae m c) t.val ht _ _
    (blk1_read m c t ht) (blk0_read m c t ht) u q

/-- The first-pass point that handles block n is point n. -/
theorem pt_val {n : ℕ} (hn : n < 25) : (pt n).val = n := Nat.mod_eq_of_lt hn

theorem linBlk_pt (c : Dev nD) (n : ℕ) (hn : n < 25) (p : Fin 2000) (q : Fin 64) :
    linBlk m c (pt n) (ix2 p q) = L m c ⟨2000 * n + p.val, by have := p.isLt; omega⟩ q := by
  rw [linBlk_read m c (pt n) (by rw [pt_val hn]; exact hn) p q]
  exact congrArg (fun r => L m c r q) (Fin.ext (by show 2000 * (pt n).val + p.val = 2000 * n + p.val; rw [pt_val hn]))

theorem colSumBlk_pt (c : Dev nD) (n : ℕ) (hn : n < 25) (u : Fin 1) (q : Fin 64) :
    colSumBlk m c (pt n) (ix2 u q) = ∑ p : Fin 2000, L m c ⟨2000 * n + p.val, by have := p.isLt; omega⟩ q := by
  rw [colSumBlk_read m c (pt n) (by rw [pt_val hn]; exact hn) u q]
  exact Finset.sum_congr rfl fun p _ =>
    congrArg (fun r => L m c r q) (Fin.ext (by show 2000 * (pt n).val + p.val = 2000 * n + p.val; rw [pt_val hn]))

/-! ## The running totals over the 25 blocks -/

/-- After point 24 the running column sums are the sums over all rows. -/
theorem sumAt_total (c : Dev nD) (u : Fin 1) (q : Fin 64) :
    sumAt m c 24 (ix2 u q) = ∑ r : Fin 50000, L m c r q := by
  refine running_total (fun n => sumAt m c n (ix2 u q)) (fun r => L m c r q) ?_ ?_
  · show sumAt m c 0 (ix2 u q) = _
    rw [sumAt, pay3_apply, pay1_apply, zero_add, colSumBlk_pt m c 0 (by omega) u q, blockSum_of_lt _ 0 (by omega)]
  · intro n hn
    show sumAt m c (n + 1) (ix2 u q) = sumAt m c n (ix2 u q) + _
    rw [sumAt, if_pos hn, pay3_apply, colSumBlk_pt m c (n + 1) hn u q, blockSum_of_lt _ (n + 1) hn]

/-- After point 24 the running sums of squares are the sums of the squares over all rows. -/
theorem sqAt_total (c : Dev nD) (u : Fin 1) (q : Fin 64) :
    sqAt m c 24 (ix2 u q) = ∑ r : Fin 50000, L m c r q * L m c r q := by
  have hblk : ∀ n, n < 25 → ∑ p : Fin 2000, linBlk m c (pt n) (ix2 p q) * linBlk m c (pt n) (ix2 p q)
      = blockSum (fun r => L m c r q * L m c r q) n := by
    intro n hn
    rw [blockSum_of_lt _ n hn]
    exact Finset.sum_congr rfl fun p _ => by rw [linBlk_pt m c n hn p q]
  refine running_total (fun n => sqAt m c n (ix2 u q)) (fun r => L m c r q * L m c r q) ?_ ?_
  · show sqAt m c 0 (ix2 u q) = _
    rw [sqAt, pay4_apply, pay2_apply, zero_add, hblk 0 (by omega)]
  · intro n hn
    show sqAt m c (n + 1) (ix2 u q) = sqAt m c n (ix2 u q) + _
    rw [sqAt, if_pos hn, pay4_apply, hblk (n + 1) hn]

/-! ## The batch statistics -/

/-- The mean buffer holds the specification's mean. -/
theorem meanV_read (c : Dev nD) (u : Fin 1) (q : Fin 64) :
    meanV m c (ix2 u q) = mean (Y m c) (X m c) (W1 m c) (W2 m c) (b1 m c) (b2 m c) (e m c) q := by
  unfold meanV
  rw [pay6_apply, sumAt_total]
  rfl

/-- The variance buffer holds the specification's raw-moment variance. -/
theorem varV_read (c : Dev nD) (u : Fin 1) (q : Fin 64) :
    varV m c (ix2 u q) = varM (Y m c) (X m c) (W1 m c) (W2 m c) (b1 m c) (b2 m c) (e m c) q := by
  unfold varV
  rw [pay7_apply, sumAt_total, sqAt_total]
  rfl

/-! ## The block written at a second-pass point -/

/-- The block written at second-pass point t is the specification's result on the rows of block t - 25. -/
theorem outBlk_spec (c : Dev nD) (t : Fin cfg0.N) (ht : 25 ≤ t.val) (p : Fin 2000) (q : Fin 64) :
    outBlk (F := Ideal) m c t (ix2 p q)
      = out (Y m c) (X m c) (W1 m c) (W2 m c) (b1 m c) (b2 m c) (e m c) (g m c) (bt m c)
          (varM (Y m c) (X m c) (W1 m c) (W2 m c) (b1 m c) (b2 m c) (e m c))
          ⟨2000 * (t.val - 25) + p.val, by have := p.isLt; have := t.isLt; have hN : cfg0.N = 50 := cfgN; omega⟩ q := by
  have hN : cfg0.N = 50 := cfgN
  have htl : t.val < cfg0.N := t.isLt
  have hpt : pt t.val = pt (t.val - 25) := Fin.ext (by show t.val % 25 = (t.val - 25) % 25; omega)
  unfold outBlk
  rw [blk7_eq m c t, blk8_eq m c t, pay8_apply, hpt, linBlk_pt m c (t.val - 25) (by omega) p q, meanV_read, varV_read]
  rfl

end Cert.KernelIdeal.ValueD

end
-- ==== Proof.EntryArrays.lean ====
/-
  The arrays the region is entered with, as functions of the program's arguments.

  Before the region the program forms the aggregated neighbour features: the source indices are wrapped into
  range, the rows x[src] are gathered, scaled by the edge weights and added at the destination rows onto zeros.
  These are the same operations, on the same four arguments, as the first stage of the reference, so the
  aggregated array is the reference's stage function of those arguments.  The node features and the two weight
  matrices are staged untouched.  The two biases, the scale and the shift are reshaped from [64] to [1,64] and
  the residual weight from [1] to [1,1]: a reshape keeps the row-major position, so entry (0,k) of the reshaped
  array is entry k of the argument.
-/
import proofs.«176976_j49795850829912_2_alg».proof.Proof.Gen.KernelIdeal.Frame
import proofs.«176976_j49795850829912_2_alg».proof.Proof.Gen.ReferenceIdeal.Read

set_option maxRecDepth 16384

noncomputable section

namespace Cert.KernelIdeal.Entry

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (c : Dev nD)

/-- The node features are staged as launched. -/
theorem win1 : V m c (Pipeline.arrRef spec0 1) = m ((c.tc : Thread nD τ).loc main_arg0) := V_main_arg0 m c

/-- The first weight matrix is staged as launched. -/
theorem win2 : V m c (Pipeline.arrRef spec0 2) = m ((c.tc : Thread nD τ).loc main_arg4) := V_main_arg4 m c

/-- The second weight matrix is staged as launched. -/
theorem win4 : V m c (Pipeline.arrRef spec0 4) = m ((c.tc : Thread nD τ).loc main_arg6) := V_main_arg6 m c

/-- A [64] vector reshaped to [1,64], read at (0,k), is the vector at k. -/
theorem cast64 (x : S64.Idx → EReal) (h : S64.ShapeCasts S1x64) (k : Fin 64) :
    shapeCast S1x64 x h (ix2 0 k) = x (ix1 k) :=
  shapeCast_apply x h (ix2 0 k) (ix1 k) (by
    rw [Shape.rowMajor_val_two, Shape.rowMajor_val_one]; show k.val = 0 * 64 + k.val; omega)

/-- A [1] vector reshaped to [1,1], read at (0,0), is the vector at 0. -/
theorem cast1 (x : S1.Idx → EReal) (h : S1.ShapeCasts S1x1) :
    shapeCast S1x1 x h (ix2 0 0) = x (ix1 0) :=
  shapeCast_apply x h (ix2 0 0) (ix1 0) (by
    rw [Shape.rowMajor_val_two, Shape.rowMajor_val_one]; rfl)

/-- The first bias, reshaped to one row. -/
theorem win3 (k : Fin 64) :
    (V m c (Pipeline.arrRef spec0 3) : S1x64.Idx → EReal) (ix2 0 k)
      = (m ((c.tc : Thread nD τ).loc main_arg5) : S64.Idx → EReal) (ix1 k) := by
  have e : (V m c main_v13 : S1x64.Idx → EReal)
      = shapeCast S1x64 (m ((c.tc : Thread nD τ).loc main_arg5) : S64.Idx → EReal) Facts₀.shapeCasts_S64_S1x64 := by
    dsimp only [Gen.V, Gen.hostOps0]; after_results; rfl
  show (V m c main_v13 : S1x64.Idx → EReal) (ix2 0 k) = _
  rw [e]; exact cast64 _ _ k

/-- The second bias, reshaped to one row. -/
theorem win5 (k : Fin 64) :
    (V m c (Pipeline.arrRef spec0 5) : S1x64.Idx → EReal) (ix2 0 k)
      = (m ((c.tc : Thread nD τ).loc main_arg7) : S64.Idx → EReal) (ix1 k) := by
  have e : (V m c main_v14 : S1x64.Idx → EReal)
      = shapeCast S1x64 (m ((c.tc : Thread nD τ).loc main_arg7) : S64.Idx → EReal) Facts₀.shapeCasts_S64_S1x64 := by
    dsimp only [Gen.V, Gen.hostOps0]; after_results; rfl
  show (V m c main_v14 : S1x64.Idx → EReal) (ix2 0 k) = _
  rw [e]; exact cast64 _ _ k

/-- The residual weight, reshaped to a one-by-one array. -/
theorem win6 :
    (V m c (Pipeline.arrRef spec0 6) : S1x1.Idx → EReal) (ix2 0 0)
      = (m ((c.tc : Thread nD τ).loc main_arg8) : S1.Idx → EReal) (ix1 0) := by
  have e : (V m c main_v15 : S1x1.Idx → EReal)
      = shapeCast S1x1 (m ((c.tc : Thread nD τ).loc main_arg8) : S1.Idx → EReal) Facts₀.shapeCasts_S1_S1x1 := by
    dsimp only [Gen.V, Gen.hostOps0]; after_results; rfl
  show (V m c main_v15 : S1x1.Idx → EReal) (ix2 0 0) = _
  rw [e]; exact cast1 _ _

/-- The scale, reshaped to one row. -/
theorem win7 (k : Fin 64) :
    (V m c (Pipeline.arrRef spec0 7) : S1x64.Idx → EReal) (ix2 0 k)
      = (m ((c.tc : Thread nD τ).loc main_arg9) : S64.Idx → EReal) (ix1 k) := by
  have e : (V m c main_v16 : S1x64.Idx → EReal)
      = shapeCast S1x64 (m ((c.tc : Thread nD τ).loc main_arg9) : S64.Idx → EReal) Facts₀.shapeCasts_S64_S1x64 := by
    dsimp only [Gen.V, Gen.hostOps0]; after_results; rfl
  show (V m c main_v16 : S1x64.Idx → EReal) (ix2 0 k) = _
  rw [e]; exact cast64 _ _ k

/-- The shift, reshaped to one row. -/
theorem win8 (k : Fin 64) :
    (V m c (Pipeline.arrRef spec0 8) : S1x64.Idx → EReal) (ix2 0 k)
      = (m ((c.tc : Thread nD τ).loc main_arg10) : S64.Idx → EReal) (ix1 k) := by
  have e : (V m c main_v17 : S1x64.Idx → EReal)
      = shapeCast S1x64 (m ((c.tc : Thread nD τ).loc main_arg10) : S64.Idx → EReal) Facts₀.shapeCasts_S64_S1x64 := by
    dsimp only [Gen.V, Gen.hostOps0]; after_results; rfl
  show (V m c main_v17 : S1x64.Idx → EReal) (ix2 0 k) = _
  rw [e]; exact cast64 _ _ k

/-- The aggregated neighbour features: the reference's first stage at the same four arguments. -/
theorem win0 :
    (V m c (Pipeline.arrRef spec0 0) : S50000x64.Idx → EReal)
      = Cert.ReferenceIdeal.Read.val_main_v12 (F := Ideal)
          (m ((c.tc : Thread nD τ).loc main_arg0)) (m ((c.tc : Thread nD τ).loc main_arg1))
          (m ((c.tc : Thread nD τ).loc main_arg2)) (m ((c.tc : Thread nD τ).loc main_arg3)) := by
  show (V m c main_v12 : S50000x64.Idx → EReal) = _
  dsimp only [Gen.V, Gen.hostOps0]; after_results_simp
  rfl

end Cert.KernelIdeal.Entry

end
-- ==== Proof.NormLaw.lean ====
/-
  The algebraic law behind the two spellings of the batch variance.

  Over the extended reals the centred second moment  (sum_r (a r - m)^2) / N  and the clamped
  difference  max ((sum_r (a r)^2) / N - m^2) 0,  with m = (sum_r a r) / N,  agree as soon as every
  a r is a real number:  sum_r (a r - m)^2 = sum_r (a r)^2 - N m^2,  and the left side is a sum of
  squares, hence non-negative, so the clamp at zero is the identity.  This file names the real values
  of the float constants, defines "is a real number", shows that the normalised values are real when
  the inputs are, and derives the law and its consequence for the result.
-/
import proofs.«176976_j49795850829912_2_alg».proof.Proof.Spec

noncomputable section

namespace Cert.GinNorm

open Idealize.ShloMosaic

/-! ### The constants -/

/-- The word of +0.0 denotes 0. -/
theorem cZero_eq : cZero = 0 := by
  simp [cZero, Ideal.ofBits, Ideal.ieee]

/-- The word of 1.0 denotes the real 1. -/
theorem cOne_eq : cOne = ((1 : ℝ) : EReal) := by
  simp [cOne, Ideal.ofBits, Ideal.ieee, -EReal.coe_mul]; norm_num

/-- The word of 50000.0 denotes the real 50000: (2^23 + 4411392) * 2^(142 - 127 - 23). -/
theorem cN_eq : cN = ((50000 : ℝ) : EReal) := by
  simp [cN, Ideal.ofBits, Ideal.ieee, -EReal.coe_mul]; norm_num

/-- The epsilon's word has a biased exponent 110, neither 0 nor 255: it denotes a real number. -/
theorem cEps_real : ∃ p : ℝ, cEps = (p : EReal) := by
  simp [cEps, Ideal.ofBits, Ideal.ieee, -EReal.coe_mul]

/-! ### Real numbers inside the extended reals -/

/-- An extended real that is a real number. -/
def IsReal (v : EReal) : Prop := ∃ a : ℝ, v = (a : EReal)

theorem isReal_coe (a : ℝ) : IsReal (a : EReal) := ⟨a, rfl⟩

theorem isReal_zero : IsReal (0 : EReal) := ⟨0, rfl⟩

theorem isReal_cZero : IsReal cZero := cZero_eq ▸ isReal_zero

theorem isReal_cOne : IsReal cOne := ⟨1, cOne_eq⟩

theorem isReal_cN : IsReal cN := ⟨50000, cN_eq⟩

theorem isReal_cEps : IsReal cEps := cEps_real

/-- The embedding of the reals commutes with the maximum (it is monotone). -/
theorem coe_max (a b : ℝ) : ((max a b : ℝ) : EReal) = max (a : EReal) (b : EReal) :=
  EReal.coe_strictMono.monotone.map_max

/-- The embedding of the reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

theorem IsReal.add {u v : EReal} (hu : IsReal u) (hv : IsReal v) : IsReal (u + v) := by
  obtain ⟨a, rfl⟩ := hu; obtain ⟨b, rfl⟩ := hv; exact ⟨a + b, (EReal.coe_add a b).symm⟩

theorem IsReal.sub {u v : EReal} (hu : IsReal u) (hv : IsReal v) : IsReal (u - v) := by
  obtain ⟨a, rfl⟩ := hu; obtain ⟨b, rfl⟩ := hv; exact ⟨a - b, (EReal.coe_sub a b).symm⟩

theorem IsReal.mul {u v : EReal} (hu : IsReal u) (hv : IsReal v) : IsReal (u * v) := by
  obtain ⟨a, rfl⟩ := hu; obtain ⟨b, rfl⟩ := hv; exact ⟨a * b, (EReal.coe_mul a b).symm⟩

theorem IsReal.max {u v : EReal} (hu : IsReal u) (hv : IsReal v) : IsReal (max u v) := by
  obtain ⟨a, rfl⟩ := hu; obtain ⟨b, rfl⟩ := hv; exact ⟨Max.max a b, (coe_max a b).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert i s hi ih =>
    rw [Finset.sum_insert hi]
    exact (h i (Finset.mem_insert_self i s)).add (ih (fun j hj => h j (Finset.mem_insert_of_mem hj)))

/-- Division by the batch size is multiplication by the real 1/50000. -/
theorem div_cN (u : EReal) : Ideal.div u cN = u * (((1 / 50000 : ℝ)) : EReal) := by
  rw [cN_eq, Ideal.div_coe (by norm_num)]

theorem IsReal.div_cN {u : EReal} (hu : IsReal u) : IsReal (Ideal.div u cN) := by
  rw [Cert.GinNorm.div_cN]; exact hu.mul (isReal_coe _)

/-! ### The normalised values are real when the inputs are -/

variable {y x : Fin 50000 → Fin 64 → EReal} {W1 W2 : Fin 64 → Fin 64 → EReal} {b1 b2 : Fin 64 → EReal}
  {e : EReal}

theorem hid_isReal (hy : ∀ r j, IsReal (y r j)) (hx : ∀ r j, IsReal (x r j)) (he : IsReal e)
    (r : Fin 50000) (j : Fin 64) : IsReal (hid y x e r j) :=
  (hy r j).add ((isReal_cOne.add he).mul (hx r j))

theorem act_isReal (hy : ∀ r j, IsReal (y r j)) (hx : ∀ r j, IsReal (x r j))
    (hW1 : ∀ k j, IsReal (W1 k j)) (hb1 : ∀ k, IsReal (b1 k)) (he : IsReal e)
    (r : Fin 50000) (k : Fin 64) : IsReal (act y x W1 b1 e r k) :=
  ((IsReal.sum _ _ (fun j _ => (hid_isReal hy hx he r j).mul (hW1 k j))).add (hb1 k)).max isReal_cZero

theorem lin_isReal (hy : ∀ r j, IsReal (y r j)) (hx : ∀ r j, IsReal (x r j))
    (hW1 : ∀ k j, IsReal (W1 k j)) (hW2 : ∀ k j, IsReal (W2 k j))
    (hb1 : ∀ k, IsReal (b1 k)) (hb2 : ∀ k, IsReal (b2 k)) (he : IsReal e) :
    ∀ r k, IsReal (lin y x W1 W2 b1 b2 e r k) := fun r k =>
  (IsReal.sum _ _ (fun j _ => (act_isReal hy hx hW1 hb1 he r j).mul (hW2 k j))).add (hb2 k)

/-! ### The law -/

/-- Over the reals, for values a indexed by a finite type of N elements and c with N * c = 1, c ≥ 0
    (so c = 1/N): the clamped difference of the raw second moment and the squared mean is the centred
    second moment.  Expanding the square, sum (a - S c)^2 = sum a^2 - 2 (S c) S + N (S c)^2
    = sum a^2 - c S^2, where S = sum a. -/
theorem real_var_law {ι : Type*} [Fintype ι] (a : ι → ℝ) (c : ℝ)
    (hc : (Fintype.card ι : ℝ) * c = 1) (hc0 : 0 ≤ c) :
    Max.max ((∑ r, a r * a r) * c - ((∑ r, a r) * c) * ((∑ r, a r) * c)) 0
      = (∑ r, (a r - (∑ r, a r) * c) * (a r - (∑ r, a r) * c)) * c := by
  generalize hS : ∑ r, a r = S
  have key : ∑ r, (a r - S * c) * (a r - S * c) = (∑ r, a r * a r) - c * S * S := by
    have hexp : ∀ r, (a r - S * c) * (a r - S * c)
        = a r * a r - 2 * (S * c) * a r + (S * c) * (S * c) := fun r => by ring
    simp only [hexp]
    rw [Finset.sum_add_distrib, Finset.sum_sub_distrib, ← Finset.mul_sum, Finset.sum_const,
      Finset.card_univ, nsmul_eq_mul, hS]
    have hN : (Fintype.card ι : ℝ) * (S * c * (S * c)) = S * S * c * ((Fintype.card ι : ℝ) * c) := by
      ring
    rw [hN, hc]; ring
  have heq : (∑ r, a r * a r) * c - S * c * (S * c) = (∑ r, (a r - S * c) * (a r - S * c)) * c := by
    rw [key]; ring
  rw [heq]
  exact max_eq_left (mul_nonneg (Finset.sum_nonneg (fun r _ => mul_self_nonneg _)) hc0)

/-- The law over the extended reals, at real entries, in the spelling of the specification. -/
theorem ereal_var_law (a : Fin 50000 → ℝ) :
    Max.max (Ideal.div (∑ r : Fin 50000, (a r : EReal) * (a r : EReal)) cN
          - Ideal.div (∑ r : Fin 50000, (a r : EReal)) cN * Ideal.div (∑ r : Fin 50000, (a r : EReal)) cN) cZero
      = Ideal.div (∑ r : Fin 50000, ((a r : EReal) - Ideal.div (∑ r : Fin 50000, (a r : EReal)) cN)
          * ((a r : EReal) - Ideal.div (∑ r : Fin 50000, (a r : EReal)) cN)) cN := by
  have h0 : cZero = ((0 : ℝ) : EReal) := cZero_eq
  rw [h0]
  simp only [div_cN, ← coe_sum, ← EReal.coe_mul, ← EReal.coe_sub, ← coe_max]
  rw [EReal.coe_eq_coe_iff]
  refine real_var_law a (1 / 50000) ?_ (by norm_num)
  rw [Fintype.card_fin]; norm_num

variable (y x W1 W2 b1 b2 e) in
/-- The two spellings of the batch variance agree when every normalised value is a real number. -/
theorem varM_eq_varC (h : ∀ r k, IsReal (lin y x W1 W2 b1 b2 e r k)) :
    varM y x W1 W2 b1 b2 e = varC y x W1 W2 b1 b2 e := by
  funext k
  choose a ha using fun r => h r k
  simp only [varM, varC, mean, ha]
  exact ereal_var_law a

/-- The result computed with either variance is the same, at real inputs. -/
theorem out_varM_eq_varC (hy : ∀ r j, IsReal (y r j)) (hx : ∀ r j, IsReal (x r j))
    (hW1 : ∀ k j, IsReal (W1 k j)) (hW2 : ∀ k j, IsReal (W2 k j))
    (hb1 : ∀ k, IsReal (b1 k)) (hb2 : ∀ k, IsReal (b2 k)) (he : IsReal e)
    (g bt : Fin 64 → EReal) :
    out y x W1 W2 b1 b2 e g bt (varM y x W1 W2 b1 b2 e)
      = out y x W1 W2 b1 b2 e g bt (varC y x W1 W2 b1 b2 e) := by
  rw [varM_eq_varC y x W1 W2 b1 b2 e (lin_isReal hy hx hW1 hW2 hb1 hb2 he)]

end Cert.GinNorm

end
-- ==== Proof.FiniteInputs.lean ====
/-
  Finiteness.  The precondition says of each of the nine float inputs a that all(|a| < +inf); at the extended
  reals that means every entry of every float input is a real number.  From there the aggregated neighbour
  features are real too: a gathered element is an input element, its product with a real edge weight is real,
  and a scatter-add onto zeros is, entry by entry, zero plus a finite sum of such products.

  Why it matters: the centred second moment equals the raw second moment minus the squared mean only on real
  numbers (at an infinite entry the two spellings part), so the law that joins the two programs uses these facts.
-/
import proofs.«176976_j49795850829912_2_alg».proof.Pre_finite_inputs
import proofs.«176976_j49795850829912_2_alg».proof.Defs
import proofs.«176976_j49795850829912_2_alg».proof.Proof.Gen.ReferenceIdeal.Read
import Idealize.ShloMosaic.Lib.ReduceAll
import Idealize.ShloMosaic.Lib.ValueIdx
import Idealize.ShloMosaic.PureOps.Ideal.Laws
import Mathlib

noncomputable section

namespace Cert.GinNorm.Finite

open Idealize.ShloMosaic Idealize.ShloMosaic.ValueIdx

/-! ## Real numbers inside the extended reals are closed under sums and products -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h _ (Finset.mem_insert_self _ _)) (ih fun i hi => h i (Finset.mem_insert_of_mem hi))

/-! ## One entry: |x| < +inf means x is real -/

/-- The word 0x7F800000 is +inf. -/
theorem inf_word : Ideal.ofBits .f32 0x7F800000#32 = (⊤ : EReal) := by
  simp [Ideal.ofBits, Ideal.ieee]

/-- An extended real whose absolute value max x (-x) is strictly below +inf is a real number:
    at -inf and at +inf the absolute value is +inf. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-! ## One array: all(|a| < +inf) = 1 means every entry of a is real -/

instance : Subsingleton Cert.Pre_finite_inputs.S_.Idx := ⟨fun a b => funext fun d => d.elim0⟩

open Cert.Pre_finite_inputs in
/-- The conjunction over all entries of |a i| < +inf being 1, every entry is real; at any shape. -/
theorem all_real {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant (F := Ideal) S_ .f32 0x7F800000#32)))
          (constantI S_ 1 1#1) hr hu ix0 = 1#1) (i : s.Idx) : ∃ r : ℝ, a i = (r : EReal) := by
  have e := Host.reduce_andi_all _ _ hr hu ix0 h i
  exact real_of_abs_lt (a i) e

/-! ## The precondition: the nine float inputs are real entry by entry -/

section Args
open Cert.Pre_finite_inputs
variable [Cert.Pre_finite_inputs.Facts]

/-- The precondition is the conjunction of the nine all(|a| < +inf); each conjunct gives its array real. -/
theorem args_real (a0 : FVec Ideal S50000x64 .f32) (a1 a2 : IVec S800000 32) (a3 : FVec Ideal S800000 .f32)
    (a4 : FVec Ideal S64x64 .f32) (a5 : FVec Ideal S64 .f32) (a6 : FVec Ideal S64x64 .f32) (a7 : FVec Ideal S64 .f32)
    (a8 : FVec Ideal S1 .f32) (a9 a10 : FVec Ideal S64 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal)) := by
  have h' := congrFun h ix0
  dsimp only [Cert.Pre_finite_inputs.fn, Cert.Pre_finite_inputs.fn_part1, Cert.Pre_finite_inputs.fn_part2, andi] at h'
  simp only [IntOp.andi_eq_one] at h'
  obtain ⟨⟨⟨⟨⟨⟨⟨⟨h0, h3⟩, h4⟩, h5⟩, h6⟩, h7⟩, h8⟩, h9⟩, h10⟩ := h'
  exact ⟨all_real _ _ _ a0 h0, all_real _ _ _ a3 h3, all_real _ _ _ a4 h4, all_real _ _ _ a5 h5, all_real _ _ _ a6 h6,
    all_real _ _ _ a7 h7, all_real _ _ _ a8 h8, all_real _ _ _ a9 h9, all_real _ _ _ a10 h10⟩

open Idealize.SL.Sem in
/-- The same, from the precondition as the certificate states it: of the first program's memory, on each device. -/
theorem args_real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal)) :=
  args_real _ _ _ _ _ _ _ _ _ _ _ (hpre c)

end Args

/-! ## The aggregated neighbour features are real -/

section Agg

/-- A float scatter-add at the extended reals: real when the operand and all updates are. Each result element is
    the operand's element plus a finite sum of update elements; which ones does not matter. -/
theorem scatterAdd_real {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) := by
  show ∃ r : ℝ, x i + ∑ j ∈ Finset.univ.filter (fun j => d.resultIdx? j idx = some i), upd j = (r : EReal)
  exact real_add (hx i) (real_sum _ _ fun j _ => hu j)

/-- A gather reads operand elements: real when the operand is. -/
theorem gather_real {s si t : Shape} {w : Nat} (d : GatherDims s si t) (x : FVec Ideal s .f32) (idx : IVec si w)
    (hx : ∀ i, ∃ r : ℝ, x i = (r : EReal)) (j : t.Idx) : ∃ r : ℝ, Host.gather d x idx j = (r : EReal) :=
  hx _

open Cert.ReferenceIdeal Cert.ReferenceIdeal.Read Idealize.SL.Sem

/-- Every entry of the aggregated features (gather at the sources, times the edge weight, scatter-added at the
    destinations onto zeros) is real when the node features and the edge weights are. -/
theorem y_real (a0 : (⟨S50000x64, .f32⟩ : BufTy).Contents (Elt Ideal)) (a1 a2 : (⟨S800000, .i32⟩ : BufTy).Contents (Elt Ideal))
    (a3 : (⟨S800000, .f32⟩ : BufTy).Contents (Elt Ideal))
    (h0 : ∀ i, ∃ r : ℝ, a0 i = (r : EReal)) (h3 : ∀ i, ∃ r : ℝ, a3 i = (r : EReal)) (i : S50000x64.Idx) :
    ∃ r : ℝ, val_main_v12 (F := Ideal) a0 a1 a2 a3 i = (r : EReal) := by
  unfold val_main_v12
  refine scatterAdd_real _ _ _ _ (fun i => ?_) (fun j => ?_) i
  · rw [val_main_v10_apply, val_main_cst_apply]
    exact ⟨0, Ideal.ofBits_zero_f32⟩
  · rw [val_main_v9_apply]
    refine real_mul ?_ ?_
    · unfold val_main_v6
      exact gather_real _ _ _ h0 j
    · rw [val_main_v8_apply, val_main_v7_apply]
      exact h3 _

end Agg

end Cert.GinNorm.Finite

end
-- ==== Proof.RefSpec.lean ====
/-
  The reference program computes the specification.

  Read stage by stage at the extended reals, the reference forms, from the aggregated neighbour features y
  (the scatter-add's result, which is kept here as the stage itself and never opened), the node features x,
  the two weight matrices and biases, the residual weight e, and the normalisation's scale g and shift bt:
    the residual            y r j + (1 + e) * x r j,
    the first linear layer  (each weight matrix is transposed and then contracted on its first axis, so entry
                             (r, k) of the product is the sum over j of the left operand at (r, j) times the
                             weight at (k, j)) with its bias, and the rectifier as a maximum with a zero array,
    the second linear layer, the same way,
    the batch mean          a sum over the 50000 rows started from the zero word, divided by the word 50000.0,
    the centred variance    the same sum of the squared differences from the mean, divided by the same word,
    the result              (lin - mean) * rsqrt (variance + eps) * g + bt, under the rectifier.
  The zero words the sums start from are the extended real 0 and drop out by 0 + s = s; every other float word
  stays the word it is, the same on both sides.  The residual weight arrives as a one-element array reshaped to a
  scalar: its only entry.
-/
import proofs.«176976_j49795850829912_2_alg».proof.Proof.Gen.ReferenceIdeal.Read
import proofs.«176976_j49795850829912_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.GinNorm

variable (a0 : (⟨S50000x64, .f32⟩ : BufTy).Contents (Elt Ideal))
  (a1 a2 : (⟨S800000, .i32⟩ : BufTy).Contents (Elt Ideal))
  (a3 : (⟨S800000, .f32⟩ : BufTy).Contents (Elt Ideal))
  (a4 : (⟨S64x64, .f32⟩ : BufTy).Contents (Elt Ideal))
  (a5 : (⟨S64, .f32⟩ : BufTy).Contents (Elt Ideal))
  (a6 : (⟨S64x64, .f32⟩ : BufTy).Contents (Elt Ideal))
  (a7 : (⟨S64, .f32⟩ : BufTy).Contents (Elt Ideal))
  (a8 : (⟨S1, .f32⟩ : BufTy).Contents (Elt Ideal))
  (a9 a10 : (⟨S64, .f32⟩ : BufTy).Contents (Elt Ideal))

/-! ## The specification's arguments, drawn from the argument arrays -/

/-- The aggregated neighbour features: the scatter-add's result, coordinate by coordinate. -/
abbrev aggY : Fin 50000 → Fin 64 → EReal := fun r j => val_main_v12 (F := Ideal) a0 a1 a2 a3 (ix2 r j)
/-- The node features. -/
abbrev featX : Fin 50000 → Fin 64 → EReal := fun r j => a0 (ix2 r j)
/-- A 64 x 64 weight matrix by row and column. -/
abbrev mat (w : (⟨S64x64, .f32⟩ : BufTy).Contents (Elt Ideal)) : Fin 64 → Fin 64 → EReal := fun k j => w (ix2 k j)
/-- A vector of 64 entries. -/
abbrev vec (v : (⟨S64, .f32⟩ : BufTy).Contents (Elt Ideal)) : Fin 64 → EReal := fun k => v (ix1 k)
/-- The residual weight: the one entry of its array. -/
abbrev resW : EReal := a8 (ix1 (0 : Fin 1))

/-! ## Index maps at coordinates -/

theorem lidx19 (r : Fin 50000) (k j : Fin 64) : lidx_main_v19 (ix2 r k) j = ix2 r j :=
  funext fun a => Fin.ext (by match a with | ⟨0, _⟩ => rfl | ⟨1, _⟩ => rfl)
theorem ridx19 (r : Fin 50000) (k j : Fin 64) : idx_main_v18 (ridx_main_v19 (ix2 r k) j) = ix2 k j :=
  funext fun a => Fin.ext (by match a with | ⟨0, _⟩ => rfl | ⟨1, _⟩ => rfl)
theorem lidx25 (r : Fin 50000) (k j : Fin 64) : lidx_main_v25 (ix2 r k) j = ix2 r j :=
  funext fun a => Fin.ext (by match a with | ⟨0, _⟩ => rfl | ⟨1, _⟩ => rfl)
theorem ridx25 (r : Fin 50000) (k j : Fin 64) : idx_main_v24 (ridx_main_v25 (ix2 r k) j) = ix2 k j :=
  funext fun a => Fin.ext (by match a with | ⟨0, _⟩ => rfl | ⟨1, _⟩ => rfl)
/-- A row vector broadcast over the rows is read at the column. -/
theorem col20 (r : Fin 50000) (k : Fin 64) : idx_main_v20 (idx_main_v21 (ix2 r k)) = ix1 k :=
  funext fun a => Fin.ext (by match a with | ⟨0, _⟩ => rfl)
theorem col26 (r : Fin 50000) (k : Fin 64) : idx_main_v26 (idx_main_v27 (ix2 r k)) = ix1 k :=
  funext fun a => Fin.ext (by match a with | ⟨0, _⟩ => rfl)
theorem col32 (r : Fin 50000) (k : Fin 64) : idx_main_v32 (idx_main_v33 (ix2 r k)) = ix1 k :=
  funext fun a => Fin.ext (by match a with | ⟨0, _⟩ => rfl)
theorem col39 (r : Fin 50000) (k : Fin 64) : idx_main_v39 (idx_main_v40 (ix2 r k)) = ix1 k :=
  funext fun a => Fin.ext (by match a with | ⟨0, _⟩ => rfl)
theorem col45 (r : Fin 50000) (k : Fin 64) : idx_main_v45 (idx_main_v46 (ix2 r k)) = ix1 k :=
  funext fun a => Fin.ext (by match a with | ⟨0, _⟩ => rfl)
theorem col48 (r : Fin 50000) (k : Fin 64) : idx_main_v48 (idx_main_v49 (ix2 r k)) = ix1 k :=
  funext fun a => Fin.ext (by match a with | ⟨0, _⟩ => rfl)
theorem col51 (r : Fin 50000) (k : Fin 64) : idx_main_v51 (idx_main_v52 (ix2 r k)) = ix1 k :=
  funext fun a => Fin.ext (by match a with | ⟨0, _⟩ => rfl)
/-- The sum over the rows reads row r of column k. -/
theorem row29 (k : Fin 64) (r : Fin 50000) : idx_main_v29 (ix1 k) r = ix2 r k :=
  funext fun a => Fin.ext (by match a with | ⟨0, _⟩ => rfl | ⟨1, _⟩ => rfl)
theorem row36 (k : Fin 64) (r : Fin 50000) : idx_main_v36 (ix1 k) r = ix2 r k :=
  funext fun a => Fin.ext (by match a with | ⟨0, _⟩ => rfl | ⟨1, _⟩ => rfl)

/-! ## The stages -/

/-- The one-element array reshaped to a scalar is its entry. -/
theorem scalar13 (i : S_.Idx) : val_main_v13 (F := Ideal) a8 i = resW a8 := by
  unfold val_main_v13
  refine shapeCast_apply a8 shapeCasts_S1_S_ i (ix1 (0 : Fin 1)) ?_
  rw [Shape.rowMajor_val_one]
  exact (Shape.rowMajorPi_zero _ i).symm

/-- The residual. -/
theorem hid_eq (r : Fin 50000) (j : Fin 64) :
    val_main_v17 (F := Ideal) a0 a1 a2 a3 a8 (ix2 r j) = hid (aggY a0 a1 a2 a3) (featX a0) (resW a8) r j := by
  rw [val_main_v17_apply, val_main_v16_apply, val_main_v15_apply, val_main_v14_apply, val_main_cst_1_apply, scalar13]
  rfl

/-- The first linear layer and the rectifier. -/
theorem act_eq (r : Fin 50000) (k : Fin 64) :
    val_main_v23 (F := Ideal) a0 a1 a2 a3 a4 a5 a8 (ix2 r k)
      = act (aggY a0 a1 a2 a3) (featX a0) (mat a4) (vec a5) (resW a8) r k := by
  rw [val_main_v23_apply, val_main_call0_v0_apply, val_main_call0_cst_apply, val_main_v22_apply, val_main_v21_apply,
    val_main_v20_apply, col20, val_main_v19_apply]
  have hs : ∀ j : Fin 64, val_main_v17 (F := Ideal) a0 a1 a2 a3 a8 (lidx_main_v19 (ix2 r k) j)
        * val_main_v18 (F := Ideal) a4 (ridx_main_v19 (ix2 r k) j)
      = hid (aggY a0 a1 a2 a3) (featX a0) (resW a8) r j * mat a4 k j := fun j => by
    rw [val_main_v18_apply, lidx19, ridx19, hid_eq]
  rw [Finset.sum_congr rfl fun j _ => hs j]
  rfl

/-- The second linear layer. -/
theorem lin_eq (r : Fin 50000) (k : Fin 64) :
    val_main_v28 (F := Ideal) a0 a1 a2 a3 a4 a5 a6 a7 a8 (ix2 r k)
      = lin (aggY a0 a1 a2 a3) (featX a0) (mat a4) (mat a6) (vec a5) (vec a7) (resW a8) r k := by
  rw [val_main_v28_apply, val_main_v27_apply, val_main_v26_apply, col26, val_main_v25_apply]
  have hs : ∀ j : Fin 64, val_main_v23 (F := Ideal) a0 a1 a2 a3 a4 a5 a8 (lidx_main_v25 (ix2 r k) j)
        * val_main_v24 (F := Ideal) a6 (ridx_main_v25 (ix2 r k) j)
      = act (aggY a0 a1 a2 a3) (featX a0) (mat a4) (vec a5) (resW a8) r j * mat a6 k j := fun j => by
    rw [val_main_v24_apply, lidx25, ridx25, act_eq]
  rw [Finset.sum_congr rfl fun j _ => hs j]
  rfl

/-- The batch mean. -/
theorem mean_eq (k : Fin 64) :
    val_main_v31 (F := Ideal) a0 a1 a2 a3 a4 a5 a6 a7 a8 (ix1 k)
      = mean (aggY a0 a1 a2 a3) (featX a0) (mat a4) (mat a6) (vec a5) (vec a7) (resW a8) k := by
  rw [val_main_v31_apply, val_main_v30_apply, val_main_cst_3_apply, val_main_v29_apply, val_main_cst_2_apply,
    Ideal.ofBits_def, Ideal.ofBits_def, Ideal.ofBits_zero_f32, zero_add,
    Finset.sum_congr rfl fun r _ => (congrArg _ (row29 k r)).trans (lin_eq a0 a1 a2 a3 a4 a5 a6 a7 a8 r k)]
  rfl

/-- The difference from the mean. -/
theorem centred_eq (r : Fin 50000) (k : Fin 64) :
    val_main_v34 (F := Ideal) a0 a1 a2 a3 a4 a5 a6 a7 a8 (ix2 r k)
      = lin (aggY a0 a1 a2 a3) (featX a0) (mat a4) (mat a6) (vec a5) (vec a7) (resW a8) r k
        - mean (aggY a0 a1 a2 a3) (featX a0) (mat a4) (mat a6) (vec a5) (vec a7) (resW a8) k := by
  rw [val_main_v34_apply, val_main_v33_apply, val_main_v32_apply, col32, mean_eq, lin_eq]
  rfl

/-- The centred variance. -/
theorem varC_eq (k : Fin 64) :
    val_main_v38 (F := Ideal) a0 a1 a2 a3 a4 a5 a6 a7 a8 (ix1 k)
      = varC (aggY a0 a1 a2 a3) (featX a0) (mat a4) (mat a6) (vec a5) (vec a7) (resW a8) k := by
  have hs : ∀ r : Fin 50000, val_main_v35 (F := Ideal) a0 a1 a2 a3 a4 a5 a6 a7 a8 (idx_main_v36 (ix1 k) r)
      = (lin (aggY a0 a1 a2 a3) (featX a0) (mat a4) (mat a6) (vec a5) (vec a7) (resW a8) r k
          - mean (aggY a0 a1 a2 a3) (featX a0) (mat a4) (mat a6) (vec a5) (vec a7) (resW a8) k)
        * (lin (aggY a0 a1 a2 a3) (featX a0) (mat a4) (mat a6) (vec a5) (vec a7) (resW a8) r k
          - mean (aggY a0 a1 a2 a3) (featX a0) (mat a4) (mat a6) (vec a5) (vec a7) (resW a8) k) := fun r => by
    rw [row36, val_main_v35_apply, centred_eq]
    rfl
  rw [val_main_v38_apply, val_main_v37_apply, val_main_cst_5_apply, val_main_v36_apply, val_main_cst_4_apply,
    Ideal.ofBits_def, Ideal.ofBits_def, Ideal.ofBits_zero_f32, zero_add, Finset.sum_congr rfl fun r _ => hs r]
  rfl

/-- The reference's result is the specification's, with the centred variance. -/
theorem ref_is_spec (r : Fin 50000) (k : Fin 64) :
    val_main_v54 (F := Ideal) a0 a1 a2 a3 a4 a5 a6 a7 a8 a9 a10 (ix2 r k)
      = out (aggY a0 a1 a2 a3) (featX a0) (mat a4) (mat a6) (vec a5) (vec a7) (resW a8) (vec a9) (vec a10)
          (varC (aggY a0 a1 a2 a3) (featX a0) (mat a4) (mat a6) (vec a5) (vec a7) (resW a8)) r k := by
  rw [val_main_v54_apply, val_main_call1_v0_apply, val_main_call1_cst_apply, val_main_v53_apply,
    val_main_v52_apply, val_main_v51_apply, col51, val_main_v50_apply, val_main_v49_apply, val_main_v48_apply, col48,
    val_main_v47_apply, val_main_v46_apply, val_main_v45_apply, col45, val_main_v44_apply, val_main_v43_apply,
    val_main_v42_apply, val_main_cst_6_apply, varC_eq, val_main_v41_apply, val_main_v40_apply, val_main_v39_apply, col39,
    mean_eq, lin_eq]
  rfl

/-- The specification's result, with the centred variance, as one array: a function of the argument arrays, read at an
    index by its two coordinates. -/
abbrev specOf : S50000x64.Idx → EReal := fun i =>
  out (aggY a0 a1 a2 a3) (featX a0) (mat a4) (mat a6) (vec a5) (vec a7) (resW a8) (vec a9) (vec a10)
    (varC (aggY a0 a1 a2 a3) (featX a0) (mat a4) (mat a6) (vec a5) (vec a7) (resW a8)) (i 0) (i 1)

/-- The reference's last stage is that array. -/
theorem ref_fun : val_main_v54 (F := Ideal) a0 a1 a2 a3 a4 a5 a6 a7 a8 a9 a10 = specOf a0 a1 a2 a3 a4 a5 a6 a7 a8 a9 a10 := by
  funext i
  obtain ⟨r, k, rfl⟩ : ∃ (r : Fin 50000) (k : Fin 64), i = ix2 r k := ⟨i 0, i 1, eq_ix2 i⟩
  exact ref_is_spec a0 a1 a2 a3 a4 a5 a6 a7 a8 a9 a10 r k

end Cert.ReferenceIdeal.RefValue

end
-- ==== Proof.KernelValue.lean ====
/-
  What the fused kernel's program leaves in its result array, at the extended reals.

  The result array is its 25 blocks of 2000 rows, block b written at the second-pass point 25 + b; each block is the
  specification's result on its rows with the raw-moment variance; the arrays the region reads are the program's
  arguments (the aggregated features being the same gather / scatter-add of the same arguments that the reference
  forms); and under the precondition every argument and every aggregated feature is a real number, so the raw-moment
  variance is the centred one.  Hence the program ends with the specification's result with the centred variance of
  its arguments, and with the arguments unchanged.
-/
import proofs.«176976_j49795850829912_2_alg».proof.Proof.BodyFrame
import proofs.«176976_j49795850829912_2_alg».proof.Proof.OutArray
import proofs.«176976_j49795850829912_2_alg».proof.Proof.KSpec
import proofs.«176976_j49795850829912_2_alg».proof.Proof.EntryArrays
import proofs.«176976_j49795850829912_2_alg».proof.Proof.NormLaw
import proofs.«176976_j49795850829912_2_alg».proof.Proof.FiniteInputs
import proofs.«176976_j49795850829912_2_alg».proof.Proof.RefSpec

set_option maxRecDepth 16384

noncomputable section

namespace Cert.KernelIdeal.KValue

open Cert.KernelIdeal Cert.KernelIdeal.Gen Cert.KernelIdeal.Body Cert.KernelIdeal.ValueD Cert.KernelIdeal.OutArray
open Idealize.ShloMosaic Idealize.ShloMosaic.TcCoe Idealize.ShloMosaic.ValueIdx Idealize.SL.Sem
open Cert.ReferenceIdeal.RefValue (aggY featX mat vec resW specOf)
open Cert.GinNorm (IsReal out varM varC out_varM_eq_varC)

variable (m : (ℓ : Loc nD τ sig) → Buf (Elt Ideal) ℓ)

/-! ## The arrays the region reads are the arguments -/

theorem Y_eq (c : Dev nD) : Y m c = aggY (m ((c.tc : Thread nD τ).loc main_arg0)) (m ((c.tc : Thread nD τ).loc main_arg1)) (m ((c.tc : Thread nD τ).loc main_arg2)) (m ((c.tc : Thread nD τ).loc main_arg3)) := by
  funext r j; unfold Y mat2 AY; rw [Cert.KernelIdeal.Entry.win0 m c]
theorem X_eq (c : Dev nD) : X m c = featX (m ((c.tc : Thread nD τ).loc main_arg0)) := by
  funext r j; unfold X mat2 AX; rw [Cert.KernelIdeal.Entry.win1 m c]
theorem W1_eq (c : Dev nD) : W1 m c = mat (m ((c.tc : Thread nD τ).loc main_arg4)) := by
  funext k j; unfold W1 mat2 AW1; rw [Cert.KernelIdeal.Entry.win2 m c]
theorem W2_eq (c : Dev nD) : W2 m c = mat (m ((c.tc : Thread nD τ).loc main_arg6)) := by
  funext k j; unfold W2 mat2 AW2; rw [Cert.KernelIdeal.Entry.win4 m c]
theorem b1_eq (c : Dev nD) : b1 m c = vec (m ((c.tc : Thread nD τ).loc main_arg5)) := by
  funext k; unfold b1 row1 Ab1; exact Cert.KernelIdeal.Entry.win3 m c k
theorem b2_eq (c : Dev nD) : b2 m c = vec (m ((c.tc : Thread nD τ).loc main_arg7)) := by
  funext k; unfold b2 row1 Ab2; exact Cert.KernelIdeal.Entry.win5 m c k
theorem e_eq (c : Dev nD) : e m c = resW (m ((c.tc : Thread nD τ).loc main_arg8)) := by
  unfold e entry1 Ae; exact Cert.KernelIdeal.Entry.win6 m c
theorem g_eq (c : Dev nD) : g m c = vec (m ((c.tc : Thread nD τ).loc main_arg9)) := by
  funext k; unfold g row1 Ag; exact Cert.KernelIdeal.Entry.win7 m c k
theorem bt_eq (c : Dev nD) : bt m c = vec (m ((c.tc : Thread nD τ).loc main_arg10)) := by
  funext k; unfold bt row1 Abt; exact Cert.KernelIdeal.Entry.win8 m c k

/-! ## The result array -/

/-- Under the precondition the result array is the specification's result, with the centred variance, of the
    arguments. -/
theorem result_array [Cert.Pre_finite_inputs.Facts] (hpre : Cert.Pre_KernelIdeal m) (c : Dev nD) :
    (dats (F := Ideal) m 0 c).arrAt 9 cfg0.N = specOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨h0, h3, h4, h5, h6, h7, h8, h9, h10⟩ := Cert.GinNorm.Finite.args_real_of_pre m hpre c
  rw [out_array_eq]
  funext z
  unfold outArr
  have hz : 25 ≤ (outPt z).val := by unfold outPt; exact Nat.le_add_right _ _
  rw [outBlk_spec m c (outPt z) hz (rowIn z) (z 1)]
  refine (congrArg (fun r => out (Y m c) (X m c) (W1 m c) (W2 m c) (b1 m c) (b2 m c) (e m c) (g m c) (bt m c)
    (varM (Y m c) (X m c) (W1 m c) (W2 m c) (b1 m c) (b2 m c) (e m c)) r (z 1)) (Fin.ext ?_ : _ = z 0)).trans ?_
  · show 2000 * ((outPt z).val - 25) + (rowIn z).val = (z 0).val
    unfold outPt rowIn
    show 2000 * (25 + (z 0).val / 2000 - 25) + (z 0).val % 2000 = (z 0).val
    omega
  · rw [Y_eq, X_eq, W1_eq, W2_eq, b1_eq, b2_eq, e_eq, g_eq, bt_eq]
    exact congrFun (congrFun (out_varM_eq_varC
      (fun r j => Cert.GinNorm.Finite.y_real _ _ _ _ h0 h3 (ix2 r j)) (fun r j => h0 (ix2 r j))
      (fun k j => h4 (ix2 k j)) (fun k j => h6 (ix2 k j)) (fun k => h5 (ix1 k)) (fun k => h7 (ix1 k)) (h8 (ix1 0))
      (vec (m ((c.tc : Thread nD τ).loc main_arg9))) (vec (m ((c.tc : Thread nD τ).loc main_arg10)))) (z 0)) (z 1)

/-- The eleven arguments end as they were. -/
theorem args_kept (r : PUnit × MemSt nD τ sig (Elt Ideal)) (h : Pipeline.FramePost cfgs (dats (F := Ideal) m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).1 4).trans (((dats m 0 c).arrAt_in 4 rfl _).trans ((A_eq m c 4).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The run: every weakly fair execution terminates with the result array at the specification's result of the
    arguments and the arguments unchanged. -/
theorem run [Cert.Pre_finite_inputs.Facts] (hpre : Cert.Pre_KernelIdeal m) (ρ : Dev nD → PrngReg) :
    θ_run defs (onTc (τ := τ) (main (F := Ideal))) ⟨m, fun _ => 0, ρ⟩ (fun r => ∀ c : Dev nD,
      r.2.mem ((c.tc : Thread nD τ).loc main_v18) = specOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 9).trans (result_array m hpre c), args_kept m r h c⟩) (run_main (F := Ideal) m ρ)

end Cert.KernelIdeal.KValue

end
-- ==== Proof.RefRun.lean ====
/-
  The reference's run, stated with the specification.

  Every weakly fair execution of the reference program, from any memory with zero counters, terminates with its
  result array equal, entry by entry, to the specification's result with the centred variance, computed from the
  arrays the memory held for the arguments, and with those arrays unchanged.  This is the program's run (each result
  at the operations' composed term) followed by the reading of that term as the specification.
-/
import proofs.«176976_j49795850829912_2_alg».proof.Proof.RefSpec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v54)
        = specOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10) :=
  (θ_run defs _ _).mono
    (fun _ h c => ⟨(h c).1.trans ((val_main_v54_eq m' c).trans (ref_fun _ _ _ _ _ _ _ _ _ _ _)), (h c).2⟩)
    (Cert.ReferenceIdeal.Value.run (F := Ideal) m' ρ')

end Cert.ReferenceIdeal.RefValue

end
-- ==== Proof.lean ====
/-
  The certificate of a graph layer: neighbour aggregation with a learnable residual weight, two linear layers with a
  rectifier between them, batch normalisation over the 50000 nodes, and a final rectifier.

  The kernel program forms the aggregated features on the host exactly as the reference does, then runs one fused
  kernel over a 2 x 25 grid: a first pass that pushes each block of 2000 rows through the two layers, keeps the block
  in a resident buffer and accumulates column sums and sums of squares, and a second pass that forms the mean and the
  variance as  max (E[h^2] - E[h]^2, 0)  and normalises each block.  The reference forms the variance as
  E[(h - E[h])^2].  On real numbers the two are equal (sum (a - m)^2 = sum a^2 - N m^2, and the left side is
  non-negative), and under the precondition every input, hence every second-layer value, is real; at an infinite
  entry they would differ, so the precondition is used.  Everything else is the same expression on both sides, the
  kernel's tiling and the order of its sums making no difference on the extended reals.

  The three frames: the word-level and the idealised kernel programs by the body's run at each of the four kinds of
  grid point over an invariant on the five resident buffers; the reference by its run.  No rewrite was applied when
  the kernel was idealised, so there is nothing to preserve.  The value claim: both programs end at the
  specification's result of their arguments, which agree.
-/
import proofs.«176976_j49795850829912_2_alg».proof.Defs
import proofs.«176976_j49795850829912_2_alg».proof.Proof.Gen.Kernel
import proofs.«176976_j49795850829912_2_alg».proof.Proof.Gen.KernelIdeal
import proofs.«176976_j49795850829912_2_alg».proof.Proof.Gen.ReferenceIdeal
import proofs.«176976_j49795850829912_2_alg».proof.Proof.Gen.Pre_finite_inputs
import proofs.«176976_j49795850829912_2_alg».proof.Proof.Gen.ReferenceIdeal.Run
import proofs.«176976_j49795850829912_2_alg».proof.Proof.Gen.ReferenceIdeal.Read
import proofs.«176976_j49795850829912_2_alg».proof.Proof.WBodyFrame
import proofs.«176976_j49795850829912_2_alg».proof.Proof.BodyFrame
import proofs.«176976_j49795850829912_2_alg».proof.Proof.KernelValue
import proofs.«176976_j49795850829912_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_word : Cert.frame_Kernel := fun m ρ _ => Cert.Kernel.Body.frame m ρ

/-- So does the idealised kernel program. -/
theorem frame_ideal : Cert.frame_KernelIdeal := fun m ρ _ => Cert.KernelIdeal.Body.frame m ρ

/-- So does the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- No rewrite was applied in idealising the kernel. -/
theorem preserves : Cert.preserves_Kernel_KernelIdeal := trivial

/-- From memories agreeing on the arguments both programs end at the specification's result (centred variance) of
    those arguments: the kernel by its blocks and the finiteness of the inputs, the reference by its stages. -/
theorem algebraic : Cert.algebraic_KernelIdeal_ReferenceIdeal := by
  intro m ρ m' ρ' hpre hagree
  refine ⟨fun c => Cert.ReferenceIdeal.RefValue.specOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KValue.run m hpre ρ, ?_⟩
  refine (θ_run Cert.ReferenceIdeal.defs _ _).mono (fun _ h c => ⟨(h c).1.trans ?_, (h c).2⟩)
    (Cert.ReferenceIdeal.RefValue.ref_run m' ρ')
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
